-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S3x2x625000 : Shape := ⟨3, ![3, 2, 625000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64x128 .f32) (main_arg9 : FVec F S64 .f32) (main_arg10 : FVec F S64x128 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x128 .f32 := Host.absf main_arg10
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S64x128 .f32) (main_arg9 : FVec F S64 .f32) (main_arg10 : FVec F S64x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S3x2x625000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S64x128 .f32) (main_arg9 : FVec F S64 .f32) (main_arg10 : FVec F S64x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S3x2x625000 : Shape := ⟨3, ![3, 2, 625000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x2x625000 : Shape := ⟨3, ![1, 2, 625000]⟩
abbrev S2x625000 : Shape := ⟨2, ![2, 625000]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩
abbrev S5000x1 : Shape := ⟨2, ![5000, 1]⟩
abbrev S128x64 : Shape := ⟨2, ![128, 64]⟩
abbrev S100000x64 : Shape := ⟨2, ![100000, 64]⟩
abbrev S5000x64 : Shape := ⟨2, ![5000, 64]⟩
abbrev S625000x64 : Shape := ⟨2, ![625000, 64]⟩
abbrev S1x64 : Shape := ⟨2, ![1, 64]⟩

abbrev nBuf : Space → Nat
  | .hbm => 120
  | .vmem => 37
  | .smem => 0
  | _ => 0

abbrev bufTy : (tb : Table) → Fin (tcTables nBuf tb) → BufTy
  | .hbm, ⟨0, _⟩ => ⟨S100000x128, .f32⟩
  | .hbm, ⟨1, _⟩ => ⟨S3x2x625000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S64x128, .f32⟩
  | .hbm, ⟨9, _⟩ => ⟨S64, .f32⟩
  | .hbm, ⟨10, _⟩ => ⟨S64x128, .f32⟩
  | .hbm, ⟨11, _⟩ => ⟨S1x2x625000, .i32⟩
  | .hbm, ⟨12, _⟩ => ⟨S2x625000, .i32⟩
  | .hbm, ⟨13, _⟩ => ⟨S1x625000, .i32⟩
  | .hbm, ⟨14, _⟩ => ⟨S625000, .i32⟩
  | .hbm, ⟨15, _⟩ => ⟨S1x625000, .i32⟩
  | .hbm, ⟨16, _⟩ => ⟨S625000, .i32⟩
  | .hbm, ⟨17, _⟩ => ⟨S_, .i32⟩
  | .hbm, ⟨18, _⟩ => ⟨S625000, .i32⟩
  | .hbm, ⟨19, _⟩ => ⟨S625000, .i1⟩
  | .hbm, ⟨20, _⟩ => ⟨S_, .i32⟩
  | .hbm, ⟨21, _⟩ => ⟨S625000, .i32⟩
  | .hbm, ⟨22, _⟩ => ⟨S625000, .i32⟩
  | .hbm, ⟨23, _⟩ => ⟨S625000, .i32⟩
  | .hbm, ⟨24, _⟩ => ⟨S625000x1, .i32⟩
  | .hbm, ⟨25, _⟩ => ⟨S625000x128, .f32⟩
  | .hbm, ⟨26, _⟩ => ⟨S_, .f32⟩
  | .hbm, ⟨27, _⟩ => ⟨S100000x128, .f32⟩
  | .hbm, ⟨28, _⟩ => ⟨S625000x1, .i32⟩
  | .hbm, ⟨29, _⟩ => ⟨S100000x128, .f32⟩
  | .hbm, ⟨30, _⟩ => ⟨S_, .f32⟩
  | .hbm, ⟨31, _⟩ => ⟨S625000, .f32⟩
  | .hbm, ⟨32, _⟩ => ⟨S_, .f32⟩
  | .hbm, ⟨33, _⟩ => ⟨S100000, .f32⟩
  | .hbm, ⟨34, _⟩ => ⟨S625000x1, .i32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S100000x1, .f32⟩
  | .hbm, ⟨43, _⟩ => ⟨S128x128, .f32⟩
  | .hbm, ⟨44, _⟩ => ⟨S128x128, .f32⟩
  | .hbm, ⟨45, _⟩ => ⟨S1x128, .f32⟩
  | .hbm, ⟨46, _⟩ => ⟨S100000x128, .f32⟩
  | .hbm, ⟨47, _⟩ => ⟨S1x2x625000, .i32⟩
  | .hbm, ⟨48, _⟩ => ⟨S2x625000, .i32⟩
  | .hbm, ⟨49, _⟩ => ⟨S1x625000, .i32⟩
  | .hbm, ⟨50, _⟩ => ⟨S625000, .i32⟩
  | .hbm, ⟨51, _⟩ => ⟨S1x625000, .i32⟩
  | .hbm, ⟨52, _⟩ => ⟨S625000, .i32⟩
  | .hbm, ⟨53, _⟩ => ⟨S_, .i32⟩
  | .hbm, ⟨54, _⟩ => ⟨S625000, .i32⟩
  | .hbm, ⟨55, _⟩ => ⟨S625000, .i1⟩
  | .hbm, ⟨56, _⟩ => ⟨S_, .i32⟩
  | .hbm, ⟨57, _⟩ => ⟨S625000, .i32⟩
  | .hbm, ⟨58, _⟩ => ⟨S625000, .i32⟩
  | .hbm, ⟨59, _⟩ => ⟨S625000, .i32⟩
  | .hbm, ⟨60, _⟩ => ⟨S625000x1, .i32⟩
  | .hbm, ⟨61, _⟩ => ⟨S625000x128, .f32⟩
  | .hbm, ⟨62, _⟩ => ⟨S_, .f32⟩
  | .hbm, ⟨63, _⟩ => ⟨S100000x128, .f32⟩
  | .hbm, ⟨64, _⟩ => ⟨S625000x1, .i32⟩
  | .hbm, ⟨65, _⟩ => ⟨S100000x128, .f32⟩
  | .hbm, ⟨66, _⟩ => ⟨S_, .f32⟩
  | .hbm, ⟨67, _⟩ => ⟨S625000, .f32⟩
  | .hbm, ⟨68, _⟩ => ⟨S_, .f32⟩
  | .hbm, ⟨69, _⟩ => ⟨S100000, .f32⟩
  | .hbm, ⟨70, _⟩ => ⟨S625000x1, .i32⟩
  | .hbm, ⟨71, _⟩ => ⟨S100000, .f32⟩
  | .hbm, ⟨72, _⟩ => ⟨S_, .f32⟩
  | .hbm, ⟨73, _⟩ => ⟨S100000, .f32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .f32⟩
  | .hbm, ⟨78, _⟩ => ⟨S100000x1, .f32⟩
  | .hbm, ⟨79, _⟩ => ⟨S128x128, .f32⟩
  | .hbm, ⟨80, _⟩ => ⟨S128x128, .f32⟩
  | .hbm, ⟨81, _⟩ => ⟨S1x128, .f32⟩
  | .hbm, ⟨82, _⟩ => ⟨S100000x128, .f32⟩
  | .hbm, ⟨83, _⟩ => ⟨S1x2x625000, .i32⟩
  | .hbm, ⟨84, _⟩ => ⟨S2x625000, .i32⟩
  | .hbm, ⟨85, _⟩ => ⟨S128x64, .f32⟩
  | .hbm, ⟨86, _⟩ => ⟨S128x64, .f32⟩
  | .hbm, ⟨87, _⟩ => ⟨S100000x64, .f32⟩
  | .hbm, ⟨88, _⟩ => ⟨S1x625000, .i32⟩
  | .hbm, ⟨89, _⟩ => ⟨S625000, .i32⟩
  | .hbm, ⟨90, _⟩ => ⟨S1x625000, .i32⟩
  | .hbm, ⟨91, _⟩ => ⟨S625000, .i32⟩
  | .hbm, ⟨92, _⟩ => ⟨S_, .i32⟩
  | .hbm, ⟨93, _⟩ => ⟨S625000, .i32⟩
  | .hbm, ⟨94, _⟩ => ⟨S625000, .i1⟩
  | .hbm, ⟨95, _⟩ => ⟨S_, .i32⟩
  | .hbm, ⟨96, _⟩ => ⟨S625000, .i32⟩
  | .hbm, ⟨97, _⟩ => ⟨S625000, .i32⟩
  | .hbm, ⟨98, _⟩ => ⟨S625000, .i32⟩
  | .hbm, ⟨99, _⟩ => ⟨S625000x1, .i32⟩
  | .hbm, ⟨100, _⟩ => ⟨S625000x64, .f32⟩
  | .hbm, ⟨101, _⟩ => ⟨S_, .f32⟩
  | .hbm, ⟨102, _⟩ => ⟨S100000x64, .f32⟩
  | .hbm, ⟨103, _⟩ => ⟨S625000x1, .i32⟩
  | .hbm, ⟨104, _⟩ => ⟨S100000x64, .f32⟩
  | .hbm, ⟨105, _⟩ => ⟨S_, .f32⟩
  | .hbm, ⟨106, _⟩ => ⟨S625000, .f32⟩
  | .hbm, ⟨107, _⟩ => ⟨S_, .f32⟩
  | .hbm, ⟨108, _⟩ => ⟨S100000, .f32⟩
  | .hbm, ⟨109, _⟩ => ⟨S625000x1, .i32⟩
  | .hbm, ⟨110, _⟩ => ⟨S100000, .f32⟩
  | .hbm, ⟨111, _⟩ => ⟨S_, .f32⟩
  | .hbm, ⟨112, _⟩ => ⟨S100000, .f32⟩
  | .hbm, ⟨113, _⟩ => ⟨S100000, .f32⟩
  | .hbm, ⟨114, _⟩ => ⟨S_, .f32⟩
  | .hbm, ⟨115, _⟩ => ⟨S100000, .f32⟩
  | .hbm, ⟨116, _⟩ => ⟨S100000, .f32⟩
  | .hbm, ⟨117, _⟩ => ⟨S100000x1, .f32⟩
  | .hbm, ⟨118, _⟩ => ⟨S1x64, .f32⟩
  | .hbm, ⟨119, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x1, .f32⟩
  | .local _ .vmem, ⟨30, _⟩ => ⟨S5000x1, .f32⟩
  | .local _ .vmem, ⟨31, _⟩ => ⟨S5000x128, .f32⟩
  | .local _ .vmem, ⟨32, _⟩ => ⟨S5000x128, .f32⟩
  | .local _ .vmem, ⟨33, _⟩ => ⟨S128x64, .f32⟩
  | .local _ .vmem, ⟨34, _⟩ => ⟨S1x64, .f32⟩
  | .local _ .vmem, ⟨35, _⟩ => ⟨S5000x64, .f32⟩
  | .local _ .vmem, ⟨36, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_cst_11 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_12 : Ref sig .tc := ⟨.hbm, 92, rfl⟩
abbrev main_v67 : Ref sig .tc := ⟨.hbm, 93, rfl⟩
abbrev main_v68 : Ref sig .tc := ⟨.hbm, 94, rfl⟩
abbrev main_c_13 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_14 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_15 : Ref sig .tc := ⟨.hbm, 105, rfl⟩
abbrev main_v77 : Ref sig .tc := ⟨.hbm, 106, rfl⟩
abbrev main_cst_16 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_17 : Ref sig .tc := ⟨.hbm, 111, rfl⟩
abbrev main_v81 : Ref sig .tc := ⟨.hbm, 112, rfl⟩
abbrev main_v82 : Ref sig .tc := ⟨.hbm, 113, rfl⟩
abbrev main_cst_18 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg2_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg5_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem2_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem5_0 : DmaSem sig := 35
abbrev cc3_sem5_1 : DmaSem sig := 36

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S3x2x625000_S1x2x625000_0_0_0 : S3x2x625000.Slices ![0, 0, 0] S1x2x625000
  shapeCasts_S1x2x625000_S2x625000 : S1x2x625000.ShapeCasts S2x625000
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x2x625000_S1x2x625000_1_0_0 : S3x2x625000.Slices ![1, 0, 0] S1x2x625000
  slices_S3x2x625000_S1x2x625000_2_0_0 : S3x2x625000.Slices ![2, 0, 0] S1x2x625000
  transposes_S64x128_S128x64_1_0 : S64x128.Transposes [1, 0] S128x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  scatter_S100000_S625000x1_S625000_n_0_0_1_wf : ScatterDims.WF S100000 S625000x1 S625000 [] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S100000x64_S625000x1_S625000x64_1_0_n_n_0_1_164_wf : GatherDims.WF S100000x64 S625000x1 S625000x64 [1] [0] [] [0] [] 1 ![1, 64]
  scatter_S100000x64_S625000x1_S625000x64_1_0_0_1_wf : ScatterDims.WF S100000x64 S625000x1 S625000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x64.size a ≤ S128x64.size a
  hwx3_3 : ∀ i : grid3.Coords, EltTy.bits .f32 = 32 ∨ (Rect.block (s := S128x64) S128x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S625000x1_S625000x64_1_0_n_n_0_1_164 : GatherDims S100000x64 S625000x1 S625000x64 where
  offsetDims := [1]
  collapsedSliceDims := [0]
  operandBatchingDims := []
  startIndicesBatchingDims := []
  startIndexMap := [0]
  indexVectorDim := 1
  sliceSizes := ![1, 64]
  wf := gather_S100000x64_S625000x1_S625000x64_1_0_n_n_0_1_164_wf
def scatter_S100000x64_S625000x1_S625000x64_1_0_0_1 : ScatterDims S100000x64 S625000x1 S625000x64 where
  updateWindowDims := [1]
  insertedWindowDims := [0]
  scatterDimsToOperandDims := [0]
  indexVectorDim := 1
  wf := scatter_S100000x64_S625000x1_S625000x64_1_0_0_1_wf

abbrev win0_0 : Pipeline.Window sig grid0 :=
  Pipeline.Window.ofSpec (Memref.whole main_v15) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v54) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v55) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v56) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v57) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v57) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v76) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v85) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v57) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v61) S128x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v86) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v87) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S3x2x625000 : Shape := ⟨3, ![3, 2, 625000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x2x625000 : Shape := ⟨3, ![1, 2, 625000]⟩
abbrev S2x625000 : Shape := ⟨2, ![2, 625000]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S100000 : Shape := ⟨1, ![100000]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 134
  | .vmem => 0
  | .smem => 0
  | _ => 0

abbrev hbmTy0_0 (i : Nat) : BufTy := match i % 128 with
  | 0 => ⟨S100000x128, .f32⟩
  | 1 => ⟨S3x2x625000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S64x128, .f32⟩
  | 9 => ⟨S64, .f32⟩
  | 10 => ⟨S64x128, .f32⟩
  | 11 => ⟨S1x2x625000, .i32⟩
  | 12 => ⟨S2x625000, .i32⟩
  | 13 => ⟨S1x625000, .i32⟩
  | 14 => ⟨S625000, .i32⟩
  | 15 => ⟨S1x625000, .i32⟩
  | 16 => ⟨S625000, .i32⟩
  | 17 => ⟨S_, .i32⟩
  | 18 => ⟨S625000, .i32⟩
  | 19 => ⟨S625000, .i1⟩
  | 20 => ⟨S_, .i32⟩
  | 21 => ⟨S625000, .i32⟩
  | 22 => ⟨S625000, .i32⟩
  | 23 => ⟨S625000, .i32⟩
  | 24 => ⟨S625000x1, .i32⟩
  | 25 => ⟨S625000x128, .f32⟩
  | 26 => ⟨S_, .f32⟩
  | 27 => ⟨S100000x128, .f32⟩
  | 28 => ⟨S625000x1, .i32⟩
  | 29 => ⟨S100000x128, .f32⟩
  | 30 => ⟨S_, .f32⟩
  | 31 => ⟨S625000, .f32⟩
  | 32 => ⟨S_, .f32⟩
  | 33 => ⟨S100000, .f32⟩
  | 34 => ⟨S625000x1, .i32⟩
  | 35 => ⟨S100000, .f32⟩
  | 36 => ⟨S_, .f32⟩
  | 37 => ⟨S100000, .f32⟩
  | 38 => ⟨S100000, .f32⟩
  | 39 => ⟨S100000x1, .f32⟩
  | 40 => ⟨S100000x128, .f32⟩
  | 41 => ⟨S100000x128, .f32⟩
  | 42 => ⟨S128x128, .f32⟩
  | 43 => ⟨S100000x128, .f32⟩
  | 44 => ⟨S1x128, .f32⟩
  | 45 => ⟨S100000x128, .f32⟩
  | 46 => ⟨S100000x128, .f32⟩
  | 47 => ⟨S128x128, .f32⟩
  | 48 => ⟨S100000x128, .f32⟩
  | 49 => ⟨S100000x128, .f32⟩
  | 50 => ⟨S_, .f32⟩
  | 51 => ⟨S100000x128, .f32⟩
  | 52 => ⟨S100000x128, .f32⟩
  | 53 => ⟨S1x2x625000, .i32⟩
  | 54 => ⟨S2x625000, .i32⟩
  | 55 => ⟨S1x625000, .i32⟩
  | 56 => ⟨S625000, .i32⟩
  | 57 => ⟨S1x625000, .i32⟩
  | 58 => ⟨S625000, .i32⟩
  | 59 => ⟨S_, .i32⟩
  | 60 => ⟨S625000, .i32⟩
  | 61 => ⟨S625000, .i1⟩
  | 62 => ⟨S_, .i32⟩
  | 63 => ⟨S625000, .i32⟩
  | 64 => ⟨S625000, .i32⟩
  | 65 => ⟨S625000, .i32⟩
  | 66 => ⟨S625000x1, .i32⟩
  | 67 => ⟨S625000x128, .f32⟩
  | 68 => ⟨S_, .f32⟩
  | 69 => ⟨S100000x128, .f32⟩
  | 70 => ⟨S625000x1, .i32⟩
  | 71 => ⟨S100000x128, .f32⟩
  | 72 => ⟨S_, .f32⟩
  | 73 => ⟨S625000, .f32⟩
  | 74 => ⟨S_, .f32⟩
  | 75 => ⟨S100000, .f32⟩
  | 76 => ⟨S625000x1, .i32⟩
  | 77 => ⟨S100000, .f32⟩
  | 78 => ⟨S_, .f32⟩
  | 79 => ⟨S100000, .f32⟩
  | 80 => ⟨S100000, .f32⟩
  | 81 => ⟨S100000x1, .f32⟩
  | 82 => ⟨S100000x128, .f32⟩
  | 83 => ⟨S100000x128, .f32⟩
  | 84 => ⟨S128x128, .f32⟩
  | 85 => ⟨S100000x128, .f32⟩
  | 86 => ⟨S1x128, .f32⟩
  | 87 => ⟨S100000x128, .f32⟩
  | 88 => ⟨S100000x128, .f32⟩
  | 89 => ⟨S128x128, .f32⟩
  | 90 => ⟨S100000x128, .f32⟩
  | 91 => ⟨S100000x128, .f32⟩
  | 92 => ⟨S_, .f32⟩
  | 93 => ⟨S100000x128, .f32⟩
  | 94 => ⟨S100000x128, .f32⟩
  | 95 => ⟨S1x2x625000, .i32⟩
  | 96 => ⟨S2x625000, .i32⟩
  | 97 => ⟨S1x625000, .i32⟩
  | 98 => ⟨S625000, .i32⟩
  | 99 => ⟨S1x625000, .i32⟩
  | 100 => ⟨S625000, .i32⟩
  | 101 => ⟨S_, .i32⟩
  | 102 => ⟨S625000, .i32⟩
  | 103 => ⟨S625000, .i1⟩
  | 104 => ⟨S_, .i32⟩
  | 105 => ⟨S625000, .i32⟩
  | 106 => ⟨S625000, .i32⟩
  | 107 => ⟨S625000, .i32⟩
  | 108 => ⟨S625000x1, .i32⟩
  | 109 => ⟨S625000x128, .f32⟩
  | 110 => ⟨S_, .f32⟩
  | 111 => ⟨S100000x128, .f32⟩
  | 112 => ⟨S625000x1, .i32⟩
  | 113 => ⟨S100000x128, .f32⟩
  | 114 => ⟨S_, .f32⟩
  | 115 => ⟨S625000, .f32⟩
  | 116 => ⟨S_, .f32⟩
  | 117 => ⟨S100000, .f32⟩
  | 118 => ⟨S625000x1, .i32⟩
  | 119 => ⟨S100000, .f32⟩
  | 120 => ⟨S_, .f32⟩
  | 121 => ⟨S100000, .f32⟩
  | 122 => ⟨S100000, .f32⟩
  | 123 => ⟨S100000x1, .f32⟩
  | 124 => ⟨S100000x128, .f32⟩
  | 125 => ⟨S100000x128, .f32⟩
  | 126 => ⟨S128x64, .f32⟩
  | 127 => ⟨S100000x64, .f32⟩
  | _ => ⟨S100000x128, .f32⟩

abbrev hbmTy0_1 (i : Nat) : BufTy := match i % 128 with
  | 0 => ⟨S1x64, .f32⟩
  | 1 => ⟨S100000x64, .f32⟩
  | 2 => ⟨S100000x64, .f32⟩
  | 3 => ⟨S128x64, .f32⟩
  | 4 => ⟨S100000x64, .f32⟩
  | 5 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_cst : Ref sig .tc := ⟨.hbm, 50, rfl⟩
abbrev main_call0_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_4 : Ref sig .tc := ⟨.hbm, 59, rfl⟩
abbrev main_v40 : Ref sig .tc := ⟨.hbm, 60, rfl⟩
abbrev main_v41 : Ref sig .tc := ⟨.hbm, 61, rfl⟩
abbrev main_c_5 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_6 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_7 : Ref sig .tc := ⟨.hbm, 72, rfl⟩
abbrev main_v50 : Ref sig .tc := ⟨.hbm, 73, rfl⟩
abbrev main_cst_8 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_9 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call1_cst : Ref sig .tc := ⟨.hbm, 92, rfl⟩
abbrev main_call1_v0 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_10 : Ref sig .tc := ⟨.hbm, 101, rfl⟩
abbrev main_v74 : Ref sig .tc := ⟨.hbm, 102, rfl⟩
abbrev main_v75 : Ref sig .tc := ⟨.hbm, 103, rfl⟩
abbrev main_c_11 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_12 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_13 : Ref sig .tc := ⟨.hbm, 114, rfl⟩
abbrev main_v84 : Ref sig .tc := ⟨.hbm, 115, rfl⟩
abbrev main_cst_14 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_15 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩

abbrev nD : Nat := 1
abbrev τ : Topo := Topo.v7x

variable {F : FTy → Type} [FloatOps F]

class Facts₀ : Prop where
  slices_S3x2x625000_S1x2x625000_0_0_0 : S3x2x625000.Slices ![0, 0, 0] S1x2x625000
  shapeCasts_S1x2x625000_S2x625000 : S1x2x625000.ShapeCasts S2x625000
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x2x625000_S1x2x625000_1_0_0 : S3x2x625000.Slices ![1, 0, 0] S1x2x625000
  slices_S3x2x625000_S1x2x625000_2_0_0 : S3x2x625000.Slices ![2, 0, 0] S1x2x625000
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  scatter_S100000_S625000x1_S625000_n_0_0_1_wf : ScatterDims.WF S100000 S625000x1 S625000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.NamedRun.lean ====
/-
  The idealized kernel's run with its result named. Every weakly fair execution of the program terminates without a
  fault, leaves the argument arrays as launched, and leaves in the result buffer the contents the last region's
  write-backs fold to: the fold of the buffer contents through the host stretches and the four regions, read at the
  result buffer.
-/
import proofs.«118538_j35639638622842_2_alg».proof.Proof.Gen.KernelIdeal.Frame

-- membership in a rectangle of production extents (`View.cover_of_tiled`): the elaborator's structural look
-- recurses once per coordinate of the long axes
set_option maxRecDepth 16384

noncomputable section

namespace Cert.KernelIdeal.NamedRun

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- The run with the result buffer named: its final contents are the last boundary's contents there, and every
    argument array ends as launched. -/
theorem run_named : θ_run defs (onTc (τ := τ) (main (F := F))) ⟨m, fun _ => 0, ρ⟩ (fun r => ∀ c : Dev nD,
      r.2.mem ((c.tc : Thread nD τ).loc main_v87) = W8 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v87 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.KernelIdeal.NamedRun

end
-- ==== Proof.Host0.lean ====
/-
  The first stretch of host operations of the idealized kernel, read at the six arrays the first region takes.
  They are the neighbour sums of the input features, the reciprocal column 1 / max(deg, 1), the input features
  themselves, the two transposed weight matrices and the bias as a row. The neighbour sums, the divisor and the
  transposes are the very stages the reference computes from the same arguments.
-/
import proofs.«118538_j35639638622842_2_alg».proof.Proof.Gen.KernelIdeal.Frame
import proofs.«118538_j35639638622842_2_alg».proof.Proof.Gen.ReferenceIdeal.Read
import Idealize.ShloMosaic.Lib.StableHlo.Run

set_option maxRecDepth 16384

noncomputable section

namespace Cert.KernelIdeal.HostRead

open Cert.KernelIdeal Cert.KernelIdeal.Gen Idealize.ShloMosaic Idealize.ShloMosaic.TcCoe Idealize.SL.Sem
  Idealize.ShloMosaic.StableHlo

variable (m : (ℓ : Loc nD τ sig) → Buf (Elt Ideal) ℓ) (ρ : Dev nD → PrngReg)

set_option maxHeartbeats 16000000 in
/-- The neighbour sums of the input features. -/
theorem s0_agg (c : Dev nD) : (V1 m ρ c main_v15 : S100000x128.Idx → EReal)
    = Cert.ReferenceIdeal.Read.val_main_v15 (F := Ideal) (m ((c : Thread nD τ).loc main_arg0)) (m ((c : Thread nD τ).loc main_arg1)) := by
  dsimp only [V1, W1, hostOps0]
  after_results
  rfl

set_option maxHeartbeats 16000000 in
/-- The reciprocal column: the word of 1.0 divided by max(deg, 1), as a column. -/
theorem s0_inv (c : Dev nD) : (V1 m ρ c main_v24 : S100000x1.Idx → EReal)
    = shapeCast S100000x1 (Host.divf (F := Ideal) (broadcastInDim S100000 ![] bcast_S_S100000 (constant (F := Ideal) S_ .f32 0x3F800000#32))
        (Cert.ReferenceIdeal.Read.val_main_v21 (F := Ideal) (m ((c : Thread nD τ).loc main_arg1)))) shapeCasts_S100000_S100000x1 := by
  dsimp only [V1, W1, hostOps0]
  after_results
  rfl

set_option maxHeartbeats 16000000 in
/-- The input features are not written. -/
theorem s0_x (c : Dev nD) : (V1 m ρ c main_arg0 : S100000x128.Idx → EReal) = m ((c : Thread nD τ).loc main_arg0) := by
  dsimp only [V1, W1, hostOps0]
  after_results

set_option maxHeartbeats 16000000 in
/-- The neighbour weights, transposed. -/
theorem s0_wl (c : Dev nD) : (V1 m ρ c main_v25 : S128x128.Idx → EReal)
    = Cert.ReferenceIdeal.Read.val_main_v25 (F := Ideal) (m ((c : Thread nD τ).loc main_arg2)) := by
  dsimp only [V1, W1, hostOps0]
  after_results
  rfl

set_option maxHeartbeats 16000000 in
/-- The root weights, transposed. -/
theorem s0_wr (c : Dev nD) : (V1 m ρ c main_v26 : S128x128.Idx → EReal)
    = Cert.ReferenceIdeal.Read.val_main_v30 (F := Ideal) (m ((c : Thread nD τ).loc main_arg4)) := by
  dsimp only [V1, W1, hostOps0]
  after_results
  rfl

set_option maxHeartbeats 16000000 in
/-- The bias as a row. -/
theorem s0_b (c : Dev nD) : (V1 m ρ c main_v27 : S1x128.Idx → EReal)
    = shapeCast S1x128 (m ((c : Thread nD τ).loc main_arg3)) shapeCasts_S128_S1x128 := by
  dsimp only [V1, W1, hostOps0]
  after_results
  rfl

end Cert.KernelIdeal.HostRead

end
-- ==== Proof.Host1.lean ====
/-
  The second stretch of host operations of the idealized kernel, read at the six arrays the second region takes.
  They are: the neighbour sums of the hidden features the first region left (a scatter-add, from zero, of their rows
  gathered at the source column of the second layer's edge list into the rows named by its target column); the
  reciprocal column 1 / max(deg, 1) of that edge list; the hidden features themselves, unwritten; the two transposed
  weight matrices of the second layer; and its bias as a row. The index columns, the zero array, the divisor and
  the transposes are the very stages the reference computes from the same arguments.
-/
import proofs.«118538_j35639638622842_2_alg».proof.Proof.Gen.KernelIdeal.Frame
import proofs.«118538_j35639638622842_2_alg».proof.Proof.Gen.ReferenceIdeal.Read
import Idealize.ShloMosaic.Lib.StableHlo.Run

set_option maxRecDepth 16384

noncomputable section

namespace Cert.KernelIdeal.HostRead

open Cert.KernelIdeal Cert.KernelIdeal.Gen Idealize.ShloMosaic Idealize.ShloMosaic.TcCoe Idealize.SL.Sem
  Idealize.ShloMosaic.StableHlo

variable (m : (ℓ : Loc nD τ sig) → Buf (Elt Ideal) ℓ) (ρ : Dev nD → PrngReg)

set_option maxHeartbeats 16000000 in
/-- The neighbour sums of the hidden features. -/
theorem s1_agg (c : Dev nD) :
    (V3 m ρ c main_v44 : S100000x128.Idx → EReal)
      = Host.scatterAdd (F := Ideal) (φ := .f32) Cert.ReferenceIdeal.scatter_S100000x128_S625000x1_S625000x128_1_0_0_1
          (Cert.ReferenceIdeal.Read.val_main_v47 (F := Ideal))
          (Cert.ReferenceIdeal.Read.val_main_v48 (F := Ideal) (W2 m ρ c (Proc.devRef .tc main_arg1)))
          (Host.gather Cert.ReferenceIdeal.gather_S100000x128_S625000x1_S625000x128_1_0_n_n_0_1_1128 (W2 m ρ c (Proc.devRef .tc main_v28) : S100000x128.Idx → EReal)
            (Cert.ReferenceIdeal.Read.val_main_v45 (F := Ideal) (W2 m ρ c (Proc.devRef .tc main_arg1)))) := by
  dsimp only [V3, W3, hostOps1]
  after_results
  rfl

set_option maxHeartbeats 16000000 in
/-- The reciprocal column: the word of 1.0 divided by max(deg, 1), as a column. -/
theorem s1_inv (c : Dev nD) :
    (V3 m ρ c main_v53 : S100000x1.Idx → EReal)
      = shapeCast S100000x1 (Host.divf (F := Ideal) (broadcastInDim S100000 ![] bcast_S_S100000 (constant (F := Ideal) S_ .f32 0x3F800000#32))
          (Cert.ReferenceIdeal.Read.val_main_v55 (F := Ideal) (W2 m ρ c (Proc.devRef .tc main_arg1)))) shapeCasts_S100000_S100000x1 := by
  dsimp only [V3, W3, hostOps1]
  after_results
  rfl

set_option maxHeartbeats 16000000 in
/-- The hidden features are not written. -/
theorem s1_x (c : Dev nD) :
    (V3 m ρ c main_v28 : S100000x128.Idx → EReal) = W2 m ρ c (Proc.devRef .tc main_v28) := by
  dsimp only [V3, W3, hostOps1]
  after_results

set_option maxHeartbeats 16000000 in
/-- The neighbour weights, transposed. -/
theorem s1_wl (c : Dev nD) :
    (V3 m ρ c main_v54 : S128x128.Idx → EReal)
      = Cert.ReferenceIdeal.Read.val_main_v59 (F := Ideal) (W2 m ρ c (Proc.devRef .tc main_arg5)) := by
  dsimp only [V3, W3, hostOps1]
  after_results
  rfl

set_option maxHeartbeats 16000000 in
/-- The root weights, transposed. -/
theorem s1_wr (c : Dev nD) :
    (V3 m ρ c main_v55 : S128x128.Idx → EReal)
      = Cert.ReferenceIdeal.Read.val_main_v64 (F := Ideal) (W2 m ρ c (Proc.devRef .tc main_arg7)) := by
  dsimp only [V3, W3, hostOps1]
  after_results
  rfl

set_option maxHeartbeats 16000000 in
/-- The bias as a row. -/
theorem s1_b (c : Dev nD) :
    (V3 m ρ c main_v56 : S1x128.Idx → EReal)
      = shapeCast S1x128 (W2 m ρ c (Proc.devRef .tc main_arg6) : S128.Idx → EReal) shapeCasts_S128_S1x128 := by
  dsimp only [V3, W3, hostOps1]
  after_results
  rfl

end Cert.KernelIdeal.HostRead

end
-- ==== Proof.Host2.lean ====
/-
  The third stretch of host operations of the idealized kernel: four operations before the projection region.
  The hidden features of the second layer are not written; the neighbour weights of the last layer are transposed;
  the edge list of the last layer is sliced out of the edge argument and stored for the stretch that follows; the
  root weights of the last layer are transposed. The slice and the two transposes are the very stages the
  reference computes from the same arguments.
-/
import proofs.«118538_j35639638622842_2_alg».proof.Proof.Gen.KernelIdeal.Frame
import proofs.«118538_j35639638622842_2_alg».proof.Proof.Gen.ReferenceIdeal.Read
import Idealize.ShloMosaic.Lib.StableHlo.Run

set_option maxRecDepth 16384

noncomputable section

namespace Cert.KernelIdeal.HostRead

open Cert.KernelIdeal Cert.KernelIdeal.Gen Idealize.ShloMosaic Idealize.ShloMosaic.TcCoe Idealize.SL.Sem
  Idealize.ShloMosaic.StableHlo

variable (m : (ℓ : Loc nD τ sig) → Buf (Elt Ideal) ℓ) (ρ : Dev nD → PrngReg)

set_option maxHeartbeats 16000000 in
/-- The hidden features are not written. -/
theorem s2_x (c : Dev nD) :
    (V5 m ρ c main_v57 : S100000x128.Idx → EReal) = W4 m ρ c (Proc.devRef .tc main_v57) := by
  dsimp only [V5, W5, hostOps2]
  after_results

set_option maxHeartbeats 16000000 in
/-- The neighbour weights of the last layer, transposed. -/
theorem s2_wl (c : Dev nD) :
    (V5 m ρ c main_v60 : S128x64.Idx → EReal)
      = Cert.ReferenceIdeal.Read.val_main_v93 (F := Ideal) (W4 m ρ c (Proc.devRef .tc main_arg8)) := by
  dsimp only [V5, W5, hostOps2]
  after_results
  rfl

set_option maxHeartbeats 16000000 in
/-- The edge list of the last layer: the third slice of the edge argument, as a two-row array. -/
theorem s2_ei (c : Dev nD) :
    (W5 m ρ c (Proc.devRef .tc main_v59) : (⟨S2x625000, .i32⟩ : BufTy).Contents (Elt Ideal))
      = Cert.ReferenceIdeal.Read.val_main_v69 (F := Ideal) (W4 m ρ c (Proc.devRef .tc main_arg1)) := by
  dsimp only [W5, hostOps2]
  after_results
  rfl

set_option maxHeartbeats 16000000 in
/-- The root weights of the last layer, transposed. -/
theorem s2_wr (c : Dev nD) :
    (W5 m ρ c (Proc.devRef .tc main_v61) : S128x64.Idx → EReal)
      = Cert.ReferenceIdeal.Read.val_main_v98 (F := Ideal) (W4 m ρ c (Proc.devRef .tc main_arg10)) := by
  dsimp only [W5, hostOps2]
  after_results
  rfl

end Cert.KernelIdeal.HostRead

end
-- ==== Proof.Host3.lean ====
/-
  The fourth stretch of host operations of the idealized kernel, read at the five arrays the last region takes.
  They are: the projected rows summed over the neighbours (a scatter-add, from zero, of the rows of the projected
  features gathered at the source column, into the rows named by the target column); the reciprocal column
  1 / max(deg, 1); the hidden features and the transposed root weights, both unwritten; the bias as a row.
  The two index columns are computed from the edge list of the third layer, which an earlier stretch stored; once
  that stored array is known to be the reference's own slice of the edge argument, the index columns and the divisor
  are the very stages the reference computes.
-/
import proofs.«118538_j35639638622842_2_alg».proof.Proof.Gen.KernelIdeal.Frame
import proofs.«118538_j35639638622842_2_alg».proof.Proof.Gen.ReferenceIdeal.Read
import Idealize.ShloMosaic.Lib.StableHlo.Run

set_option maxRecDepth 16384

noncomputable section

namespace Cert.KernelIdeal.HostRead

open Cert.KernelIdeal Cert.KernelIdeal.Gen Idealize.ShloMosaic Idealize.ShloMosaic.TcCoe Idealize.SL.Sem
  Idealize.ShloMosaic.StableHlo

variable (m : (ℓ : Loc nD τ sig) → Buf (Elt Ideal) ℓ) (ρ : Dev nD → PrngReg)

set_option maxHeartbeats 16000000 in
/-- The projected rows summed over the neighbours. -/
theorem s3_aggy (c : Dev nD) (a1 : (⟨Cert.ReferenceIdeal.S3x2x625000, .i32⟩ : BufTy).Contents (Elt Ideal))
    (h59 : W6 m ρ c (Proc.devRef .tc main_v59) = Cert.ReferenceIdeal.Read.val_main_v69 (F := Ideal) a1) :
    (V7 m ρ c main_v76 : S100000x64.Idx → EReal)
      = Host.scatterAdd (F := Ideal) scatter_S100000x64_S625000x1_S625000x64_1_0_0_1
          (broadcastInDim S100000x64 ![] bcast_S_S100000x64 (constant (F := Ideal) S_ .f32 0x00000000#32))
          (Cert.ReferenceIdeal.Read.val_main_v82 (F := Ideal) a1)
          (Host.gather gather_S100000x64_S625000x1_S625000x64_1_0_n_n_0_1_164 (W6 m ρ c (Proc.devRef .tc main_v62))
            (Cert.ReferenceIdeal.Read.val_main_v79 (F := Ideal) a1)) := by
  dsimp only [V7, W7, hostOps3]
  after_results
  rw [h59]
  rfl

set_option maxHeartbeats 16000000 in
/-- The reciprocal column: the word of 1.0 divided by max(deg, 1), as a column. -/
theorem s3_inv (c : Dev nD) (a1 : (⟨Cert.ReferenceIdeal.S3x2x625000, .i32⟩ : BufTy).Contents (Elt Ideal))
    (h59 : W6 m ρ c (Proc.devRef .tc main_v59) = Cert.ReferenceIdeal.Read.val_main_v69 (F := Ideal) a1) :
    (V7 m ρ c main_v85 : S100000x1.Idx → EReal)
      = shapeCast S100000x1 (Host.divf (F := Ideal) (broadcastInDim S100000 ![] bcast_S_S100000 (constant (F := Ideal) S_ .f32 0x3F800000#32))
          (Cert.ReferenceIdeal.Read.val_main_v89 (F := Ideal) a1)) shapeCasts_S100000_S100000x1 := by
  dsimp only [V7, W7, hostOps3]
  after_results
  rw [h59]
  rfl

set_option maxHeartbeats 16000000 in
/-- The hidden features are not written. -/
theorem s3_x (c : Dev nD) :
    (V7 m ρ c main_v57 : S100000x128.Idx → EReal) = W6 m ρ c (Proc.devRef .tc main_v57) := by
  dsimp only [V7, W7, hostOps3]
  after_results

set_option maxHeartbeats 16000000 in
/-- The transposed root weights are not written. -/
theorem s3_wr (c : Dev nD) :
    (V7 m ρ c main_v61 : S128x64.Idx → EReal) = W6 m ρ c (Proc.devRef .tc main_v61) := by
  dsimp only [V7, W7, hostOps3]
  after_results

set_option maxHeartbeats 16000000 in
/-- The bias as a row. -/
theorem s3_b (c : Dev nD) :
    (V7 m ρ c main_v86 : S1x64.Idx → EReal)
      = shapeCast S1x64 (W6 m ρ c (Proc.devRef .tc main_arg9) : S64.Idx → EReal) shapeCasts_S64_S1x64 := by
  dsimp only [V7, W7, hostOps3]
  after_results
  rfl

end Cert.KernelIdeal.HostRead

end
-- ==== Proof.Leaves.lean ====
/-
  Buffers read at the boundaries between the program's segments.

  The program is four regions among stretches of host operations, and the generated frame names the buffer contents at
  each boundary: W0 at launch, W1 after the first stretch, W2 at region 0's exit, and so on to W8 at region 3's exit.
  A stretch of host operations leaves every buffer it does not write as it was; a region leaves every buffer that is
  not one of its arrays as it was, leaves an input array as it found it, and leaves an output array at what its
  write-backs fold to. Walking a buffer back through the boundaries by these three facts reads an argument at an
  intermediate boundary as the launch contents, and an output array at its region's exit as the fold of its write-backs.
-/
import proofs.«118538_j35639638622842_2_alg».proof.Proof.Gen.KernelIdeal.Frame

set_option maxRecDepth 16384

noncomputable section

namespace Cert.KernelIdeal.HostRead

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## The arguments no region stages, after the first stretch and at region 0's exit -/

/-- The first stretch of host operations does not write argument 1. -/
theorem W1_arg1 (c : Dev nD) : W1 m ρ c (Proc.devRef .tc main_arg1) = m ((c : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg1) := rfl
/-- Nor is it one of region 0's arrays. -/
theorem W2_arg1 (c : Dev nD) : W2 m ρ c (Proc.devRef .tc main_arg1) = m ((c : Thread nD τ).loc main_arg1) :=
  (W2_of_ne m ρ c main_arg1 (by decide)).trans (W1_arg1 m ρ c)

/-- The first stretch of host operations does not write argument 5. -/
theorem W1_arg5 (c : Dev nD) : W1 m ρ c (Proc.devRef .tc main_arg5) = m ((c : Thread nD τ).loc main_arg5) :=
  calc W1 m ρ c (Proc.devRef .tc main_arg5)
    _ = W0 m ρ c (Proc.devRef .tc main_arg5) := StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg5) := rfl
/-- Nor is it one of region 0's arrays. -/
theorem W2_arg5 (c : Dev nD) : W2 m ρ c (Proc.devRef .tc main_arg5) = m ((c : Thread nD τ).loc main_arg5) :=
  (W2_of_ne m ρ c main_arg5 (by decide)).trans (W1_arg5 m ρ c)

/-- The first stretch of host operations does not write argument 6. -/
theorem W1_arg6 (c : Dev nD) : W1 m ρ c (Proc.devRef .tc main_arg6) = m ((c : Thread nD τ).loc main_arg6) :=
  calc W1 m ρ c (Proc.devRef .tc main_arg6)
    _ = W0 m ρ c (Proc.devRef .tc main_arg6) := StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg6) := rfl
/-- Nor is it one of region 0's arrays. -/
theorem W2_arg6 (c : Dev nD) : W2 m ρ c (Proc.devRef .tc main_arg6) = m ((c : Thread nD τ).loc main_arg6) :=
  (W2_of_ne m ρ c main_arg6 (by decide)).trans (W1_arg6 m ρ c)

/-- The first stretch of host operations does not write argument 7. -/
theorem W1_arg7 (c : Dev nD) : W1 m ρ c (Proc.devRef .tc main_arg7) = m ((c : Thread nD τ).loc main_arg7) :=
  calc W1 m ρ c (Proc.devRef .tc main_arg7)
    _ = W0 m ρ c (Proc.devRef .tc main_arg7) := StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg7) := rfl
/-- Nor is it one of region 0's arrays. -/
theorem W2_arg7 (c : Dev nD) : W2 m ρ c (Proc.devRef .tc main_arg7) = m ((c : Thread nD τ).loc main_arg7) :=
  (W2_of_ne m ρ c main_arg7 (by decide)).trans (W1_arg7 m ρ c)

/-- The first stretch of host operations does not write argument 8. -/
theorem W1_arg8 (c : Dev nD) : W1 m ρ c (Proc.devRef .tc main_arg8) = m ((c : Thread nD τ).loc main_arg8) :=
  calc W1 m ρ c (Proc.devRef .tc main_arg8)
    _ = W0 m ρ c (Proc.devRef .tc main_arg8) := StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg8) := rfl
/-- Nor is it one of region 0's arrays. -/
theorem W2_arg8 (c : Dev nD) : W2 m ρ c (Proc.devRef .tc main_arg8) = m ((c : Thread nD τ).loc main_arg8) :=
  (W2_of_ne m ρ c main_arg8 (by decide)).trans (W1_arg8 m ρ c)

/-- The first stretch of host operations does not write argument 9. -/
theorem W1_arg9 (c : Dev nD) : W1 m ρ c (Proc.devRef .tc main_arg9) = m ((c : Thread nD τ).loc main_arg9) :=
  calc W1 m ρ c (Proc.devRef .tc main_arg9)
    _ = W0 m ρ c (Proc.devRef .tc main_arg9) := StableHlo.after_of_forall_not_mem (b := Proc.devRef .tc main_arg9) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg9) := rfl
/-- Nor is it one of region 0's arrays. -/
theorem W2_arg9 (c : Dev nD) : W2 m ρ c (Proc.devRef .tc main_arg9) = m ((c : Thread nD τ).loc main_arg9) :=
  (W2_of_ne m ρ c main_arg9 (by decide)).trans (W1_arg9 m ρ c)

/-- The first stretch of host operations does not write argument 10. -/
theorem W1_arg10 (c : Dev nD) : W1 m ρ c (Proc.devRef .tc main_arg10) = m ((c : Thread nD τ).loc main_arg10) :=
  calc W1 m ρ c (Proc.devRef .tc main_arg10)
    _ = W0 m ρ c (Proc.devRef .tc main_arg10) := StableHlo.after_of_forall_not_mem (b := Proc.devRef .tc main_arg10) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg10) := rfl
/-- Nor is it one of region 0's arrays. -/
theorem W2_arg10 (c : Dev nD) : W2 m ρ c (Proc.devRef .tc main_arg10) = m ((c : Thread nD τ).loc main_arg10) :=
  (W2_of_ne m ρ c main_arg10 (by decide)).trans (W1_arg10 m ρ c)

/-- Region 0's output array at its exit: the fold of its write-backs. -/
theorem W2_out (c : Dev nD) : W2 m ρ c (Proc.devRef .tc main_v28) = (dat0 (V1 m ρ) c).arrAt 6 cfg0.N :=
  W2_arr m ρ c 6

/-! ## After the second stretch and at region 1's exit -/

/-- The second stretch of host operations does not write argument 1. -/
theorem W3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg1) := W2_arg1 m ρ c
/-- Nor is it one of region 1's arrays. -/
theorem W4_arg1 (c : Dev nD) : W4 m ρ c (Proc.devRef .tc main_arg1) = m ((c : Thread nD τ).loc main_arg1) :=
  (W4_of_ne m ρ c main_arg1 (by decide)).trans (W3_arg1 m ρ c)

/-- The second stretch of host operations does not write argument 8. -/
theorem W3_arg8 (c : Dev nD) : W3 m ρ c (Proc.devRef .tc main_arg8) = m ((c : Thread nD τ).loc main_arg8) :=
  calc W3 m ρ c (Proc.devRef .tc main_arg8)
    _ = W2 m ρ c (Proc.devRef .tc main_arg8) := StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg8) := W2_arg8 m ρ c
/-- Nor is it one of region 1's arrays. -/
theorem W4_arg8 (c : Dev nD) : W4 m ρ c (Proc.devRef .tc main_arg8) = m ((c : Thread nD τ).loc main_arg8) :=
  (W4_of_ne m ρ c main_arg8 (by decide)).trans (W3_arg8 m ρ c)

/-- The second stretch of host operations does not write argument 9. -/
theorem W3_arg9 (c : Dev nD) : W3 m ρ c (Proc.devRef .tc main_arg9) = m ((c : Thread nD τ).loc main_arg9) :=
  calc W3 m ρ c (Proc.devRef .tc main_arg9)
    _ = W2 m ρ c (Proc.devRef .tc main_arg9) := StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg9) := W2_arg9 m ρ c
/-- Nor is it one of region 1's arrays. -/
theorem W4_arg9 (c : Dev nD) : W4 m ρ c (Proc.devRef .tc main_arg9) = m ((c : Thread nD τ).loc main_arg9) :=
  (W4_of_ne m ρ c main_arg9 (by decide)).trans (W3_arg9 m ρ c)

/-- The second stretch of host operations does not write argument 10. -/
theorem W3_arg10 (c : Dev nD) : W3 m ρ c (Proc.devRef .tc main_arg10) = m ((c : Thread nD τ).loc main_arg10) :=
  calc W3 m ρ c (Proc.devRef .tc main_arg10)
    _ = W2 m ρ c (Proc.devRef .tc main_arg10) := StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg10) := W2_arg10 m ρ c
/-- Nor is it one of region 1's arrays. -/
theorem W4_arg10 (c : Dev nD) : W4 m ρ c (Proc.devRef .tc main_arg10) = m ((c : Thread nD τ).loc main_arg10) :=
  (W4_of_ne m ρ c main_arg10 (by decide)).trans (W3_arg10 m ρ c)

/-- Region 1's output array at its exit: the fold of its write-backs. -/
theorem W4_out (c : Dev nD) : W4 m ρ c (Proc.devRef .tc main_v57) = (dat1 (V3 m ρ) c).arrAt 6 cfg1.N :=
  W4_arr m ρ c 6

/-! ## After the third stretch and at region 2's exit -/

/-- The third stretch of host operations does not write argument 9. -/
theorem W5_arg9 (c : Dev nD) : W5 m ρ c (Proc.devRef .tc main_arg9) = m ((c : Thread nD τ).loc main_arg9) :=
  calc W5 m ρ c (Proc.devRef .tc main_arg9)
    _ = W4 m ρ c (Proc.devRef .tc main_arg9) := StableHlo.after_of_forall_not_mem (b := Proc.devRef .tc main_arg9) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg9) := W4_arg9 m ρ c
/-- Nor is it one of region 2's arrays. -/
theorem W6_arg9 (c : Dev nD) : W6 m ρ c (Proc.devRef .tc main_arg9) = m ((c : Thread nD τ).loc main_arg9) :=
  (W6_of_ne m ρ c main_arg9 (by decide)).trans (W5_arg9 m ρ c)

/-- Two buffers the third stretch computes are not region 2's arrays: the region leaves them as it found them. -/
theorem W6_v59 (c : Dev nD) : W6 m ρ c (Proc.devRef .tc main_v59) = W5 m ρ c (Proc.devRef .tc main_v59) :=
  W6_of_ne m ρ c main_v59 (by decide)
theorem W6_v61 (c : Dev nD) : W6 m ρ c (Proc.devRef .tc main_v61) = W5 m ρ c (Proc.devRef .tc main_v61) :=
  W6_of_ne m ρ c main_v61 (by decide)

/-- Region 1's output is region 2's first input array, which region 2 leaves as it found it. -/
theorem W6_v57 (c : Dev nD) : W6 m ρ c (Proc.devRef .tc main_v57) = W5 m ρ c (Proc.devRef .tc main_v57) :=
  (W6_arr m ρ c 0).trans (((dat2 (V5 m ρ) c).arrAt_in 0 rfl _).trans (A_eq2 (V5 m ρ) c 0))

/-- Region 2's output array at its exit: the fold of its write-backs. -/
theorem W6_out (c : Dev nD) : W6 m ρ c (Proc.devRef .tc main_v62) = (dat2 (V5 m ρ) c).arrAt 2 cfg2.N :=
  W6_arr m ρ c 2

/-! ## At region 3's exit -/

/-- Region 3's output array at its exit: the fold of its write-backs. -/
theorem W8_out (c : Dev nD) : W8 m ρ c (Proc.devRef .tc main_v87) = (dat3 (V7 m ρ) c).arrAt 5 cfg3.N :=
  W8_arr m ρ c 5

end Cert.KernelIdeal.HostRead

end
-- ==== Proof.Spec.lean ====
/-
  The dense part of a mean-aggregating graph layer, as whole-array functions read index by index.

  A layer takes a node feature matrix `x` ([n, ci]), the neighbour sums `agg` ([n, ci]), a per-node factor `inv`
  (a column [n, 1]), two weight matrices already transposed to [ci, co] and a bias row [1, co]. Entry (v, j) of its
  result is the sum over k of (agg(v,k) · inv(v)) · wlt(k,j), plus the sum over k of x(v,k) · wrt(k,j), plus b(j),
  optionally clipped below at zero. The last layer is computed in two steps: first the projection x · wlt, then,
  once the projected rows have been summed over the neighbours, aggy(v,j) · inv(v) + the root term + the bias.
-/
import Idealize.ShloMosaic.PureOps.Ideal
import Idealize.ShloMosaic.Lib.ValueIdx

noncomputable section

open scoped BigOperators

namespace Cert.Sage

open Idealize.ShloMosaic Idealize.ShloMosaic.ValueIdx

/-- A matrix of extended reals with `n` rows and `c` columns. -/
abbrev Mat (n c : ℕ) : Type := (⟨2, ![n, c]⟩ : Shape).Idx → EReal

/-- A vector of extended reals with `n` entries. -/
abbrev Col (n : ℕ) : Type := (⟨1, ![n]⟩ : Shape).Idx → EReal

/-- The value of the all-zero f32 word. -/
abbrev zeroW : EReal := Ideal.ofBits .f32 0x00000000#32

/-- Entry (v, j) of a layer before clipping: the neighbour term, plus the root term, plus the bias. -/
def dense {n ci co : ℕ} (agg : Mat n ci) (inv : Mat n 1) (x : Mat n ci) (wlt wrt : Mat ci co) (b : Mat 1 co) :
    Mat n co := fun i =>
  ((∑ k : Fin ci, (agg (ix2 (i 0) k) * inv (ix2 (i 0) (0 : Fin 1))) * wlt (ix2 k (i 1)))
    + ∑ k : Fin ci, x (ix2 (i 0) k) * wrt (ix2 k (i 1))) + b (ix2 (0 : Fin 1) (i 1))

/-- A layer clipped below at zero. -/
def reluDense {n ci co : ℕ} (agg : Mat n ci) (inv : Mat n 1) (x : Mat n ci) (wlt wrt : Mat ci co) (b : Mat 1 co) :
    Mat n co := fun i => max (dense agg inv x wlt wrt b i) zeroW

/-- The projection of every row: entry (v, j) is the sum over k of x(v,k) · wlt(k,j). -/
def proj {n ci co : ℕ} (x : Mat n ci) (wlt : Mat ci co) : Mat n co := fun i =>
  ∑ k : Fin ci, x (ix2 (i 0) k) * wlt (ix2 k (i 1))

/-- The last layer once the projected rows are summed: the root term, plus aggy(v,j) · inv(v), plus the bias. -/
def finish {n ci co : ℕ} (aggy : Mat n co) (inv : Mat n 1) (x : Mat n ci) (wrt : Mat ci co) (b : Mat 1 co) :
    Mat n co := fun i =>
  ((∑ k : Fin ci, x (ix2 (i 0) k) * wrt (ix2 k (i 1))) + aggy (ix2 (i 0) (i 1)) * inv (ix2 (i 0) (0 : Fin 1)))
    + b (ix2 (0 : Fin 1) (i 1))

end Cert.Sage

end
-- ==== Proof.LibKeepdims.lean ====
/-
  Column forms of the keepdims idiom, read at an index, and a matrix row's lane sum.

  A row statistic computed with keepdims lives in a one-column matrix: a vector [a] viewed as [a, 1] reads its entry i
  at (i, 0); a one-column matrix [a, 1] broadcast along the columns reads its entry (p, 0) at every (p, c). The sum of
  a matrix over its column axis, at row p, is the sum of that row.
-/
import Idealize.ShloMosaic.Lib.Pipeline.Value
import Idealize.ShloMosaic.Lib.ValueIdx
import Idealize.ShloMosaic.PureOps.Ideal.Laws

namespace Cert.YearBasis

open Idealize.ShloMosaic Idealize.ShloMosaic.ValueIdx
open scoped BigOperators

section Keepdims
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Keepdims

/-- The sum of a matrix over its column axis from the zero word, at row `p`, is the sum of row `p`. -/
theorem laneSum_apply {n c : ℕ} (src : FVec Ideal ⟨2, ![n, c]⟩ .f32) (h : (⟨2, ![n, c]⟩ : Shape).Reduces [1] ⟨1, ![n]⟩)
    (hφ : FKind.Formats .f32) (hacc : (0x00000000#32 : BitVec 32) = FKind.add.neutral .f32 hφ) (p : Fin n) :
    multiReduction .add [1] ⟨1, ![n]⟩ src 0x00000000#32 h hφ hacc (ix1 p) = ∑ k : Fin c, src (ix2 p k) :=
  (Ideal.multiReduction_add_single src _ h hφ hacc (ix1 p)).trans
    (Finset.sum_congr rfl fun k _ => congrArg src (funext fun ax => Fin.ext (by
      match ax with
      | ⟨0, _⟩ => rfl
      | ⟨1, _⟩ => rfl)))

end Cert.YearBasis
-- ==== Proof.Region01.lean ====
/-
  Regions 0 and 1 of the kernel, each read as one whole-array function of its input arrays.

  Both regions run the same body over a grid of 20 points that tiles the 100000 node rows in blocks of 5000: the point's
  block of neighbour sums is scaled row by row by the per-node factor, multiplied by the first weight matrix, the block
  of node features by the second, the two products and the bias row added and the result clipped below at zero. The
  weight matrices and the bias are whole arrays at every point. Read at the ideal values the body's two matrix products
  are sums over the 128 shared coordinates, so entry (p, q) of the block a point writes is entry (5000 t + p, q) of the
  clipped layer of the whole arrays; the 20 blocks tile the output array, which therefore ends holding that layer.
-/
import proofs.«118538_j35639638622842_2_alg».proof.Proof.Gen.KernelIdeal.Frame
import proofs.«118538_j35639638622842_2_alg».proof.Proof.Spec
import proofs.«118538_j35639638622842_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The block product at an index -/

/-- The left operand's row coordinate, at an output index and a contraction index, is the output's row. -/
theorem lhsIdx_block_0 (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- Its column coordinate is the contraction coordinate. -/
theorem lhsIdx_block_1 (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k
/-- The right operand's row coordinate is the contraction coordinate. -/
theorem rhsIdx_block_0 (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k
/-- Its column coordinate is the output's column. -/
theorem rhsIdx_block_1 (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A [5000,128] × [128,128] matrix product accumulated into the zero splat reads, at (p, q), the sum over k of the
    left operand at (p, k) times the right at (k, q). -/
theorem matmul_block_apply {φ₁ φ₂ : FTy} (a : FVec Ideal S5000x128 φ₁) (w : FVec Ideal S128x128 φ₂) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  refine (Ideal.matmul_constant_zero_apply dot_S5000x128_S128x128_S5000x128_1_0_0_1_n_n none a w (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k := funext fun b => Fin.ext (by
    match b with
    | ⟨0, _⟩ => exact lhsIdx_block_0 _ _
    | ⟨1, _⟩ => exact (lhsIdx_block_1 _ _).trans hk)
  have er : dot_S5000x128_S128x128_S5000x128_1_0_0_1_n_n.rhsIdx (ix2 p q)
      ((contrEquiv1 dot_S5000x128_S128x128_S5000x128_1_0_0_1_n_n 128 rfl rfl).symm k) = ix2 k q := funext fun b => Fin.ext (by
    match b with
    | ⟨0, _⟩ => exact (rhsIdx_block_0 _ _).trans hk
    | ⟨1, _⟩ => exact rhsIdx_block_1 _ _)
  rw [el, er]

/-! ## The body's payload at an index -/

/-- The two combine bodies compute the same function of their loaded blocks: the second only casts one block to its own
    shape first. -/
theorem k1_pay1_eq {F : FTy → Type} [FloatOps F] (x0 : Vec F S5000x128 .f32) (x1 : Vec F S5000x1 .f32) (x2 : Vec F S5000x128 .f32)
    (x3 x4 : Vec F S128x128 .f32) (x5 : Vec F S1x128 .f32) :
    k1_pay1 x0 x1 x2 x3 x4 x5 = k0_pay1 x0 x1 x2 x3 x4 x5 := by
  unfold k1_pay1 k0_pay1
  simp only [shapeCast_self]

/-- Entry (p, q) of the combine body's result: the row of the scaled neighbour block times the first weight matrix, plus the
    row of the feature block times the second, plus the bias, clipped below at zero. -/
theorem combine_apply (x0 : Vec Ideal S5000x128 .f32) (x1 : Vec Ideal S5000x1 .f32) (x2 : Vec Ideal S5000x128 .f32)
    (x3 x4 : Vec Ideal S128x128 .f32) (x5 : Vec Ideal S1x128 .f32) (p : Fin 5000) (q : Fin 128) :
    k0_pay1 (F := Ideal) x0 x1 x2 x3 x4 x5 (ix2 p q)
      = max (((∑ k : Fin 128, (x0 (ix2 p k) * x1 (ix2 p (0 : Fin 1))) * x3 (ix2 k q))
          + ∑ k : Fin 128, x2 (ix2 p k) * x4 (ix2 k q)) + x5 (ix2 (0 : Fin 1) q)) Cert.Sage.zeroW := by
  unfold k0_pay1
  simp only [shapeCast_self]
  rw [maximumf_apply, addf_apply, addf_apply, matmul_block_apply, matmul_block_apply, broadcast_apply, broadcastTo_1b_ab_apply]
  refine congrArg₂ max (congrArg₂ (· + ·) (congrArg₂ (· + ·) (Finset.sum_congr rfl fun k _ => ?_) (Finset.sum_congr rfl fun k _ => ?_)) rfl) rfl
  · rw [truncf_apply, truncf_apply, mulf_apply, Cert.YearBasis.broadcastTo_a1_ab_apply]
  · rw [truncf_apply, truncf_apply]

/-- Entry (p, q) of the combine body's result when its blocks are rows of whole arrays: if row p of the three row-tiled blocks
    is row r of the arrays, and the three whole-array blocks are the arrays, it is entry (r, q) of the clipped layer. -/
theorem combine_rows (A0 : Cert.Sage.Mat 100000 128) (A1 : Cert.Sage.Mat 100000 1) (A2 : Cert.Sage.Mat 100000 128)
    (A3 A4 : Cert.Sage.Mat 128 128) (A5 : Cert.Sage.Mat 1 128)
    (x0 : Vec Ideal S5000x128 .f32) (x1 : Vec Ideal S5000x1 .f32) (x2 : Vec Ideal S5000x128 .f32)
    (x3 x4 : Vec Ideal S128x128 .f32) (x5 : Vec Ideal S1x128 .f32) (p : Fin 5000) (q : Fin 128) (r : Fin 100000)
    (h0 : ∀ k : Fin 128, x0 (ix2 p k) = A0 (ix2 r k)) (h1 : x1 (ix2 p (0 : Fin 1)) = A1 (ix2 r (0 : Fin 1)))
    (h2 : ∀ k : Fin 128, x2 (ix2 p k) = A2 (ix2 r k)) (h3 : ∀ k : Fin 128, x3 (ix2 k q) = A3 (ix2 k q))
    (h4 : ∀ k : Fin 128, x4 (ix2 k q) = A4 (ix2 k q)) (h5 : x5 (ix2 (0 : Fin 1) q) = A5 (ix2 (0 : Fin 1) q)) :
    k0_pay1 (F := Ideal) x0 x1 x2 x3 x4 x5 (ix2 p q) = Cert.Sage.reluDense A0 A1 A2 A3 A4 A5 (ix2 r q) := by
  refine (combine_apply x0 x1 x2 x3 x4 x5 p q).trans ?_
  show _ = max (((∑ k : Fin 128, (A0 (ix2 r k) * A1 (ix2 r (0 : Fin 1))) * A3 (ix2 k q))
      + ∑ k : Fin 128, A2 (ix2 r k) * A4 (ix2 k q)) + A5 (ix2 (0 : Fin 1) q)) Cert.Sage.zeroW
  rw [h1, h5]
  refine congrArg₂ max (congrArg₂ (· + ·) (congrArg₂ (· + ·) (Finset.sum_congr rfl fun k _ => ?_) (Finset.sum_congr rfl fun k _ => ?_)) rfl) rfl
  · rw [h0, h3]
  · rw [h2, h4]

/-- The zero offsets of a whole-buffer rectangle, as the constant function. -/
theorem zero_offsets : (![0, 0] : Fin 2 → Nat) = fun _ => 0 := funext fun a => by fin_cases a <;> rfl

/-! ## Region 0: from the blocks to the array -/

section Region0

variable (V : (c : Dev nD) → (b : Ref sig .tc) → Buf (Elt Ideal) ((c : Thread nD τ).loc b))

/-- The printed index maps over the 20 grid points: each row-tiled window is at block (t, 0), each whole-array window at
    block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The neighbour-sum block at point t is rows 5000 t … of its array. -/
theorem iblk0_0_apply (c : Dev nD) (t : Fin cfg0.N) (p : Fin 5000) (k : Fin 128) (r : Fin 100000) (hr : r.val = 5000 * t.val + p.val) :
    (iblk0 V c 0 t : Vec Ideal S5000x128 .f32) (ix2 p k) = (V c (Pipeline.arrRef spec0 0) : Cert.Sage.Mat 100000 128) (ix2 r k) := by
  obtain ⟨e0, e1, -⟩ := idx_facts0 t
  unfold iblk0
  rw [View.read_apply]
  show V c (Pipeline.arrRef spec0 0) _ = V c (Pipeline.arrRef spec0 0) _
  refine congrArg (V c (Pipeline.arrRef spec0 0)) (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The per-node factor block at point t is rows 5000 t … of its one-column array. -/
theorem iblk0_1_apply (c : Dev nD) (t : Fin cfg0.N) (p : Fin 5000) (u : Fin 1) (r : Fin 100000) (hr : r.val = 5000 * t.val + p.val) :
    (iblk0 V c 1 t : Vec Ideal S5000x1 .f32) (ix2 p u) = (V c (Pipeline.arrRef spec0 1) : Cert.Sage.Mat 100000 1) (ix2 r u) := by
  obtain ⟨-, -, e0, e1, -⟩ := idx_facts0 t
  unfold iblk0
  rw [View.read_apply]
  show V c (Pipeline.arrRef spec0 1) _ = V c (Pipeline.arrRef spec0 1) _
  refine congrArg (V c (Pipeline.arrRef spec0 1)) (funext fun a => Fin.ext ?_)
  match a with
  | ⟨0, _⟩ => show win0_1.index t (0 : Fin 2) * 5000 + 1 * p.val = r.val; rw [e0, hr]; omega
  | ⟨1, _⟩ => show win0_1.index t (1 : Fin 2) * 1 + 1 * u.val = u.val; rw [e1]; omega

/-- The feature block at point t is rows 5000 t … of its array. -/
theorem iblk0_2_apply (c : Dev nD) (t : Fin cfg0.N) (p : Fin 5000) (k : Fin 128) (r : Fin 100000) (hr : r.val = 5000 * t.val + p.val) :
    (iblk0 V c 2 t : Vec Ideal S5000x128 .f32) (ix2 p k) = (V c (Pipeline.arrRef spec0 2) : Cert.Sage.Mat 100000 128) (ix2 r k) := by
  obtain ⟨-, -, -, -, e0, e1, -⟩ := idx_facts0 t
  unfold iblk0
  rw [View.read_apply]
  show V c (Pipeline.arrRef spec0 2) _ = V c (Pipeline.arrRef spec0 2) _
  refine congrArg (V c (Pipeline.arrRef spec0 2)) (funext fun a => Fin.ext ?_)
  match a with
  | ⟨0, _⟩ => show win0_2.index t (0 : Fin 2) * 5000 + 1 * p.val = r.val; rw [e0, hr]; omega
  | ⟨1, _⟩ => show win0_2.index t (1 : Fin 2) * 128 + 1 * k.val = k.val; rw [e1]; omega

/-- The first weight window holds its whole array at every point. -/
theorem iblk0_3_apply (c : Dev nD) (t : Fin cfg0.N) (k q : Fin 128) :
    (iblk0 V c 3 t : Vec Ideal S128x128 .f32) (ix2 k q) = (V c (Pipeline.arrRef spec0 3) : Cert.Sage.Mat 128 128) (ix2 k q) := by
  obtain ⟨-, -, -, -, -, -, e0, e1, -⟩ := idx_facts0 t
  unfold iblk0
  rw [View.read_apply]
  show V c (Pipeline.arrRef spec0 3) _ = V c (Pipeline.arrRef spec0 3) _
  refine congrArg (V c (Pipeline.arrRef spec0 3)) (funext fun a => Fin.ext ?_)
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The second weight window holds its whole array at every point. -/
theorem iblk0_4_apply (c : Dev nD) (t : Fin cfg0.N) (k q : Fin 128) :
    (iblk0 V c 4 t : Vec Ideal S128x128 .f32) (ix2 k q) = (V c (Pipeline.arrRef spec0 4) : Cert.Sage.Mat 128 128) (ix2 k q) := by
  obtain ⟨-, -, -, -, -, -, -, -, e0, e1, -⟩ := idx_facts0 t
  unfold iblk0
  rw [View.read_apply]
  show V c (Pipeline.arrRef spec0 4) _ = V c (Pipeline.arrRef spec0 4) _
  refine congrArg (V c (Pipeline.arrRef spec0 4)) (funext fun a => Fin.ext ?_)
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-- The bias window holds its whole one-row array at every point. -/
theorem iblk0_5_apply (c : Dev nD) (t : Fin cfg0.N) (u : Fin 1) (q : Fin 128) :
    (iblk0 V c 5 t : Vec Ideal S1x128 .f32) (ix2 u q) = (V c (Pipeline.arrRef spec0 5) : Cert.Sage.Mat 1 128) (ix2 u q) := by
  obtain ⟨-, -, -, -, -, -, -, -, -, -, e0, e1, -⟩ := idx_facts0 t
  unfold iblk0
  rw [View.read_apply]
  show V c (Pipeline.arrRef spec0 5) _ = V c (Pipeline.arrRef spec0 5) _
  refine congrArg (V c (Pipeline.arrRef spec0 5)) (funext fun a => Fin.ext ?_)
  match a with
  | ⟨0, _⟩ => show win0_5.index t (0 : Fin 2) * 1 + 1 * u.val = u.val; rw [e0]; omega
  | ⟨1, _⟩ => show win0_5.index t (1 : Fin 2) * 128 + 1 * q.val = q.val; rw [e1]; omega

/-- What the region's output array ends holding: the clipped layer of the six input arrays as the region finds them. -/
abbrev result0 (c : Dev nD) : Cert.Sage.Mat 100000 128 :=
  Cert.Sage.reluDense (V c (Pipeline.arrRef spec0 0)) (V c (Pipeline.arrRef spec0 1)) (V c (Pipeline.arrRef spec0 2))
    (V c (Pipeline.arrRef spec0 3)) (V c (Pipeline.arrRef spec0 4)) (V c (Pipeline.arrRef spec0 5))

/-- What point t writes back is block t of the clipped layer of the input arrays. -/
theorem flushed0_eq (c : Dev nD) (t : Fin cfg0.N) :
    (dat0 (F := Ideal) V c).flushed 6 t = ((cfg0.win 6).blk t).view.read (Elt Ideal) (result0 V c) := by
  have hN : cfg0.N = 20 := N_0
  have ht : t.val < 20 := hN ▸ t.isLt
  obtain ⟨-, -, -, -, -, -, -, -, -, -, -, -, e0, e1⟩ := idx_facts0 t
  show (cfg0.win 6).cut (grid0.coords t) ((dat0 V c).after 6 t) = _
  rw [after0_6]
  unfold out0_6
  rw [View.canon_unit_zero zero_offsets]
  simp only [View.ld_unit_zero (S := S5000x128) zero_offsets, View.ld_unit_zero (S := S5000x1) zero_offsets,
    View.ld_unit_zero (S := S128x128) zero_offsets, View.ld_unit_zero (S := S1x128) zero_offsets]
  refine funext fun (j : S5000x128.Idx) => ?_
  obtain ⟨p, q, rfl⟩ : ∃ (p : Fin 5000) (q : Fin 128), j = ix2 p q := ⟨j 0, j 1, eq_ix2 j⟩
  have hp : p.val < 5000 := p.isLt
  obtain ⟨r, hr⟩ : ∃ r : Fin 100000, r.val = 5000 * t.val + p.val := ⟨⟨5000 * t.val + p.val, by omega⟩, rfl⟩
  have hemb : ((cfg0.win 6).blk t).view.emb (ix2 p q) = (ix2 r q : S100000x128.Idx) := funext fun a => Fin.ext (by
    match a with
    | ⟨0, _⟩ => show win0_6.index t (0 : Fin 2) * 5000 + 1 * p.val = r.val; rw [e0, hr]; omega
    | ⟨1, _⟩ => show win0_6.index t (1 : Fin 2) * 128 + 1 * q.val = q.val; rw [e1]; omega)
  show k0_pay1 (F := Ideal) (iblk0 V c 0 t) (iblk0 V c 1 t) (iblk0 V c 2 t) (iblk0 V c 3 t) (iblk0 V c 4 t) (iblk0 V c 5 t) (ix2 p q)
    = result0 V c (((cfg0.win 6).blk t).view.emb (ix2 p q))
  rw [hemb]
  exact combine_rows _ _ _ _ _ _ (iblk0 V c 0 t) (iblk0 V c 1 t) (iblk0 V c 2 t) (iblk0 V c 3 t) (iblk0 V c 4 t) (iblk0 V c 5 t) p q r
    (fun k => iblk0_0_apply V c t p k r hr) (iblk0_1_apply V c t p 0 r hr) (fun k => iblk0_2_apply V c t p k r hr)
    (fun k => iblk0_3_apply V c t k q) (fun k => iblk0_4_apply V c t k q) (iblk0_5_apply V c t 0 q)

/-- An index of the output array is in point t's block iff each coordinate is in the block's range on its axis. -/
theorem mem_blk0 (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v28).slice (win0_6.rect t)).set ↔ _
  rw [View.set_slice_whole, Rect.mem_set_unit]
  exact Iff.rfl

/-- Every row of the output array is in the block of the point numbered by its quotient by 5000. -/
theorem cover0 (i : S100000x128.Idx) : ∃ t : Fin cfg0.N, (cfg0.win 6).flush t = true ∧ i ∈ ((cfg0.win 6).blk t).view.set := by
  have hN : cfg0.N = 20 := N_0
  have hi0 : (i 0).val < 100000 := (i 0).isLt
  have hi1 : (i 1).val < 128 := (i 1).isLt
  obtain ⟨t, ht⟩ : ∃ t : Fin cfg0.N, t.val = (i 0).val / 5000 := ⟨⟨(i 0).val / 5000, by rw [hN]; omega⟩, rfl⟩
  obtain ⟨-, -, -, -, -, -, -, -, -, -, -, -, e0, e1⟩ := idx_facts0 t
  refine ⟨t, flush0_6 t, ?_⟩
  rw [mem_blk0]
  intro a
  match a with
  | ⟨0, _⟩ =>
    show win0_6.index t (0 : Fin 2) * 5000 ≤ (i 0).val ∧ (i 0).val < win0_6.index t (0 : Fin 2) * 5000 + 5000
    rw [e0, ht]; omega
  | ⟨1, _⟩ =>
    show win0_6.index t (1 : Fin 2) * 128 ≤ (i 1).val ∧ (i 1).val < win0_6.index t (1 : Fin 2) * 128 + 128
    rw [e1]; omega

/-- THE ARRAY after region 0: the clipped layer of the six input arrays as the region finds them. -/
theorem final0 (c : Dev nD) : (dat0 (F := Ideal) V c).arrAt 6 cfg0.N = result0 V c :=
  (dat0 V c).arrAt_eq_of_cover 6 (result0 V c) (fun t _ => flushed0_eq V c t) cover0

end Region0

/-! ## Region 1: from the blocks to the array -/

section Region1

variable (V : (c : Dev nD) → (b : Ref sig .tc) → Buf (Elt Ideal) ((c : Thread nD τ).loc b))

/-- The printed index maps over the 20 grid points: each row-tiled window is at block (t, 0), each whole-array window at
    block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The neighbour-sum block at point t is rows 5000 t … of its array. -/
theorem iblk1_0_apply (c : Dev nD) (t : Fin cfg1.N) (p : Fin 5000) (k : Fin 128) (r : Fin 100000) (hr : r.val = 5000 * t.val + p.val) :
    (iblk1 V c 0 t : Vec Ideal S5000x128 .f32) (ix2 p k) = (V c (Pipeline.arrRef spec1 0) : Cert.Sage.Mat 100000 128) (ix2 r k) := by
  obtain ⟨e0, e1, -⟩ := idx_facts1 t
  unfold iblk1
  rw [View.read_apply]
  show V c (Pipeline.arrRef spec1 0) _ = V c (Pipeline.arrRef spec1 0) _
  refine congrArg (V c (Pipeline.arrRef spec1 0)) (funext fun a => Fin.ext ?_)
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- The per-node factor block at point t is rows 5000 t … of its one-column array. -/
theorem iblk1_1_apply (c : Dev nD) (t : Fin cfg1.N) (p : Fin 5000) (u : Fin 1) (r : Fin 100000) (hr : r.val = 5000 * t.val + p.val) :
    (iblk1 V c 1 t : Vec Ideal S5000x1 .f32) (ix2 p u) = (V c (Pipeline.arrRef spec1 1) : Cert.Sage.Mat 100000 1) (ix2 r u) := by
  obtain ⟨-, -, e0, e1, -⟩ := idx_facts1 t
  unfold iblk1
  rw [View.read_apply]
  show V c (Pipeline.arrRef spec1 1) _ = V c (Pipeline.arrRef spec1 1) _
  refine congrArg (V c (Pipeline.arrRef spec1 1)) (funext fun a => Fin.ext ?_)
  match a with
  | ⟨0, _⟩ => show win1_1.index t (0 : Fin 2) * 5000 + 1 * p.val = r.val; rw [e0, hr]; omega
  | ⟨1, _⟩ => show win1_1.index t (1 : Fin 2) * 1 + 1 * u.val = u.val; rw [e1]; omega

/-- The feature block at point t is rows 5000 t … of its array. -/
theorem iblk1_2_apply (c : Dev nD) (t : Fin cfg1.N) (p : Fin 5000) (k : Fin 128) (r : Fin 100000) (hr : r.val = 5000 * t.val + p.val) :
    (iblk1 V c 2 t : Vec Ideal S5000x128 .f32) (ix2 p k) = (V c (Pipeline.arrRef spec1 2) : Cert.Sage.Mat 100000 128) (ix2 r k) := by
  obtain ⟨-, -, -, -, e0, e1, -⟩ := idx_facts1 t
  unfold iblk1
  rw [View.read_apply]
  show V c (Pipeline.arrRef spec1 2) _ = V c (Pipeline.arrRef spec1 2) _
  refine congrArg (V c (Pipeline.arrRef spec1 2)) (funext fun a => Fin.ext ?_)
  match a with
  | ⟨0, _⟩ => show win1_2.index t (0 : Fin 2) * 5000 + 1 * p.val = r.val; rw [e0, hr]; omega
  | ⟨1, _⟩ => show win1_2.index t (1 : Fin 2) * 128 + 1 * k.val = k.val; rw [e1]; omega

/-- The first weight window holds its whole array at every point. -/
theorem iblk1_3_apply (c : Dev nD) (t : Fin cfg1.N) (k q : Fin 128) :
    (iblk1 V c 3 t : Vec Ideal S128x128 .f32) (ix2 k q) = (V c (Pipeline.arrRef spec1 3) : Cert.Sage.Mat 128 128) (ix2 k q) := by
  obtain ⟨-, -, -, -, -, -, e0, e1, -⟩ := idx_facts1 t
  unfold iblk1
  rw [View.read_apply]
  show V c (Pipeline.arrRef spec1 3) _ = V c (Pipeline.arrRef spec1 3) _
  refine congrArg (V c (Pipeline.arrRef spec1 3)) (funext fun a => Fin.ext ?_)
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- The second weight window holds its whole array at every point. -/
theorem iblk1_4_apply (c : Dev nD) (t : Fin cfg1.N) (k q : Fin 128) :
    (iblk1 V c 4 t : Vec Ideal S128x128 .f32) (ix2 k q) = (V c (Pipeline.arrRef spec1 4) : Cert.Sage.Mat 128 128) (ix2 k q) := by
  obtain ⟨-, -, -, -, -, -, -, -, e0, e1, -⟩ := idx_facts1 t
  unfold iblk1
  rw [View.read_apply]
  show V c (Pipeline.arrRef spec1 4) _ = V c (Pipeline.arrRef spec1 4) _
  refine congrArg (V c (Pipeline.arrRef spec1 4)) (funext fun a => Fin.ext ?_)
  match a with
  | ⟨0, _⟩ => show win1_4.index t (0 : Fin 2) * 128 + 1 * k.val = k.val; rw [e0]; omega
  | ⟨1, _⟩ => show win1_4.index t (1 : Fin 2) * 128 + 1 * q.val = q.val; rw [e1]; omega

/-- The bias window holds its whole one-row array at every point. -/
theorem iblk1_5_apply (c : Dev nD) (t : Fin cfg1.N) (u : Fin 1) (q : Fin 128) :
    (iblk1 V c 5 t : Vec Ideal S1x128 .f32) (ix2 u q) = (V c (Pipeline.arrRef spec1 5) : Cert.Sage.Mat 1 128) (ix2 u q) := by
  obtain ⟨-, -, -, -, -, -, -, -, -, -, e0, e1, -⟩ := idx_facts1 t
  unfold iblk1
  rw [View.read_apply]
  show V c (Pipeline.arrRef spec1 5) _ = V c (Pipeline.arrRef spec1 5) _
  refine congrArg (V c (Pipeline.arrRef spec1 5)) (funext fun a => Fin.ext ?_)
  match a with
  | ⟨0, _⟩ => show win1_5.index t (0 : Fin 2) * 1 + 1 * u.val = u.val; rw [e0]; omega
  | ⟨1, _⟩ => show win1_5.index t (1 : Fin 2) * 128 + 1 * q.val = q.val; rw [e1]; omega

/-- What the region's output array ends holding: the clipped layer of the six input arrays as the region finds them. -/
abbrev result1 (c : Dev nD) : Cert.Sage.Mat 100000 128 :=
  Cert.Sage.reluDense (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))

/-- What point t writes back is block t of the clipped layer of the input arrays. -/
theorem flushed1_eq (c : Dev nD) (t : Fin cfg1.N) :
    (dat1 (F := Ideal) V c).flushed 6 t = ((cfg1.win 6).blk t).view.read (Elt Ideal) (result1 V c) := by
  have hN : cfg1.N = 20 := N_1
  have ht : t.val < 20 := hN ▸ t.isLt
  obtain ⟨-, -, -, -, -, -, -, -, -, -, -, -, e0, e1⟩ := idx_facts1 t
  show (cfg1.win 6).cut (grid1.coords t) ((dat1 V c).after 6 t) = _
  rw [after1_6]
  unfold out1_6
  rw [View.canon_unit_zero zero_offsets]
  simp only [View.ld_unit_zero (S := S5000x128) zero_offsets, View.ld_unit_zero (S := S5000x1) zero_offsets,
    View.ld_unit_zero (S := S128x128) zero_offsets, View.ld_unit_zero (S := S1x128) zero_offsets]
  refine funext fun (j : S5000x128.Idx) => ?_
  obtain ⟨p, q, rfl⟩ : ∃ (p : Fin 5000) (q : Fin 128), j = ix2 p q := ⟨j 0, j 1, eq_ix2 j⟩
  have hp : p.val < 5000 := p.isLt
  obtain ⟨r, hr⟩ : ∃ r : Fin 100000, r.val = 5000 * t.val + p.val := ⟨⟨5000 * t.val + p.val, by omega⟩, rfl⟩
  have hemb : ((cfg1.win 6).blk t).view.emb (ix2 p q) = (ix2 r q : S100000x128.Idx) := funext fun a => Fin.ext (by
    match a with
    | ⟨0, _⟩ => show win1_6.index t (0 : Fin 2) * 5000 + 1 * p.val = r.val; rw [e0, hr]; omega
    | ⟨1, _⟩ => show win1_6.index t (1 : Fin 2) * 128 + 1 * q.val = q.val; rw [e1]; omega)
  show k1_pay1 (F := Ideal) (iblk1 V c 0 t) (iblk1 V c 1 t) (iblk1 V c 2 t) (iblk1 V c 3 t) (iblk1 V c 4 t) (iblk1 V c 5 t) (ix2 p q)
    = result1 V c (((cfg1.win 6).blk t).view.emb (ix2 p q))
  rw [hemb]
  refine (congrFun (k1_pay1_eq (iblk1 V c 0 t) (iblk1 V c 1 t) (iblk1 V c 2 t) (iblk1 V c 3 t) (iblk1 V c 4 t) (iblk1 V c 5 t)) (ix2 p q)).trans ?_
  exact combine_rows _ _ _ _ _ _ (iblk1 V c 0 t) (iblk1 V c 1 t) (iblk1 V c 2 t) (iblk1 V c 3 t) (iblk1 V c 4 t) (iblk1 V c 5 t) p q r
    (fun k => iblk1_0_apply V c t p k r hr) (iblk1_1_apply V c t p 0 r hr) (fun k => iblk1_2_apply V c t p k r hr)
    (fun k => iblk1_3_apply V c t k q) (fun k => iblk1_4_apply V c t k q) (iblk1_5_apply V c t 0 q)

/-- An index of the output array is in point t's block iff each coordinate is in the block's range on its axis. -/
theorem mem_blk1 (t : Fin cfg1.N) (i : S100000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v57).slice (win1_6.rect t)).set ↔ _
  rw [View.set_slice_whole, Rect.mem_set_unit]
  exact Iff.rfl

/-- Every row of the output array is in the block of the point numbered by its quotient by 5000. -/
theorem cover1 (i : S100000x128.Idx) : ∃ t : Fin cfg1.N, (cfg1.win 6).flush t = true ∧ i ∈ ((cfg1.win 6).blk t).view.set := by
  have hN : cfg1.N = 20 := N_1
  have hi0 : (i 0).val < 100000 := (i 0).isLt
  have hi1 : (i 1).val < 128 := (i 1).isLt
  obtain ⟨t, ht⟩ : ∃ t : Fin cfg1.N, t.val = (i 0).val / 5000 := ⟨⟨(i 0).val / 5000, by rw [hN]; omega⟩, rfl⟩
  obtain ⟨-, -, -, -, -, -, -, -, -, -, -, -, e0, e1⟩ := idx_facts1 t
  refine ⟨t, flush1_6 t, ?_⟩
  rw [mem_blk1]
  intro a
  match a with
  | ⟨0, _⟩ =>
    show win1_6.index t (0 : Fin 2) * 5000 ≤ (i 0).val ∧ (i 0).val < win1_6.index t (0 : Fin 2) * 5000 + 5000
    rw [e0, ht]; omega
  | ⟨1, _⟩ =>
    show win1_6.index t (1 : Fin 2) * 128 ≤ (i 1).val ∧ (i 1).val < win1_6.index t (1 : Fin 2) * 128 + 128
    rw [e1]; omega

/-- THE ARRAY after region 1: the clipped layer of the six input arrays as the region finds them. -/
theorem final1 (c : Dev nD) : (dat1 (F := Ideal) V c).arrAt 6 cfg1.N = result1 V c :=
  (dat1 V c).arrAt_eq_of_cover 6 (result1 V c) (fun t _ => flushed1_eq V c t) cover1

end Region1

end Cert.KernelIdeal.RegionValue

end
-- ==== Proof.Region23.lean ====
/-
  The two regions of the last layer, each read as one whole-array function of its input arrays.

  The projection region multiplies blocks of 5000 rows of the node features by the whole transposed weight matrix;
  the closing region adds, block of rows by block of rows, the root term x · wrt, the summed projected rows scaled by
  the per-node factor, and the bias row. Each body is read at an index (a product into the zero accumulator is the
  sum over the contracted axis, a format change is the identity on extended reals, a broadcast reads its operand's
  row or column), each input block is read where the output block's rows sit in the arrays, and the twenty blocks
  cover the 100000 rows, so the output array after the region is the specification's function of the arrays the
  region found.
-/
import proofs.«118538_j35639638622842_2_alg».proof.Proof.Gen.KernelIdeal.Frame
import proofs.«118538_j35639638622842_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-- The zero offsets of a whole-block access, as a constant function. -/
theorem zero_offsets : (![0, 0] : Fin 2 → Nat) = fun _ => 0 := funext fun a => by fin_cases a <;> rfl

/-! ## A [5000,128] by [128,64] product at an index -/

theorem dotProj_lhs_row (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem dotProj_lhs_col (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem dotProj_rhs_row (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem dotProj_rhs_col (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Into the zero accumulator, entry (p, q) of the product is the sum over k of lhs(p,k) · rhs(k,q). -/
theorem matmul_proj_apply (lhs : FVec Ideal S5000x128 .bf16) (rhs : FVec Ideal S128x64 .bf16) (p : Fin 5000) (q : Fin 64) :
    matmul (F := Ideal) dot_S5000x128_S128x64_S5000x64_1_0_0_1_n_n none lhs rhs (constant (F := Ideal) S5000x64 .f32 0x00000000#32) (ix2 p q)
      = ∑ k : Fin 128, lhs (ix2 p k) * rhs (ix2 k q) := by
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact dotProj_lhs_row _ _
    | ⟨1, _⟩ => exact (dotProj_lhs_col _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (dotProj_rhs_row _ _).trans hk
    | ⟨1, _⟩ => exact dotProj_rhs_col _ _)
  rw [el, er]

/-! ## The projection region -/

/-- The projection body at (p, q): the sum over k of x(p,k) · w(k,q); the format changes are the identity on extended reals. -/
theorem proj_payload_apply (x0 : Vec Ideal S5000x128 .f32) (x1 : Vec Ideal S128x64 .f32) (p : Fin 5000) (q : Fin 64) :
    k2_pay1 (F := Ideal) x0 x1 (ix2 p q) = ∑ k : Fin 128, x0 (ix2 p k) * x1 (ix2 k q) := by
  unfold k2_pay1
  simp only [shapeCast_self]
  refine (matmul_proj_apply _ _ p q).trans ?_
  rfl

/-- A block of rows of x against the whole weight matrix gives the same rows of the projection. -/
theorem proj_point (A : Cert.Sage.Mat 100000 128) (B : Cert.Sage.Mat 128 64) (x0 : Vec Ideal S5000x128 .f32) (x1 : Vec Ideal S128x64 .f32)
    (p : Fin 5000) (q : Fin 64) (r : Fin 100000)
    (hx0 : ∀ k : Fin 128, x0 (ix2 p k) = A (ix2 r k)) (hx1 : ∀ k : Fin 128, x1 (ix2 k q) = B (ix2 k q)) :
    k2_pay1 (F := Ideal) x0 x1 (ix2 p q) = Cert.Sage.proj A B (ix2 r q) := by
  rw [proj_payload_apply]
  exact Finset.sum_congr rfl fun k _ => by rw [hx0 k, hx1 k]

/-- The printed index maps over the grid: the row-blocked windows sit at block t, the weight window at block 0. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row p of x's block at point t is row 5000·t + p of the x array. -/
theorem x_block2 (c : Dev nD) (t : Fin cfg2.N) (p : Fin 5000) (k : Fin 128) (hr : t.val * 5000 + p.val < 100000) :
    iblk2 V c 0 t (ix2 p k) = V c (Pipeline.arrRef spec2 0) (ix2 (⟨t.val * 5000 + p.val, hr⟩ : Fin 100000) k) := by
  obtain ⟨e0, e1, -, -, -, -⟩ := idx_facts2 t
  show V c (Pipeline.arrRef spec2 0) (((cfg2.win 0).blk t).view.emb (ix2 p k)) = _
  refine congrArg _ (funext fun a => Fin.ext ?_)
  match a with
  | ⟨0, _⟩ => show win2_0.index t (0 : Fin 2) * 5000 + 1 * p.val = t.val * 5000 + p.val; rw [e0]; omega
  | ⟨1, _⟩ => show win2_0.index t (1 : Fin 2) * 128 + 1 * k.val = k.val; rw [e1]; omega

/-- The weight window's block at every point is the whole weight array. -/
theorem w_block2 (c : Dev nD) (t : Fin cfg2.N) (k : Fin 128) (q : Fin 64) :
    iblk2 V c 1 t (ix2 k q) = V c (Pipeline.arrRef spec2 1) (ix2 k q) := by
  obtain ⟨-, -, e2, e3, -, -⟩ := idx_facts2 t
  show V c (Pipeline.arrRef spec2 1) (((cfg2.win 1).blk t).view.emb (ix2 k q)) = _
  refine congrArg _ (funext fun a => Fin.ext ?_)
  match a with
  | ⟨0, _⟩ => show win2_1.index t (0 : Fin 2) * 128 + 1 * k.val = k.val; rw [e2]; omega
  | ⟨1, _⟩ => show win2_1.index t (1 : Fin 2) * 64 + 1 * q.val = q.val; rw [e3]; omega

/-- Entry (p, q) of the output's block at point t sits at (5000·t + p, q) in the output array. -/
theorem out_block2 (t : Fin cfg2.N) (p : Fin 5000) (q : Fin 64) (hr : t.val * 5000 + p.val < 100000) :
    ((cfg2.win 2).blk t).view.emb (ix2 p q) = ix2 (⟨t.val * 5000 + p.val, hr⟩ : Fin 100000) q := by
  obtain ⟨-, -, -, -, e4, e5⟩ := idx_facts2 t
  funext a; apply Fin.ext
  match a with
  | ⟨0, _⟩ => show win2_2.index t (0 : Fin 2) * 5000 + 1 * p.val = t.val * 5000 + p.val; rw [e4]; omega
  | ⟨1, _⟩ => show win2_2.index t (1 : Fin 2) * 64 + 1 * q.val = q.val; rw [e5]; omega

/-- What point t writes back is block t of the projection of the arrays as the region finds them. -/
theorem flushed2_eq (c : Dev nD) (t : Fin cfg2.N) :
    (dat2 (F := Ideal) V c).flushed 2 t = ((cfg2.win 2).blk t).view.read (Elt Ideal) (Cert.Sage.proj (V c (Pipeline.arrRef spec2 0)) (V c (Pipeline.arrRef spec2 1))) := by
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S128x64) zero_offsets]
  have ht : t.val < 20 := t.isLt
  funext j
  obtain ⟨p, q, rfl⟩ : ∃ (p : Fin 5000) (q : Fin 64), j = ix2 p q := ⟨j 0, j 1, eq_ix2 (n0 := 5000) (n1 := 64) j⟩
  have hr : t.val * 5000 + p.val < 100000 := by have := p.isLt; omega
  show k2_pay1 (F := Ideal) (iblk2 V c 0 t) (iblk2 V c 1 t) (ix2 p q)
    = Cert.Sage.proj (V c (Pipeline.arrRef spec2 0)) (V c (Pipeline.arrRef spec2 1)) (((cfg2.win 2).blk t).view.emb (ix2 p q))
  rw [out_block2 t p q hr]
  exact proj_point _ _ _ _ p q ⟨t.val * 5000 + p.val, hr⟩ (fun k => x_block2 V c t p k hr) (fun k => w_block2 V c t k q)

/-- An index of the output array is in point t's block iff each coordinate is in the block's range on its axis. -/
theorem mem_blk2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v62).slice (win2_2.rect t)).set ↔ _
  rw [View.set_slice_whole, Rect.mem_set_unit]
  exact Iff.rfl

/-- Every row is in the block of the point numbered row / 5000. -/
theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := rfl
  have ht : (i 0).val / 5000 < cfg2.N := by rw [hN]; omega
  obtain ⟨-, -, -, -, e4, e5⟩ := idx_facts2 ⟨(i 0).val / 5000, ht⟩
  refine ⟨⟨(i 0).val / 5000, ht⟩, flush2_2 _, ?_⟩
  rw [mem_blk2]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 64 ≤ (i 1).val ∧ (i 1).val < win2_2.index ⟨(i 0).val / 5000, ht⟩ (1 : Fin 2) * 64 + 64
    rw [e5]; omega

/-- After the projection region its output array is the projection of the x array by the weight array, as the region found them. -/
theorem final2 (c : Dev nD) : (dat2 (F := Ideal) V c).arrAt 2 cfg2.N
    = Cert.Sage.proj (V c (Pipeline.arrRef spec2 0)) (V c (Pipeline.arrRef spec2 1)) :=
  (dat2 (F := Ideal) V c).arrAt_eq_of_cover 2 _ (fun t _ => flushed2_eq V c t) cover2

/-! ## The closing region -/

/-- A one-column block broadcast along the columns reads, at (p, q), its entry of row p. -/
theorem bcast_col_apply (v : S5000x1.Idx → EReal) (h : S5000x1.Broadcasts S5000x64) (p : Fin 5000) (q : Fin 64) :
    broadcastTo S5000x64 v h (ix2 p q) = v (ix2 p (0 : Fin 1)) := by
  refine broadcastTo_apply v h (ix2 p q) (ix2 p (0 : Fin 1)) fun ax => ?_
  match ax with
  | ⟨0, _⟩ => show p.val = if (5000 : Nat) = 1 then 0 else p.val; rw [if_neg (by decide)]
  | ⟨1, _⟩ => show (0 : Nat) = if (1 : Nat) = 1 then 0 else q.val; rw [if_pos rfl]

/-- A one-row block broadcast along the rows reads, at (p, q), its entry of column q. -/
theorem bcast_row_apply (v : S1x64.Idx → EReal) (h : S1x64.Broadcasts S5000x64) (p : Fin 5000) (q : Fin 64) :
    broadcastTo S5000x64 v h (ix2 p q) = v (ix2 (0 : Fin 1) q) := by
  refine broadcastTo_apply v h (ix2 p q) (ix2 (0 : Fin 1) q) fun ax => ?_
  match ax with
  | ⟨0, _⟩ => show (0 : Nat) = if (1 : Nat) = 1 then 0 else p.val; rw [if_pos rfl]
  | ⟨1, _⟩ => show q.val = if (64 : Nat) = 1 then 0 else q.val; rw [if_neg (by decide)]

/-- The closing body at (p, q): the root term, plus the summed projected row scaled by the node's factor, plus the bias. -/
theorem finish_payload_apply (x0 : Vec Ideal S5000x64 .f32) (x1 : Vec Ideal S5000x1 .f32) (x2 : Vec Ideal S5000x128 .f32)
    (x3 : Vec Ideal S128x64 .f32) (x4 : Vec Ideal S1x64 .f32) (p : Fin 5000) (q : Fin 64) :
    k3_pay1 (F := Ideal) x0 x1 x2 x3 x4 (ix2 p q)
      = ((∑ k : Fin 128, x2 (ix2 p k) * x3 (ix2 k q)) + x0 (ix2 p q) * x1 (ix2 p (0 : Fin 1))) + x4 (ix2 (0 : Fin 1) q) := by
  unfold k3_pay1
  simp only [shapeCast_self]
  have h1 := matmul_proj_apply (truncf .bf16 x2 bitsLt_bf16_f32) (truncf .bf16 x3 bitsLt_bf16_f32) p q
  have h2 := bcast_col_apply x1 broadcasts_S5000x1_S5000x64 p q
  have h3 := bcast_row_apply x4 broadcasts_S1x64_S5000x64 p q
  refine Eq.trans (congrArg₂ (· + ·) (congrArg₂ (· + ·) h1 (congrArg (x0 (ix2 p q) * ·) h2)) h3) ?_
  rfl

/-- Blocks of rows of the three row-blocked arrays, against the whole weight matrix and bias row, give the same rows of the closing layer. -/
theorem finish_point (A0 : Cert.Sage.Mat 100000 64) (A1 : Cert.Sage.Mat 100000 1) (A2 : Cert.Sage.Mat 100000 128)
    (A3 : Cert.Sage.Mat 128 64) (A4 : Cert.Sage.Mat 1 64)
    (x0 : Vec Ideal S5000x64 .f32) (x1 : Vec Ideal S5000x1 .f32) (x2 : Vec Ideal S5000x128 .f32)
    (x3 : Vec Ideal S128x64 .f32) (x4 : Vec Ideal S1x64 .f32) (p : Fin 5000) (q : Fin 64) (r : Fin 100000)
    (h0 : x0 (ix2 p q) = A0 (ix2 r q)) (h1 : x1 (ix2 p (0 : Fin 1)) = A1 (ix2 r (0 : Fin 1)))
    (h2 : ∀ k : Fin 128, x2 (ix2 p k) = A2 (ix2 r k)) (h3 : ∀ k : Fin 128, x3 (ix2 k q) = A3 (ix2 k q))
    (h4 : x4 (ix2 (0 : Fin 1) q) = A4 (ix2 (0 : Fin 1) q)) :
    k3_pay1 (F := Ideal) x0 x1 x2 x3 x4 (ix2 p q) = Cert.Sage.finish A0 A1 A2 A3 A4 (ix2 r q) := by
  rw [finish_payload_apply, h0, h1, h4,
    Finset.sum_congr rfl (fun k _ => (by rw [h2 k, h3 k] : x2 (ix2 p k) * x3 (ix2 k q) = A2 (ix2 r k) * A3 (ix2 k q)))]
  rfl

/-- The printed index maps over the grid: the row-blocked windows sit at block t, the weight and bias windows at block 0. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row p of the summed projected rows' block at point t is row 5000·t + p of that array. -/
theorem aggy_block3 (c : Dev nD) (t : Fin cfg3.N) (p : Fin 5000) (q : Fin 64) (hr : t.val * 5000 + p.val < 100000) :
    iblk3 V c 0 t (ix2 p q) = V c (Pipeline.arrRef spec3 0) (ix2 (⟨t.val * 5000 + p.val, hr⟩ : Fin 100000) q) := by
  obtain ⟨e0, e1, -⟩ := idx_facts3 t
  show V c (Pipeline.arrRef spec3 0) (((cfg3.win 0).blk t).view.emb (ix2 p q)) = _
  refine congrArg _ (funext fun a => Fin.ext ?_)
  match a with
  | ⟨0, _⟩ => show win3_0.index t (0 : Fin 2) * 5000 + 1 * p.val = t.val * 5000 + p.val; rw [e0]; omega
  | ⟨1, _⟩ => show win3_0.index t (1 : Fin 2) * 64 + 1 * q.val = q.val; rw [e1]; omega

/-- Row p of the factor column's block at point t is row 5000·t + p of the factor column. -/
theorem inv_block3 (c : Dev nD) (t : Fin cfg3.N) (p : Fin 5000) (hr : t.val * 5000 + p.val < 100000) :
    iblk3 V c 1 t (ix2 p (0 : Fin 1)) = V c (Pipeline.arrRef spec3 1) (ix2 (⟨t.val * 5000 + p.val, hr⟩ : Fin 100000) (0 : Fin 1)) := by
  obtain ⟨-, -, e2, e3, -⟩ := idx_facts3 t
  show V c (Pipeline.arrRef spec3 1) (((cfg3.win 1).blk t).view.emb (ix2 p (0 : Fin 1))) = _
  refine congrArg _ (funext fun a => Fin.ext ?_)
  match a with
  | ⟨0, _⟩ => show win3_1.index t (0 : Fin 2) * 5000 + 1 * p.val = t.val * 5000 + p.val; rw [e2]; omega
  | ⟨1, _⟩ => show win3_1.index t (1 : Fin 2) * 1 + 1 * (0 : Fin 1).val = (0 : Fin 1).val; rw [e3]; rfl

/-- Row p of x's block at point t is row 5000·t + p of the x array. -/
theorem x_block3 (c : Dev nD) (t : Fin cfg3.N) (p : Fin 5000) (k : Fin 128) (hr : t.val * 5000 + p.val < 100000) :
    iblk3 V c 2 t (ix2 p k) = V c (Pipeline.arrRef spec3 2) (ix2 (⟨t.val * 5000 + p.val, hr⟩ : Fin 100000) k) := by
  obtain ⟨-, -, -, -, e4, e5, -⟩ := idx_facts3 t
  show V c (Pipeline.arrRef spec3 2) (((cfg3.win 2).blk t).view.emb (ix2 p k)) = _
  refine congrArg _ (funext fun a => Fin.ext ?_)
  match a with
  | ⟨0, _⟩ => show win3_2.index t (0 : Fin 2) * 5000 + 1 * p.val = t.val * 5000 + p.val; rw [e4]; omega
  | ⟨1, _⟩ => show win3_2.index t (1 : Fin 2) * 128 + 1 * k.val = k.val; rw [e5]; omega

/-- The weight window's block at every point is the whole weight array. -/
theorem w_block3 (c : Dev nD) (t : Fin cfg3.N) (k : Fin 128) (q : Fin 64) :
    iblk3 V c 3 t (ix2 k q) = V c (Pipeline.arrRef spec3 3) (ix2 k q) := by
  obtain ⟨-, -, -, -, -, -, e6, e7, -⟩ := idx_facts3 t
  show V c (Pipeline.arrRef spec3 3) (((cfg3.win 3).blk t).view.emb (ix2 k q)) = _
  refine congrArg _ (funext fun a => Fin.ext ?_)
  match a with
  | ⟨0, _⟩ => show win3_3.index t (0 : Fin 2) * 128 + 1 * k.val = k.val; rw [e6]; omega
  | ⟨1, _⟩ => show win3_3.index t (1 : Fin 2) * 64 + 1 * q.val = q.val; rw [e7]; omega

/-- The bias window's block at every point is the whole bias row. -/
theorem b_block3 (c : Dev nD) (t : Fin cfg3.N) (q : Fin 64) :
    iblk3 V c 4 t (ix2 (0 : Fin 1) q) = V c (Pipeline.arrRef spec3 4) (ix2 (0 : Fin 1) q) := by
  obtain ⟨-, -, -, -, -, -, -, -, e8, e9, -⟩ := idx_facts3 t
  show V c (Pipeline.arrRef spec3 4) (((cfg3.win 4).blk t).view.emb (ix2 (0 : Fin 1) q)) = _
  refine congrArg _ (funext fun a => Fin.ext ?_)
  match a with
  | ⟨0, _⟩ => show win3_4.index t (0 : Fin 2) * 1 + 1 * (0 : Fin 1).val = (0 : Fin 1).val; rw [e8]; rfl
  | ⟨1, _⟩ => show win3_4.index t (1 : Fin 2) * 64 + 1 * q.val = q.val; rw [e9]; omega

/-- Entry (p, q) of the output's block at point t sits at (5000·t + p, q) in the output array. -/
theorem out_block3 (t : Fin cfg3.N) (p : Fin 5000) (q : Fin 64) (hr : t.val * 5000 + p.val < 100000) :
    ((cfg3.win 5).blk t).view.emb (ix2 p q) = ix2 (⟨t.val * 5000 + p.val, hr⟩ : Fin 100000) q := by
  obtain ⟨-, -, -, -, -, -, -, -, -, -, e10, e11⟩ := idx_facts3 t
  funext a; apply Fin.ext
  match a with
  | ⟨0, _⟩ => show win3_5.index t (0 : Fin 2) * 5000 + 1 * p.val = t.val * 5000 + p.val; rw [e10]; omega
  | ⟨1, _⟩ => show win3_5.index t (1 : Fin 2) * 64 + 1 * q.val = q.val; rw [e11]; omega

set_option maxHeartbeats 1000000 in
/-- What point t writes back is block t of the closing layer of the arrays as the region finds them. -/
theorem flushed3_eq (c : Dev nD) (t : Fin cfg3.N) :
    (dat3 (F := Ideal) V c).flushed 5 t = ((cfg3.win 5).blk t).view.read (Elt Ideal)
      (Cert.Sage.finish (V c (Pipeline.arrRef spec3 0)) (V c (Pipeline.arrRef spec3 1)) (V c (Pipeline.arrRef spec3 2))
        (V c (Pipeline.arrRef spec3 3)) (V c (Pipeline.arrRef spec3 4))) := by
  show (cfg3.win 5).cut (grid3.coords t) ((dat3 V c).after 5 t) = _
  rw [after3_5]
  unfold out3_5
  rw [View.canon_unit_zero zero_offsets]
  simp only [View.ld_unit_zero (S := S5000x64) zero_offsets, View.ld_unit_zero (S := S5000x1) zero_offsets,
    View.ld_unit_zero (S := S5000x128) zero_offsets, View.ld_unit_zero (S := S128x64) zero_offsets,
    View.ld_unit_zero (S := S1x64) zero_offsets]
  have ht : t.val < 20 := t.isLt
  funext j
  obtain ⟨p, q, rfl⟩ : ∃ (p : Fin 5000) (q : Fin 64), j = ix2 p q := ⟨j 0, j 1, eq_ix2 (n0 := 5000) (n1 := 64) j⟩
  have hr : t.val * 5000 + p.val < 100000 := by have := p.isLt; omega
  show k3_pay1 (F := Ideal) (iblk3 V c 0 t) (iblk3 V c 1 t) (iblk3 V c 2 t) (iblk3 V c 3 t) (iblk3 V c 4 t) (ix2 p q)
    = Cert.Sage.finish (V c (Pipeline.arrRef spec3 0)) (V c (Pipeline.arrRef spec3 1)) (V c (Pipeline.arrRef spec3 2))
        (V c (Pipeline.arrRef spec3 3)) (V c (Pipeline.arrRef spec3 4)) (((cfg3.win 5).blk t).view.emb (ix2 p q))
  rw [out_block3 t p q hr]
  exact finish_point _ _ _ _ _ _ _ _ _ _ p q ⟨t.val * 5000 + p.val, hr⟩ (aggy_block3 V c t p q hr) (inv_block3 V c t p hr)
    (fun k => x_block3 V c t p k hr) (fun k => w_block3 V c t k q) (b_block3 V c t q)

/-- An index of the output array is in point t's block iff each coordinate is in the block's range on its axis. -/
theorem mem_blk3 (t : Fin cfg3.N) (i : S100000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v87).slice (win3_5.rect t)).set ↔ _
  rw [View.set_slice_whole, Rect.mem_set_unit]
  exact Iff.rfl

/-- Every row is in the block of the point numbered row / 5000. -/
theorem cover3 (i : S100000x64.Idx) : ∃ t : Fin cfg3.N, (cfg3.win 5).flush t = true ∧ i ∈ ((cfg3.win 5).blk t).view.set := by
  have hi0 : (i 0).val < 100000 := (i 0).isLt
  have hi1 : (i 1).val < 64 := (i 1).isLt
  have hN : cfg3.N = 20 := rfl
  have ht : (i 0).val / 5000 < cfg3.N := by rw [hN]; omega
  obtain ⟨-, -, -, -, -, -, -, -, -, -, e10, e11⟩ := idx_facts3 ⟨(i 0).val / 5000, ht⟩
  refine ⟨⟨(i 0).val / 5000, ht⟩, flush3_5 _, ?_⟩
  rw [mem_blk3]
  intro a
  match a with
  | ⟨0, _⟩ =>
    show win3_5.index ⟨(i 0).val / 5000, ht⟩ (0 : Fin 2) * 5000 ≤ (i 0).val ∧ (i 0).val < win3_5.index ⟨(i 0).val / 5000, ht⟩ (0 : Fin 2) * 5000 + 5000
    rw [e10]; show (i 0).val / 5000 * 5000 ≤ (i 0).val ∧ (i 0).val < (i 0).val / 5000 * 5000 + 5000; omega
  | ⟨1, _⟩ =>
    show win3_5.index ⟨(i 0).val / 5000, ht⟩ (1 : Fin 2) * 64 ≤ (i 1).val ∧ (i 1).val < win3_5.index ⟨(i 0).val / 5000, ht⟩ (1 : Fin 2) * 64 + 64
    rw [e11]; omega

/-- After the closing region its output array is the closing layer of the five arrays as the region found them. -/
theorem final3 (c : Dev nD) : (dat3 (F := Ideal) V c).arrAt 5 cfg3.N
    = Cert.Sage.finish (V c (Pipeline.arrRef spec3 0)) (V c (Pipeline.arrRef spec3 1)) (V c (Pipeline.arrRef spec3 2))
        (V c (Pipeline.arrRef spec3 3)) (V c (Pipeline.arrRef spec3 4)) :=
  (dat3 (F := Ideal) V c).arrAt_eq_of_cover 5 _ (fun t _ => flushed3_eq V c t) cover3

end Cert.KernelIdeal.RegionValue

end
-- ==== Proof.LayoutRead.lean ====
/-
  Four layout operations of the host programs, read at an index given by coordinates.

  A vector of c entries viewed as one row [1, c] reads its entry j at (0, j). A matrix [a, b] transposed to [b, a] reads,
  at (k, j), the operand's entry (j, k). A scalar constant broadcast to any shape reads the constant's value at every
  index. The column of reciprocals 1 / D(v), computed entry by entry on a vector of n entries and then viewed as a
  column [n, 1], reads at (v, 0) the quotient of the value of the word of 1.0 by D(v).
  All four are stated over literal shapes, so that they apply to the shape constants of either printed program.
-/
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout
import proofs.«118538_j35639638622842_2_alg».proof.Proof.LibKeepdims

noncomputable section

namespace Cert.Sage.Layout

open Idealize.ShloMosaic Idealize.ShloMosaic.ValueIdx

/-- A `[c]` array viewed as the row `[1, c]` reads, at `(u, j)`, the operand at `j`, whatever the unit coordinate `u`:
    both indices have row-major position `j`. -/
theorem reshape_row_apply {c : ℕ} {α : Type} (x : (⟨1, ![c]⟩ : Shape).Idx → α)
    (h : (⟨1, ![c]⟩ : Shape).ShapeCasts ⟨2, ![1, c]⟩) (u : Fin 1) (j : Fin c) :
    shapeCast ⟨2, ![1, c]⟩ x h (ix2 u j) = x (ix1 j) :=
  shapeCast_apply x h (ix2 u j) (ix1 j) (by
    have hu : u.val = 0 := by omega
    rw [Shape.rowMajor_val_two, Shape.rowMajor_val_one]
    show j.val = u.val * c + j.val
    rw [hu, Nat.zero_mul, Nat.zero_add])

/-- An `[a, b]` matrix transposed to `[b, a]` reads, at `(k, j)`, the operand at `(j, k)`. -/
theorem transpose_apply' {a b : ℕ} {α : Type} (x : (⟨2, ![a, b]⟩ : Shape).Idx → α)
    (h : (⟨2, ![a, b]⟩ : Shape).Transposes [1, 0] ⟨2, ![b, a]⟩) (k : Fin b) (j : Fin a) :
    transpose ⟨2, ![b, a]⟩ [1, 0] x h (ix2 k j) = x (ix2 j k) :=
  transpose_apply [1, 0] x h (ix2 k j) (ix2 j k) fun ax =>
    match ax with
    | ⟨0, _⟩ => rfl
    | ⟨1, _⟩ => rfl

/-- A scalar float constant broadcast to any shape reads, at every index, the value its word denotes. -/
theorem bcast_scalar_apply {s : Shape} (φ : FTy) (w : BitVec φ.bits)
    (h : (⟨0, ![]⟩ : Shape).BroadcastsInDim s (![] : Fin 0 → Fin s.rank)) (i : s.Idx) :
    broadcastInDim s ![] h (constant (F := Ideal) ⟨0, ![]⟩ φ w) i = Ideal.ofBits φ w :=
  rfl

/-- The column of reciprocals: the entrywise quotient of the broadcast word of 1.0 by `D`, a vector of `n` entries,
    viewed as the column `[n, 1]`, reads at `(v, u)` the quotient of the value of that word by `D v`. -/
theorem inv_col_apply {n : ℕ} (D : (⟨1, ![n]⟩ : Shape).Idx → EReal)
    (hb : (⟨0, ![]⟩ : Shape).BroadcastsInDim ⟨1, ![n]⟩ (![] : Fin 0 → Fin (⟨1, ![n]⟩ : Shape).rank))
    (hs : (⟨1, ![n]⟩ : Shape).ShapeCasts ⟨2, ![n, 1]⟩) (v : Fin n) (u : Fin 1) :
    shapeCast ⟨2, ![n, 1]⟩
        (Host.divf (F := Ideal) (φ := .f32)
          (broadcastInDim ⟨1, ![n]⟩ ![] hb (constant (F := Ideal) ⟨0, ![]⟩ .f32 0x3F800000#32)) D) hs (ix2 v u)
      = Ideal.div (Ideal.ofBits .f32 0x3F800000#32) (D (ix1 v)) :=
  (Cert.YearBasis.shapeCast_a_a1_apply _ hs v u).trans rfl

end Cert.Sage.Layout

end
-- ==== Proof.LibBatchStats.lean ====
import Idealize.ShloMosaic.PureOps.Ideal
import Idealize.ShloMosaic.PureOps.Ideal.Laws
import Mathlib

noncomputable section

namespace Cert.Lib.BatchStats

open Idealize.ShloMosaic
open scoped BigOperators

/-- The coercion of the reals into the extended reals commutes with finite sums:
    the sum of the reals `f i`, coerced, is the sum of the coerced `f i`. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of a real by a nonzero real, taken in the extended reals, is the real quotient. -/
theorem div_coe_coe (x : ℝ) {y : ℝ} (hy : y ≠ 0) :
    Ideal.div (x : EReal) (y : EReal) = ((x / y : ℝ) : EReal) := by
  rw [Ideal.div_coe hy, ← EReal.coe_mul, mul_one_div]

/-- The variance identity on the reals: with `μ = (Σ x)/n`,
    `(Σ x²)/n − μ·μ = (Σ (x − μ)·(x − μ))/n`. -/
theorem real_variance {n : ℕ} (hn : n ≠ 0) (x : Fin n → ℝ) :
    (∑ i, x i * x i) / (n : ℝ) - (∑ i, x i) / (n : ℝ) * ((∑ i, x i) / (n : ℝ))
      = (∑ i, (x i - (∑ i', x i') / (n : ℝ)) * (x i - (∑ i', x i') / (n : ℝ))) / (n : ℝ) := by
  have hn' : (n : ℝ) ≠ 0 := by exact_mod_cast hn
  set S : ℝ := ∑ i, x i with hS
  set μ : ℝ := S / (n : ℝ) with hμ
  have key : ∑ i, (x i - μ) * (x i - μ) = (∑ i, x i * x i) - 2 * μ * S + (n : ℝ) * (μ * μ) := by
    have : ∀ i, (x i - μ) * (x i - μ) = x i * x i - 2 * μ * x i + μ * μ := fun i => by ring
    simp only [this, Finset.sum_add_distrib, Finset.sum_sub_distrib, ← Finset.mul_sum,
      Finset.sum_const, Finset.card_univ, Fintype.card_fin, nsmul_eq_mul, ← hS]
    ring
  rw [key, hμ]
  field_simp
  ring

/-- The one-pass and the two-pass variance agree on real data: with `μ = (Σ x)/n`,
    `(Σ x²)/n − μ·μ = (Σ (x−μ)·(x−μ))/n`, all operations the extended reals' and the quotient
    `Ideal.div` by the real `n ≠ 0`. -/
theorem variance_one_pass_eq_two_pass {n : ℕ} (hn : n ≠ 0) (x : Fin n → ℝ) :
    Ideal.div (∑ i, ((x i : EReal) * (x i : EReal))) ((n : ℝ) : EReal)
        - Ideal.div (∑ i, (x i : EReal)) ((n : ℝ) : EReal)
          * Ideal.div (∑ i, (x i : EReal)) ((n : ℝ) : EReal)
      = Ideal.div (∑ i, (((x i : EReal) - Ideal.div (∑ i', (x i' : EReal)) ((n : ℝ) : EReal))
          * ((x i : EReal) - Ideal.div (∑ i', (x i' : EReal)) ((n : ℝ) : EReal)))) ((n : ℝ) : EReal) := by
  have hn' : (n : ℝ) ≠ 0 := by exact_mod_cast hn
  simp only [← EReal.coe_mul, ← coe_sum, div_coe_coe _ hn', ← EReal.coe_sub]
  rw [real_variance hn x]

/-- The same identity with each sum spelled as the initial value `0` plus the sum. -/
theorem variance_one_pass_eq_two_pass' {n : ℕ} (hn : n ≠ 0) (x : Fin n → ℝ) :
    Ideal.div (0 + ∑ i, ((x i : EReal) * (x i : EReal))) ((n : ℝ) : EReal)
        - Ideal.div (0 + ∑ i, (x i : EReal)) ((n : ℝ) : EReal)
          * Ideal.div (0 + ∑ i, (x i : EReal)) ((n : ℝ) : EReal)
      = Ideal.div (0 + ∑ i, (((x i : EReal) - Ideal.div (0 + ∑ i', (x i' : EReal)) ((n : ℝ) : EReal))
          * ((x i : EReal) - Ideal.div (0 + ∑ i', (x i' : EReal)) ((n : ℝ) : EReal)))) ((n : ℝ) : EReal) := by
  simp only [zero_add]
  exact variance_one_pass_eq_two_pass hn x

/-! ## Extended reals that are reals -/

/-- An extended real that is (the coercion of) a real: neither infinity. -/
def IsReal (x : EReal) : Prop := ∃ r : ℝ, x = (r : EReal)

namespace IsReal

/-- A coerced real is a real. -/
theorem coe (r : ℝ) : IsReal (r : EReal) := ⟨r, rfl⟩

/-- `0` is a real. -/
theorem zero : IsReal 0 := ⟨0, EReal.coe_zero.symm⟩

/-- `1` is a real. -/
theorem one : IsReal 1 := ⟨1, EReal.coe_one.symm⟩

/-- A real extended real is the coercion of its real part. -/
theorem coe_toReal {x : EReal} (h : IsReal x) : ((x.toReal : ℝ) : EReal) = x := by
  obtain ⟨r, rfl⟩ := h; simp

/-- A real extended real is neither infinity. -/
theorem ne_top {x : EReal} (h : IsReal x) : x ≠ ⊤ := by
  obtain ⟨r, rfl⟩ := h; exact EReal.coe_ne_top r

/-- A real extended real is neither infinity. -/
theorem ne_bot {x : EReal} (h : IsReal x) : x ≠ ⊥ := by
  obtain ⟨r, rfl⟩ := h; exact EReal.coe_ne_bot r

/-- An extended real that is neither infinity is a real. -/
theorem of_ne {x : EReal} (ht : x ≠ ⊤) (hb : x ≠ ⊥) : IsReal x :=
  ⟨x.toReal, (EReal.coe_toReal ht hb).symm⟩

/-- The sum of two reals is a real. -/
theorem add {x y : EReal} (hx : IsReal x) (hy : IsReal y) : IsReal (x + y) := by
  obtain ⟨a, rfl⟩ := hx; obtain ⟨b, rfl⟩ := hy; exact ⟨a + b, (EReal.coe_add a b).symm⟩

/-- The difference of two reals is a real. -/
theorem sub {x y : EReal} (hx : IsReal x) (hy : IsReal y) : IsReal (x - y) := by
  obtain ⟨a, rfl⟩ := hx; obtain ⟨b, rfl⟩ := hy; exact ⟨a - b, (EReal.coe_sub a b).symm⟩

/-- The product of two reals is a real. -/
theorem mul {x y : EReal} (hx : IsReal x) (hy : IsReal y) : IsReal (x * y) := by
  obtain ⟨a, rfl⟩ := hx; obtain ⟨b, rfl⟩ := hy; exact ⟨a * b, (EReal.coe_mul a b).symm⟩

/-- The negation of a real is a real. -/
theorem neg {x : EReal} (hx : IsReal x) : IsReal (-x) := by
  obtain ⟨a, rfl⟩ := hx; exact ⟨-a, (EReal.coe_neg a).symm⟩

/-- A finite sum of reals is a real. -/
theorem sum {ι : Type*} (s : Finset ι) (f : ι → EReal) (h : ∀ i ∈ s, IsReal (f i)) :
    IsReal (∑ i ∈ s, f i) :=
  Finset.sum_induction f IsReal (fun _ _ => add) zero h

/-- A sum of reals over a whole finite type is a real. -/
theorem sum_univ {ι : Type*} [Fintype ι] (f : ι → EReal) (h : ∀ i, IsReal (f i)) :
    IsReal (∑ i, f i) :=
  sum Finset.univ f fun i _ => h i

/-- The quotient of a real by a nonzero real is a real. -/
theorem div {x y : EReal} (hx : IsReal x) (hy : IsReal y) (hy0 : y ≠ 0) : IsReal (Ideal.div x y) := by
  obtain ⟨a, rfl⟩ := hx; obtain ⟨b, rfl⟩ := hy
  have hb : b ≠ 0 := fun h => hy0 (by rw [h, EReal.coe_zero])
  exact ⟨a / b, div_coe_coe a hb⟩

/-- The exponential of a real is a real. -/
theorem exp {x : EReal} (hx : IsReal x) : IsReal (Ideal.exp x) := by
  obtain ⟨a, rfl⟩ := hx; exact ⟨Real.exp a, Ideal.exp_coe a⟩

/-- The logistic function `1 / (1 + e^{-x})` of a real is a real: the denominator is positive. -/
theorem logistic {x : EReal} (hx : IsReal x) : IsReal (Ideal.div 1 (1 + Ideal.exp (-x))) := by
  obtain ⟨a, rfl⟩ := hx
  have hpos : (1 + Real.exp (-a)) ≠ 0 := (add_pos one_pos (Real.exp_pos _)).ne'
  refine ⟨1 / (1 + Real.exp (-a)), ?_⟩
  rw [← EReal.coe_neg, Ideal.exp_coe, ← EReal.coe_one, ← EReal.coe_add, div_coe_coe _ hpos]

/-- The same for the library's name of the logistic function. -/
theorem logistic' {x : EReal} (hx : IsReal x) : IsReal (Ideal.logistic x) := logistic hx

/-- The larger of two reals is a real. -/
theorem max {x y : EReal} (hx : IsReal x) (hy : IsReal y) : IsReal (Max.max x y) := by
  rcases le_total x y with h | h
  · rw [max_eq_right h]; exact hy
  · rw [max_eq_left h]; exact hx

/-- The smaller of two reals is a real. -/
theorem min {x y : EReal} (hx : IsReal x) (hy : IsReal y) : IsReal (Min.min x y) := by
  rcases le_total x y with h | h
  · rw [min_eq_left h]; exact hx
  · rw [min_eq_right h]; exact hy

/-- The reciprocal square root of a positive real is a real. -/
theorem rsqrt {x : EReal} (hx : IsReal x) (hpos : 0 < x) : IsReal (Ideal.rsqrt x) := by
  obtain ⟨a, rfl⟩ := hx
  have ha : 0 < a := by exact_mod_cast hpos
  refine ⟨(Real.sqrt a)⁻¹, ?_⟩
  rw [Ideal.rsqrt_coe, if_neg (not_lt.mpr ha.le), if_neg ha.ne']

end IsReal

/-- The reciprocal square root of a positive real, named: `(√r)⁻¹`. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The one-pass and two-pass variance agree on extended-real data all of whose entries are reals. -/
theorem variance_one_pass_eq_two_pass_of_isReal {n : ℕ} (hn : n ≠ 0) (X : Fin n → EReal)
    (hX : ∀ i, IsReal (X i)) :
    Ideal.div (∑ i, (X i * X i)) ((n : ℝ) : EReal)
        - Ideal.div (∑ i, X i) ((n : ℝ) : EReal) * Ideal.div (∑ i, X i) ((n : ℝ) : EReal)
      = Ideal.div (∑ i, ((X i - Ideal.div (∑ i', X i') ((n : ℝ) : EReal))
          * (X i - Ideal.div (∑ i', X i') ((n : ℝ) : EReal)))) ((n : ℝ) : EReal) := by
  choose x hx using hX
  obtain rfl : X = fun i => (x i : EReal) := funext hx
  exact variance_one_pass_eq_two_pass hn x

/-- The same with each sum spelled as the initial value `0` plus the sum. -/
theorem variance_one_pass_eq_two_pass_of_isReal' {n : ℕ} (hn : n ≠ 0) (X : Fin n → EReal)
    (hX : ∀ i, IsReal (X i)) :
    Ideal.div (0 + ∑ i, (X i * X i)) ((n : ℝ) : EReal)
        - Ideal.div (0 + ∑ i, X i) ((n : ℝ) : EReal) * Ideal.div (0 + ∑ i, X i) ((n : ℝ) : EReal)
      = Ideal.div (0 + ∑ i, ((X i - Ideal.div (0 + ∑ i', X i') ((n : ℝ) : EReal))
          * (X i - Ideal.div (0 + ∑ i', X i') ((n : ℝ) : EReal)))) ((n : ℝ) : EReal) := by
  simp only [zero_add]
  exact variance_one_pass_eq_two_pass_of_isReal hn X hX

/-- The two-pass variance of real data is a nonnegative real. -/
theorem variance_two_pass_nonneg {n : ℕ} (hn : n ≠ 0) (x : Fin n → ℝ) :
    ∃ v : ℝ, 0 ≤ v ∧
      Ideal.div (∑ i, (((x i : EReal) - Ideal.div (∑ i', (x i' : EReal)) ((n : ℝ) : EReal))
          * ((x i : EReal) - Ideal.div (∑ i', (x i' : EReal)) ((n : ℝ) : EReal)))) ((n : ℝ) : EReal)
        = (v : EReal) := by
  have hn' : (n : ℝ) ≠ 0 := by exact_mod_cast hn
  refine ⟨(∑ i, (x i - (∑ i', x i') / (n : ℝ)) * (x i - (∑ i', x i') / (n : ℝ))) / (n : ℝ), ?_, ?_⟩
  · exact div_nonneg (Finset.sum_nonneg fun i _ => mul_self_nonneg _) (Nat.cast_nonneg n)
  · simp only [← EReal.coe_mul, ← coe_sum, div_coe_coe _ hn', ← EReal.coe_sub]

/-! ## Literals -/

/-- The binary32 pattern `0x3F800000` denotes the real `1`. -/
theorem ofBits_one : Ideal.ofBits .f32 0x3F800000#32 = ((1 : ℝ) : EReal) := by
  simp [Ideal.ofBits, Ideal.ieee, -EReal.coe_mul]; norm_num

/-- The binary32 pattern `0x47435000` denotes the real `50000`. -/
theorem ofBits_50000 : Ideal.ofBits .f32 0x47435000#32 = ((50000 : ℝ) : EReal) := by
  simp [Ideal.ofBits, Ideal.ieee, -EReal.coe_mul]; norm_num

/-- The binary32 pattern `0x3727C5AC` (the binary32 value nearest `10⁻⁵`) denotes a positive real,
    `10995116 · 2⁻⁴⁰`. -/
theorem ofBits_eps_pos : ∃ ε : ℝ, 0 < ε ∧ Ideal.ofBits .f32 0x3727C5AC#32 = (ε : EReal) := by
  refine ⟨(10995116 : ℝ) * (2 : ℝ) ^ (-40 : ℤ), by positivity, ?_⟩
  simp [Ideal.ofBits, Ideal.ieee, -EReal.coe_mul]

/-! ## Sums by blocks, and accumulators -/

/-- Row `r` of block `t`, among `n` blocks of `b` rows: the row `t·b + r` of the `n·b` rows. -/
def blockIdx {n b : ℕ} (t : Fin n) (r : Fin b) : Fin (n * b) :=
  ⟨t.val * b + r.val, by
    have h1 : t.val * b + r.val < (t.val + 1) * b := by rw [Nat.succ_mul]; exact Nat.add_lt_add_left r.isLt _
    exact lt_of_lt_of_le h1 (Nat.mul_le_mul_right b t.isLt)⟩

/-- The value of `blockIdx t r` is `t·b + r`. -/
@[simp] theorem blockIdx_val {n b : ℕ} (t : Fin n) (r : Fin b) : (blockIdx t r).val = t.val * b + r.val := rfl

/-- A sum over `n·b` rows taken `b` rows at a time: `Σ_{t<n} Σ_{r<b} f(t·b + r) = Σ_{i<n·b} f i`,
    in any additive commutative monoid. -/
theorem sum_blocks {M : Type*} [AddCommMonoid M] (n b : ℕ) (f : Fin (n * b) → M) :
    (∑ t : Fin n, ∑ r : Fin b, f (blockIdx t r)) = ∑ i : Fin (n * b), f i := by
  rw [← Equiv.sum_comp finProdFinEquiv f, Fintype.sum_prod_type]
  refine Finset.sum_congr rfl fun t _ => Finset.sum_congr rfl fun r _ => ?_
  congr 1
  apply Fin.ext
  simp [blockIdx, finProdFinEquiv, Nat.mul_comm, Nat.add_comm]

/-- The same for a function of the natural-number row index:
    `Σ_{t<n} Σ_{r<b} f(t·b + r) = Σ_{i<n·b} f i`. -/
theorem sum_blocks_nat {M : Type*} [AddCommMonoid M] (n b : ℕ) (f : ℕ → M) :
    (∑ t : Fin n, ∑ r : Fin b, f (t.val * b + r.val)) = ∑ i : Fin (n * b), f i.val :=
  sum_blocks n b fun i => f i.val

/-- The same over ranges of natural numbers. -/
theorem sum_blocks_range {M : Type*} [AddCommMonoid M] (n b : ℕ) (f : ℕ → M) :
    (∑ t ∈ Finset.range n, ∑ r ∈ Finset.range b, f (t * b + r)) = ∑ i ∈ Finset.range (n * b), f i := by
  rw [Finset.sum_range, Finset.sum_range (fun i => f i), ← sum_blocks_nat]
  exact Finset.sum_congr rfl fun t _ => Finset.sum_range _

/-- The same when the number of rows is given as `N = n·b`. -/
theorem sum_blocks_of_eq {M : Type*} [AddCommMonoid M] {N n b : ℕ} (h : N = n * b) (f : Fin N → M) :
    (∑ t : Fin n, ∑ r : Fin b, f ⟨t.val * b + r.val, h ▸ (blockIdx t r).isLt⟩) = ∑ i : Fin N, f i := by
  subst h
  exact sum_blocks n b f

/-- An accumulator started at `0` and increased by `s t` at step `t` holds `Σ_{t<k} s t` after
    `k` steps. -/
theorem acc_eq_sum {M : Type*} [AddCommMonoid M] (s : ℕ → M) (acc : ℕ → M) (h0 : acc 0 = 0)
    (hstep : ∀ t, acc (t + 1) = acc t + s t) (k : ℕ) : acc k = ∑ t ∈ Finset.range k, s t := by
  induction k with
  | zero => simpa using h0
  | succ k ih => rw [hstep, ih, Finset.sum_range_succ]

/-- The same when the step rule is known only for the first `K` steps: for `k ≤ K`. -/
theorem acc_eq_sum_le {M : Type*} [AddCommMonoid M] (s : ℕ → M) (acc : ℕ → M) (K : ℕ) (h0 : acc 0 = 0)
    (hstep : ∀ t, t < K → acc (t + 1) = acc t + s t) (k : ℕ) (hk : k ≤ K) :
    acc k = ∑ t ∈ Finset.range k, s t := by
  induction k with
  | zero => simpa using h0
  | succ k ih => rw [hstep k hk, ih (Nat.le_of_succ_le hk), Finset.sum_range_succ]

/-! ## The literals are reals; the variance identity with a named divisor -/

/-- The binary32 pattern of `0` is a real. -/
theorem isReal_ofBits_zero : IsReal (Ideal.ofBits .f32 0x00000000#32) := by
  rw [Ideal.ofBits_zero_f32]; exact IsReal.zero

/-- The binary32 pattern of `1` is a real. -/
theorem isReal_ofBits_one : IsReal (Ideal.ofBits .f32 0x3F800000#32) := ⟨1, ofBits_one⟩

/-- The binary32 pattern of `50000` is a real. -/
theorem isReal_ofBits_50000 : IsReal (Ideal.ofBits .f32 0x47435000#32) := ⟨50000, ofBits_50000⟩

/-- The binary32 pattern nearest `10⁻⁵` is a real. -/
theorem isReal_ofBits_eps : IsReal (Ideal.ofBits .f32 0x3727C5AC#32) := by
  obtain ⟨ε, _, h⟩ := ofBits_eps_pos; exact ⟨ε, h⟩

/-- The binary32 pattern of `50000` is not `0`. -/
theorem ofBits_50000_ne_zero : Ideal.ofBits .f32 0x47435000#32 ≠ 0 := by
  rw [ofBits_50000]; exact_mod_cast (by norm_num : (50000 : ℝ) ≠ 0)

/-- The one-pass and two-pass variance agree on real-valued extended-real data, the divisor any
    extended real `d` equal to the count `n ≠ 0`. -/
theorem variance_one_pass_eq_two_pass_of_isReal_div {n : ℕ} (hn : n ≠ 0) (X : Fin n → EReal)
    (hX : ∀ i, IsReal (X i)) (d : EReal) (hd : d = ((n : ℝ) : EReal)) :
    Ideal.div (∑ i, (X i * X i)) d - Ideal.div (∑ i, X i) d * Ideal.div (∑ i, X i) d
      = Ideal.div (∑ i, ((X i - Ideal.div (∑ i', X i') d) * (X i - Ideal.div (∑ i', X i') d))) d := by
  subst hd
  exact variance_one_pass_eq_two_pass_of_isReal hn X hX

/-- The same with each sum spelled as the initial value `0` plus the sum. -/
theorem variance_one_pass_eq_two_pass_of_isReal_div' {n : ℕ} (hn : n ≠ 0) (X : Fin n → EReal)
    (hX : ∀ i, IsReal (X i)) (d : EReal) (hd : d = ((n : ℝ) : EReal)) :
    Ideal.div (0 + ∑ i, (X i * X i)) d - Ideal.div (0 + ∑ i, X i) d * Ideal.div (0 + ∑ i, X i) d
      = Ideal.div (0 + ∑ i, ((X i - Ideal.div (0 + ∑ i', X i') d)
          * (X i - Ideal.div (0 + ∑ i', X i') d))) d := by
  subst hd
  exact variance_one_pass_eq_two_pass_of_isReal' hn X hX

/-- Ten successive additions onto an initial value `z` give `z` plus the sum of the ten terms. -/
theorem fold10 {M : Type*} [AddCommMonoid M] (z : M) (a : ℕ → M) :
    (((((((((z + a 0) + a 1) + a 2) + a 3) + a 4) + a 5) + a 6) + a 7) + a 8) + a 9
      = z + ∑ t ∈ Finset.range 10, a t := by
  simp only [Finset.sum_range_succ, Finset.sum_range_zero, zero_add, add_assoc]

/-- A sum over a range of natural numbers of a function read at the index's value is the sum over
    the finite type: `Σ_{t<n} a t = Σ_{t : Fin n} a t`. -/
theorem sum_range_eq_sum_fin {M : Type*} [AddCommMonoid M] (n : ℕ) (a : ℕ → M) :
    ∑ t ∈ Finset.range n, a t = ∑ t : Fin n, a t.val :=
  Finset.sum_range a

end Cert.Lib.BatchStats

end
-- ==== Proof.Algebra.lean ====
/-
  The algebra that joins the two computations of a mean-aggregating graph layer on the extended reals.

  Write D(v) = max(deg(v), 1) for the per-node divisor; it is a real number, at least 1. One computation multiplies
  the neighbour sums by the reciprocal 1 / D(v) before the matrix product, the other divides them by D(v): division
  by a nonzero real IS the product with its reciprocal, for every extended real, so the two agree entry by entry,
  and the three summands of an entry may be added in either order. In the last layer one computation projects every
  row through the weight matrix BEFORE summing over the neighbours and the other after: for REAL entries the sum
  over the neighbours commutes with the sum over the feature axis and the real factors distribute, so
  (Σ_e Σ_k x(g e, k) · W(j, k)) · (1 / D) = Σ_k ((Σ_e x(g e, k)) / D) · W(j, k).
-/
import Mathlib
import Idealize.ShloMosaic.PureOps.Ideal
import Idealize.ShloMosaic.PureOps.Ideal.Laws
import Idealize.ShloMosaic.Lib.ValueIdx
import proofs.«118538_j35639638622842_2_alg».proof.Proof.Spec
import proofs.«118538_j35639638622842_2_alg».proof.Proof.LibBatchStats

noncomputable section

open scoped BigOperators

namespace Cert.Sage

open Idealize.ShloMosaic Idealize.ShloMosaic.ValueIdx Cert.Lib.BatchStats

/-- The value of the f32 word of 1.0. -/
abbrev oneW : EReal := Ideal.ofBits .f32 0x3F800000#32

/-- A divisor that is a nonzero real number. -/
def GoodDiv (D : EReal) : Prop := ∃ d : ℝ, d ≠ 0 ∧ D = (d : EReal)

/-- A count of ones started at zero and clipped below at one is a nonzero real. -/
theorem goodDiv_max_count {ι : Type*} (s : Finset ι) : GoodDiv (max (zeroW + ∑ _e ∈ s, oneW) oneW) := by
  have h1 : oneW = ((1 : ℝ) : EReal) := ofBits_one
  have hreal : IsReal (max (zeroW + ∑ _e ∈ s, oneW) oneW) :=
    IsReal.max (IsReal.add isReal_ofBits_zero (IsReal.sum s _ (fun _ _ => isReal_ofBits_one))) isReal_ofBits_one
  obtain ⟨r, hr⟩ := hreal
  refine ⟨r, ?_, hr⟩
  rintro rfl
  have hle : oneW ≤ max (zeroW + ∑ _e ∈ s, oneW) oneW := le_max_right _ _
  rw [hr, h1] at hle
  have : (1 : ℝ) ≤ 0 := by exact_mod_cast hle
  linarith

/-- The reciprocal of a nonzero real divisor, as the program forms it from the word of 1.0. -/
theorem div_one_goodDiv {d : ℝ} (hd : d ≠ 0) : Ideal.div oneW (d : EReal) = ((1 / d : ℝ) : EReal) := by
  show Ideal.div (Ideal.ofBits .f32 0x3F800000#32) (d : EReal) = _
  rw [ofBits_one, div_coe_coe 1 hd]

/-- Entry (v, j) of a layer as the reference forms it, before clipping: the neighbour sums divided by D(v), times
    the weights, plus the bias, plus the root term. The weight matrices are read untransposed, W(j, k). -/
def refLayer {n ci co : ℕ} (agg : Mat n ci) (D : Col n) (x : Mat n ci) (Wl Wr : Mat co ci) (b : Col co) :
    Mat n co := fun i =>
  ((∑ k : Fin ci, Ideal.div (agg (ix2 (i 0) k)) (D (ix1 (i 0))) * Wl (ix2 (i 1) k)) + b (ix1 (i 1)))
    + ∑ k : Fin ci, x (ix2 (i 0) k) * Wr (ix2 (i 1) k)

/-- The same clipped below at zero. -/
def reluRefLayer {n ci co : ℕ} (agg : Mat n ci) (D : Col n) (x : Mat n ci) (Wl Wr : Mat co ci) (b : Col co) :
    Mat n co := fun i => max (refLayer agg D x Wl Wr b i) zeroW

section Layers
variable {n ci co : ℕ}

/-! The functions at an index given by its two coordinates. -/

theorem dense_apply (agg : Mat n ci) (inv : Mat n 1) (x : Mat n ci) (wlt wrt : Mat ci co) (b : Mat 1 co)
    (v : Fin n) (j : Fin co) :
    dense agg inv x wlt wrt b (ix2 v j)
      = ((∑ k : Fin ci, (agg (ix2 v k) * inv (ix2 v (0 : Fin 1))) * wlt (ix2 k j))
          + ∑ k : Fin ci, x (ix2 v k) * wrt (ix2 k j)) + b (ix2 (0 : Fin 1) j) := rfl

theorem finish_apply (aggy : Mat n co) (inv : Mat n 1) (x : Mat n ci) (wrt : Mat ci co) (b : Mat 1 co)
    (v : Fin n) (j : Fin co) :
    finish aggy inv x wrt b (ix2 v j)
      = ((∑ k : Fin ci, x (ix2 v k) * wrt (ix2 k j)) + aggy (ix2 v j) * inv (ix2 v (0 : Fin 1)))
          + b (ix2 (0 : Fin 1) j) := rfl

theorem proj_apply (x : Mat n ci) (wlt : Mat ci co) (v : Fin n) (j : Fin co) :
    proj x wlt (ix2 v j) = ∑ k : Fin ci, x (ix2 v k) * wlt (ix2 k j) := rfl

theorem refLayer_apply (agg : Mat n ci) (D : Col n) (x : Mat n ci) (Wl Wr : Mat co ci) (b : Col co)
    (v : Fin n) (j : Fin co) :
    refLayer agg D x Wl Wr b (ix2 v j)
      = ((∑ k : Fin ci, Ideal.div (agg (ix2 v k)) (D (ix1 v)) * Wl (ix2 j k)) + b (ix1 j))
          + ∑ k : Fin ci, x (ix2 v k) * Wr (ix2 j k) := rfl

/-- LAYERS 0 AND 1. With the reciprocal column `inv(v) = 1 / D(v)`, the transposed weights and the bias row read
    back to the originals, the kernel's entry is the reference's: `a · (1/D) = a / D` for a nonzero real `D`, and
    addition of extended reals is commutative and associative. Nothing is assumed of `agg`, `x` or the weights. -/
theorem dense_eq_refLayer (agg x : Mat n ci) (inv : Mat n 1) (wlt wrt : Mat ci co) (b' : Mat 1 co)
    (D : Col n) (Wl Wr : Mat co ci) (b : Col co)
    (hD : ∀ v : Fin n, GoodDiv (D (ix1 v)))
    (hinv : ∀ v : Fin n, inv (ix2 v (0 : Fin 1)) = Ideal.div oneW (D (ix1 v)))
    (hwl : ∀ (k : Fin ci) (j : Fin co), wlt (ix2 k j) = Wl (ix2 j k))
    (hwr : ∀ (k : Fin ci) (j : Fin co), wrt (ix2 k j) = Wr (ix2 j k))
    (hb : ∀ j : Fin co, b' (ix2 (0 : Fin 1) j) = b (ix1 j)) :
    dense agg inv x wlt wrt b' = refLayer agg D x Wl Wr b := by
  funext i
  obtain ⟨v, j, rfl⟩ : ∃ (v : Fin n) (j : Fin co), i = ix2 v j := ⟨i 0, i 1, eq_ix2 i⟩
  obtain ⟨d, hd, hDv⟩ := hD v
  rw [dense_apply, refLayer_apply, hinv, hb, hDv, div_one_goodDiv hd]
  have e1 : ∀ k : Fin ci, (agg (ix2 v k) * ((1 / d : ℝ) : EReal)) * wlt (ix2 k j)
      = Ideal.div (agg (ix2 v k)) (d : EReal) * Wl (ix2 j k) := fun k => by
    rw [Ideal.div_coe hd, hwl]
  have e2 : ∀ k : Fin ci, x (ix2 v k) * wrt (ix2 k j) = x (ix2 v k) * Wr (ix2 j k) := fun k => by
    rw [hwr]
  rw [Finset.sum_congr rfl (fun k _ => e1 k), Finset.sum_congr rfl (fun k _ => e2 k)]
  exact add_right_comm _ _ _

theorem reluDense_eq_reluRefLayer (agg x : Mat n ci) (inv : Mat n 1) (wlt wrt : Mat ci co) (b' : Mat 1 co)
    (D : Col n) (Wl Wr : Mat co ci) (b : Col co)
    (hD : ∀ v : Fin n, GoodDiv (D (ix1 v)))
    (hinv : ∀ v : Fin n, inv (ix2 v (0 : Fin 1)) = Ideal.div oneW (D (ix1 v)))
    (hwl : ∀ (k : Fin ci) (j : Fin co), wlt (ix2 k j) = Wl (ix2 j k))
    (hwr : ∀ (k : Fin ci) (j : Fin co), wrt (ix2 k j) = Wr (ix2 j k))
    (hb : ∀ j : Fin co, b' (ix2 (0 : Fin 1) j) = b (ix1 j)) :
    reluDense agg inv x wlt wrt b' = reluRefLayer agg D x Wl Wr b := by
  funext i
  unfold reluDense reluRefLayer
  rw [dense_eq_refLayer agg x inv wlt wrt b' D Wl Wr b hD hinv hwl hwr hb]

/-- THE LINEARITY STEP on real data: the neighbour sum of the projected rows, times the reciprocal of a nonzero real
    `d`, is the projection of the neighbour sums divided by `d`. -/
theorem sum_proj_mul_inv {ι : Type*} (s : Finset ι) (xr : ι → Fin ci → ℝ) (wl : Fin ci → ℝ) {d : ℝ} (hd : d ≠ 0) :
    (zeroW + ∑ e ∈ s, ∑ k : Fin ci, ((xr e k : ℝ) : EReal) * ((wl k : ℝ) : EReal)) * Ideal.div oneW (d : EReal)
      = ∑ k : Fin ci, Ideal.div (zeroW + ∑ e ∈ s, ((xr e k : ℝ) : EReal)) (d : EReal) * ((wl k : ℝ) : EReal) := by
  have hz : zeroW = 0 := Ideal.ofBits_zero_f32
  rw [div_one_goodDiv hd, hz, zero_add]
  have hL : (∑ e ∈ s, ∑ k : Fin ci, ((xr e k : ℝ) : EReal) * ((wl k : ℝ) : EReal))
      = ((∑ e ∈ s, ∑ k : Fin ci, xr e k * wl k : ℝ) : EReal) := by
    rw [coe_sum]
    refine Finset.sum_congr rfl fun e _ => ?_
    rw [coe_sum]
    exact Finset.sum_congr rfl fun k _ => (EReal.coe_mul _ _).symm
  have hR : ∀ k : Fin ci, Ideal.div (0 + ∑ e ∈ s, ((xr e k : ℝ) : EReal)) (d : EReal) * ((wl k : ℝ) : EReal)
      = (((∑ e ∈ s, xr e k) / d * wl k : ℝ) : EReal) := fun k => by
    rw [zero_add, ← coe_sum, div_coe_coe _ hd, ← EReal.coe_mul]
  rw [hL, Finset.sum_congr rfl (fun k _ => hR k), ← coe_sum, ← EReal.coe_mul]
  refine congrArg _ ?_
  rw [Finset.sum_comm, Finset.sum_mul]
  refine Finset.sum_congr rfl fun k _ => ?_
  rw [← Finset.sum_mul]
  field_simp

/-- THE LAST LAYER. The kernel projects every row first (`y = x · Wlᵀ`), sums the projected rows over each node's
    neighbours (`aggy`), and multiplies by the reciprocal column; the reference sums the rows (`agg`), divides by
    `D` and projects. For real `x` and `Wl` the entries agree. `s v` is the set of edges landing on node `v`
    and `g e` the row edge `e` takes. -/
theorem finish_eq_refLayer {m : ℕ} (x : Mat n ci) (hx : ∀ i, IsReal (x i)) (aggy y : Mat n co) (agg : Mat n ci)
    (inv : Mat n 1) (wrt : Mat ci co) (b' : Mat 1 co) (D : Col n) (Wl Wr : Mat co ci) (hWl : ∀ i, IsReal (Wl i))
    (b : Col co) (s : Fin n → Finset (Fin m)) (g : Fin m → Fin n)
    (haggy : ∀ (v : Fin n) (j : Fin co), aggy (ix2 v j) = zeroW + ∑ e ∈ s v, y (ix2 (g e) j))
    (hy : ∀ (u : Fin n) (j : Fin co), y (ix2 u j) = ∑ k : Fin ci, x (ix2 u k) * Wl (ix2 j k))
    (hagg : ∀ (v : Fin n) (k : Fin ci), agg (ix2 v k) = zeroW + ∑ e ∈ s v, x (ix2 (g e) k))
    (hD : ∀ v : Fin n, GoodDiv (D (ix1 v)))
    (hinv : ∀ v : Fin n, inv (ix2 v (0 : Fin 1)) = Ideal.div oneW (D (ix1 v)))
    (hwr : ∀ (k : Fin ci) (j : Fin co), wrt (ix2 k j) = Wr (ix2 j k))
    (hb : ∀ j : Fin co, b' (ix2 (0 : Fin 1) j) = b (ix1 j)) :
    finish aggy inv x wrt b' = refLayer agg D x Wl Wr b := by
  funext i
  obtain ⟨v, j, rfl⟩ : ∃ (v : Fin n) (j : Fin co), i = ix2 v j := ⟨i 0, i 1, eq_ix2 i⟩
  obtain ⟨d, hd, hDv⟩ := hD v
  choose xr hxr using hx
  choose wl hwl using hWl
  rw [finish_apply, refLayer_apply, hinv, hb, hDv, haggy]
  have e2 : ∀ k : Fin ci, x (ix2 v k) * wrt (ix2 k j) = x (ix2 v k) * Wr (ix2 j k) := fun k => by
    rw [hwr]
  have e3 : (zeroW + ∑ e ∈ s v, y (ix2 (g e) j)) * Ideal.div oneW (d : EReal)
      = ∑ k : Fin ci, Ideal.div (agg (ix2 v k)) (d : EReal) * Wl (ix2 j k) := by
    have h := sum_proj_mul_inv (s v) (fun e k => xr (ix2 (g e) k)) (fun k => wl (ix2 j k)) hd
    have ey : ∀ e : Fin m, y (ix2 (g e) j)
        = ∑ k : Fin ci, ((xr (ix2 (g e) k) : ℝ) : EReal) * ((wl (ix2 j k) : ℝ) : EReal) := fun e => by
      rw [hy]
      exact Finset.sum_congr rfl fun k _ => by rw [hxr, hwl]
    have ea : ∀ k : Fin ci, Ideal.div (agg (ix2 v k)) (d : EReal) * Wl (ix2 j k)
        = Ideal.div (zeroW + ∑ e ∈ s v, ((xr (ix2 (g e) k) : ℝ) : EReal)) (d : EReal)
            * ((wl (ix2 j k) : ℝ) : EReal) := fun k => by
      rw [hagg, hwl]
      refine congrArg (fun t => Ideal.div (zeroW + t) (d : EReal) * _) ?_
      exact Finset.sum_congr rfl fun e _ => hxr _
    rw [Finset.sum_congr rfl (fun e _ => ey e), Finset.sum_congr rfl (fun k _ => ea k)]
    exact h
  rw [Finset.sum_congr rfl (fun k _ => e2 k), e3]
  -- (R + A) + b = (A + b) + R
  rw [add_comm (∑ k : Fin ci, x (ix2 v k) * Wr (ix2 j k)) _]
  exact add_right_comm _ _ _

/-- A layer of real data is real: every summand of an entry is a product or a quotient by a nonzero real. -/
theorem isReal_refLayer (agg : Mat n ci) (D : Col n) (x : Mat n ci) (Wl Wr : Mat co ci) (b : Col co)
    (hagg : ∀ i, IsReal (agg i)) (hD : ∀ v : Fin n, GoodDiv (D (ix1 v))) (hx : ∀ i, IsReal (x i))
    (hWl : ∀ i, IsReal (Wl i)) (hWr : ∀ i, IsReal (Wr i)) (hb : ∀ i, IsReal (b i)) (i) :
    IsReal (refLayer agg D x Wl Wr b i) := by
  obtain ⟨v, j, rfl⟩ : ∃ (v : Fin n) (j : Fin co), i = ix2 v j := ⟨i 0, i 1, eq_ix2 i⟩
  obtain ⟨d, hd, hDv⟩ := hD v
  rw [refLayer_apply]
  refine IsReal.add (IsReal.add (IsReal.sum_univ _ fun k => IsReal.mul ?_ (hWl _)) (hb _))
    (IsReal.sum_univ _ fun k => IsReal.mul (hx _) (hWr _))
  rw [hDv]
  exact IsReal.div (hagg _) (IsReal.coe d) (by exact_mod_cast hd)

theorem isReal_reluRefLayer (agg : Mat n ci) (D : Col n) (x : Mat n ci) (Wl Wr : Mat co ci) (b : Col co)
    (hagg : ∀ i, IsReal (agg i)) (hD : ∀ v : Fin n, GoodDiv (D (ix1 v))) (hx : ∀ i, IsReal (x i))
    (hWl : ∀ i, IsReal (Wl i)) (hWr : ∀ i, IsReal (Wr i)) (hb : ∀ i, IsReal (b i)) (i) :
    IsReal (reluRefLayer agg D x Wl Wr b i) :=
  IsReal.max (isReal_refLayer agg D x Wl Wr b hagg hD hx hWl hWr hb i) isReal_ofBits_zero

end Layers

end Cert.Sage

end
-- ==== Proof.LibRowGatherScatter.lean ====
/-
  Rows taken and rows added: StableHLO's `gather` and accumulating float `scatter` for the dimension numbers
  that take whole rows of a matrix (or single entries of a vector) at a column of integer indices, read at one
  index, for arbitrary sizes. `N` is the number of rows of the operand, `M` the number of index entries and `C`
  the number of columns. The gather reads the operand's row at the index entry, read as a signed integer and
  clamped into `[0, N - 1]`; the scatter adds to row `v` every update row whose index entry, read as a signed
  integer and NOT clamped, equals `v` (an entry outside `[0, N - 1]` is dropped). Last, the one distributive law
  of the extended reals such a sum needs: multiplying a finite sum by a nonnegative real on the right.
-/
import Idealize.ShloMosaic.PureOps.Ideal
import Idealize.ShloMosaic.PureOps.Ideal.Laws
import Idealize.ShloMosaic.Lib.ValueIdx

noncomputable section

open scoped BigOperators

namespace Idealize.ShloMosaic.RowOps

open Idealize.ShloMosaic Idealize.ShloMosaic.ValueIdx

/-! ## `stablehlo.gather` taking rows of a matrix -/

section GatherRows
variable {α : Type}

/-- The dimension numbers of "take rows": operand `[N, C]`, start indices `[M, 1]`, result `[M, C]`; the result's
    axis 1 is the offset axis (a whole row of `C` entries is the slice), the operand's axis 0 is collapsed and is
    the one the start index addresses. The conditions `wf` are decided on a program's literal shapes. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: entry `k` of the operand's row number `idx[e, 0]`, the index read as a signed
    integer and clamped into `[0, N - 1]`. -/
theorem gather_row_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (k : Fin C) :
    Host.gather (rowGatherDims N M C wf) x idx (ix2 e k)
      = x (ix2 ⟨min (idx (ix2 e (0 : Fin 1))).toInt.toNat (N - 1), by omega⟩ k) := by
  unfold Host.gather
  congr 1
  funext a
  refine Fin.ext ?_
  match a with
  | ⟨0, _⟩ =>
    show (rowGatherDims N M C wf).start (ix2 e k) idx 0 + (rowGatherDims N M C wf).batchCoord (ix2 e k) 0
      + (rowGatherDims N M C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    have hsi : (rowGatherDims N M C wf).siIdx (ix2 e k) ⟨List.idxOf (0 : Fin 2) (rowGatherDims N M C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N M C wf).start (ix2 e k) idx 1 + (rowGatherDims N M C wf).batchCoord (ix2 e k) 1
      + (rowGatherDims N M C wf).offCoord (ix2 e k) 1 = k.val
    rw [GatherDims.batchCoord_eq_zero _ _ _ List.not_mem_nil]
    unfold GatherDims.start
    rw [dif_neg (show (1 : Fin 2) ∉ (rowGatherDims N M C wf).startIndexMap from
      (by decide : (1 : Fin 2) ∉ ([0] : List (Fin 2))))]
    simp only [Nat.add_zero, Nat.zero_add]
    unfold GatherDims.offCoord
    rw [dif_pos (show (1 : Fin 2) ∈ (rowGatherDims N M C wf).sKept from
      (GatherDims.mem_sKept _ _).mpr ⟨(by decide : (1 : Fin 2) ∉ ([0] : List (Fin 2))), List.not_mem_nil⟩)]
    rfl

end GatherRows

/-! ## The accumulating float `stablehlo.scatter` adding rows to a matrix -/

section ScatterRows

/-- The dimension numbers of "add rows": operand `[N, C]`, scatter indices `[M, 1]`, updates `[M, C]`; the
    updates' axis 1 is the window axis (a whole row of `C` entries is the window), the operand's axis 0 is the
    inserted window axis and is the one the scatter index addresses. The conditions `wf` are decided on a
    program's literal shapes. -/
abbrev rowScatterDims (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N M C w : Nat} (wf : ScatterDims.WF ⟨2, ![N, C]⟩ ⟨2, ![M, 1]⟩ ⟨2, ![M, C]⟩ [1] [0] [0] 1)

/-- On the row axis the window of update `(e, k')` starts at the scatter index `idx[e, 0]`, read as a signed
    integer. -/
theorem rowScatter_start0 (idx : IVec ⟨2, ![M, 1]⟩ w) (e : Fin M) (k' : Fin C) :
    (rowScatterDims N M C wf).start (ix2 e k') idx 0 = (idx (ix2 e (0 : Fin 1))).toInt := by
  unfold ScatterDims.start
  rw [dif_pos (show (0 : Fin 2) ∈ (rowScatterDims N M C wf).scatterDimsToOperandDims from List.mem_singleton.mpr rfl)]
  have hsi : (rowScatterDims N M C wf).siIdx (ix2 e k')
      ⟨List.idxOf (0 : Fin 2) (rowScatterDims N M C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at `0`: the scatter index does not address it. -/
theorem rowScatter_start1 (idx : IVec ⟨2, ![M, 1]⟩ w) (e : Fin M) (k' : Fin C) :
    (rowScatterDims N M C wf).start (ix2 e k') idx 1 = 0 := by
  unfold ScatterDims.start
  rw [dif_neg (show (1 : Fin 2) ∉ (rowScatterDims N M C wf).scatterDimsToOperandDims from
    (by decide : (1 : Fin 2) ∉ ([0] : List (Fin 2))))]

/-- The row axis is inserted: the window coordinate there is `0`. -/
theorem rowScatter_window0 (e : Fin M) (k' : Fin C) : (rowScatterDims N M C wf).window (ix2 e k') 0 = 0 := by
  unfold ScatterDims.window
  rw [dif_neg]
  intro h
  have h' : (0 : Fin 2) ∈ (List.finRange 2).filter (fun a => a ∉ ([0] : List (Fin 2))) := h
  exact absurd h' (by decide)

/-- On the column axis the window coordinate of update `(e, k')` is its column `k'`. -/
theorem rowScatter_window1 (e : Fin M) (k' : Fin C) : (rowScatterDims N M C wf).window (ix2 e k') 1 = k'.val := by
  unfold ScatterDims.window
  rw [dif_pos (show (1 : Fin 2) ∈ (rowScatterDims N M C wf).sKept from
    (by decide : (1 : Fin 2) ∈ (List.finRange 2).filter (fun a => a ∉ ([0] : List (Fin 2)))))]
  rfl

/-- WHERE AN UPDATE LANDS: update `(e, k')` lands at operand element `(v, k)` exactly when its scatter index
    `idx[e, 0]`, read as a signed integer (not clamped), is `v` and its column is `k`. -/
theorem rowScatter_resultIdx_eq_some (idx : IVec ⟨2, ![M, 1]⟩ w) (e : Fin M) (k' k : Fin C) (v : Fin N) :
    (rowScatterDims N M C wf).resultIdx? (ix2 e k') idx = some (ix2 v k)
      ↔ (idx (ix2 e (0 : Fin 1))).toInt = (v.val : Int) ∧ k' = k := by
  have hv : (v.val : Int) < (N : Int) := by exact_mod_cast v.isLt
  have hk : (k'.val : Int) < (C : Int) := by exact_mod_cast k'.isLt
  unfold ScatterDims.resultIdx?
  constructor
  · intro h
    split at h
    · rename_i hin
      have hf := Option.some.inj h
      have h0 := congrArg Fin.val (congrFun hf 0)
      have h1 := congrArg Fin.val (congrFun hf 1)
      have hin0 := (hin 0).1
      simp only [rowScatter_start0, rowScatter_start1, rowScatter_window0, rowScatter_window1] at h0 h1 hin0
      refine ⟨?_, Fin.ext ?_⟩
      · change ((idx (ix2 e (0 : Fin 1))).toInt + ((0 : Nat) : Int)).toNat = v.val at h0
        omega
      · change ((0 : Int) + (k'.val : Int)).toNat = k.val at h1
        omega
    · exact absurd h (by simp)
  · rintro ⟨hi, rfl⟩
    have hin : ∀ a, 0 ≤ (rowScatterDims N M C wf).start (ix2 e k') idx a + (rowScatterDims N M C wf).window (ix2 e k') a ∧
        (rowScatterDims N M C wf).start (ix2 e k') idx a + (rowScatterDims N M C wf).window (ix2 e k') a
          < (⟨2, ![N, C]⟩ : Shape).size a := by
      intro a
      match a with
      | ⟨0, _⟩ =>
        show 0 ≤ (rowScatterDims N M C wf).start (ix2 e k') idx 0 + (rowScatterDims N M C wf).window (ix2 e k') 0 ∧
          (rowScatterDims N M C wf).start (ix2 e k') idx 0 + (rowScatterDims N M C wf).window (ix2 e k') 0 < (N : Int)
        rw [rowScatter_start0, rowScatter_window0, hi]
        constructor <;> omega
      | ⟨1, _⟩ =>
        show 0 ≤ (rowScatterDims N M C wf).start (ix2 e k') idx 1 + (rowScatterDims N M C wf).window (ix2 e k') 1 ∧
          (rowScatterDims N M C wf).start (ix2 e k') idx 1 + (rowScatterDims N M C wf).window (ix2 e k') 1 < (C : Int)
        rw [rowScatter_start1, rowScatter_window1]
        constructor <;> omega
    rw [dif_pos hin]
    congr 1
    funext a
    refine Fin.ext ?_
    match a with
    | ⟨0, _⟩ =>
      show ((rowScatterDims N M C wf).start (ix2 e k') idx 0 + (rowScatterDims N M C wf).window (ix2 e k') 0).toNat = v.val
      rw [rowScatter_start0, rowScatter_window0, hi]
      omega
    | ⟨1, _⟩ =>
      show ((rowScatterDims N M C wf).start (ix2 e k') idx 1 + (rowScatterDims N M C wf).window (ix2 e k') 1).toNat = k'.val
      rw [rowScatter_start1, rowScatter_window1]
      omega

end ScatterRows

section ScatterRowsSum
variable {N M C w : Nat} (wf : ScatterDims.WF ⟨2, ![N, C]⟩ ⟨2, ![M, 1]⟩ ⟨2, ![M, C]⟩ [1] [0] [0] 1)

/-- THE ROW SCATTER-ADD READ AT `(v, k)`, at the ideal values: the operand's element plus the sum, over the index
    entries `e` whose scatter index `idx[e, 0]` (read as a signed integer, not clamped) is `v`, of entry `k` of
    update row `e`. The updates landing at `(v, k)` are exactly the `(e, k)` with `idx[e, 0] = v`
    (`rowScatter_resultIdx_eq_some`), and `e ↦ (e, k)` re-indexes the sum. -/
theorem scatterAdd_row_apply (x : (⟨2, ![N, C]⟩ : Shape).Idx → EReal) (idx : IVec ⟨2, ![M, 1]⟩ w)
    (upd : (⟨2, ![M, C]⟩ : Shape).Idx → EReal) (v : Fin N) (k : Fin C) :
    Ideal.hostScatterAdd (rowScatterDims N M C wf) x idx upd (ix2 v k)
      = x (ix2 v k) + ∑ e ∈ Finset.univ.filter (fun e : Fin M => (idx (ix2 e (0 : Fin 1))).toInt = (v.val : Int)),
          upd (ix2 e k) := by
  unfold Ideal.hostScatterAdd
  congr 1
  refine Finset.sum_nbij' (fun j => (⟨(j 0).val, idx2_lt0 j⟩ : Fin M)) (fun e => ix2 e k) ?_ ?_ ?_ ?_ ?_
  · intro j hj
    obtain ⟨a, b, rfl⟩ : ∃ (a : Fin M) (b : Fin C), j = ix2 a b := ⟨_, _, eq_ix2 j⟩
    rw [Finset.mem_filter] at hj ⊢
    exact ⟨Finset.mem_univ _, ((rowScatter_resultIdx_eq_some wf idx a b k v).mp hj.2).1⟩
  · intro e he
    rw [Finset.mem_filter] at he ⊢
    exact ⟨Finset.mem_univ _, (rowScatter_resultIdx_eq_some wf idx e k k v).mpr ⟨he.2, rfl⟩⟩
  · intro j hj
    obtain ⟨a, b, rfl⟩ : ∃ (a : Fin M) (b : Fin C), j = ix2 a b := ⟨_, _, eq_ix2 j⟩
    rw [Finset.mem_filter] at hj
    obtain ⟨_, rfl⟩ := (rowScatter_resultIdx_eq_some wf idx a b k v).mp hj.2
    rfl
  · intro e _
    rfl
  · intro j hj
    obtain ⟨a, b, rfl⟩ : ∃ (a : Fin M) (b : Fin C), j = ix2 a b := ⟨_, _, eq_ix2 j⟩
    rw [Finset.mem_filter] at hj
    obtain ⟨_, rfl⟩ := (rowScatter_resultIdx_eq_some wf idx a b k v).mp hj.2
    rfl

/-- The same through the program's operation: `Host.scatterAdd` at the ideal values is `Ideal.hostScatterAdd`. -/
theorem host_scatterAdd_row_apply {φ : FTy} (x : FVec Ideal ⟨2, ![N, C]⟩ φ) (idx : IVec ⟨2, ![M, 1]⟩ w)
    (upd : FVec Ideal ⟨2, ![M, C]⟩ φ) (v : Fin N) (k : Fin C) :
    Host.scatterAdd (F := Ideal) (rowScatterDims N M C wf) x idx upd (ix2 v k)
      = x (ix2 v k) + ∑ e ∈ Finset.univ.filter (fun e : Fin M => (idx (ix2 e (0 : Fin 1))).toInt = (v.val : Int)),
          upd (ix2 e k) :=
  scatterAdd_row_apply wf x idx upd v k

end ScatterRowsSum

/-! ## Multiplying a finite sum of extended reals by a nonnegative real -/

section Distrib

/-- On the extended reals multiplication does not distribute over addition in general (`⊤ + ⊥ = ⊥`), but it does
    for a factor that is a NONNEGATIVE REAL: `(x + y) * δ = x * δ + y * δ`. Hence a finite sum of products times
    such a `δ` is the sum of the products with `δ` moved onto the second factor (multiplication itself is
    associative everywhere). -/
theorem sum_mul_mul_coe_of_nonneg {ι : Type*} (s : Finset ι) (a p : ι → EReal) {δ : ℝ} (hδ : 0 ≤ δ) :
    (∑ e ∈ s, a e * p e) * (δ : EReal) = ∑ e ∈ s, a e * (p e * (δ : EReal)) := by
  classical
  induction s using Finset.induction_on with
  | empty => simp
  | insert i s hi ih =>
    rw [Finset.sum_insert hi, Finset.sum_insert hi, ← ih, ← mul_assoc]
    exact EReal.right_distrib_of_nonneg_of_ne_top (EReal.coe_nonneg.mpr hδ) (EReal.coe_ne_top δ) _ _

end Distrib

/-! ## `stablehlo.gather` taking entries of a vector -/

section GatherEntries
variable {α : Type}

/-- The dimension numbers of "take entries": operand `[N]`, start indices `[M, 1]`, result `[M]`; no offset axis
    (the slice is one entry), the operand's one axis is collapsed and is the one the start index addresses. The
    conditions `wf` are decided on a program's literal shapes. -/
abbrev vecGatherDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE ENTRY GATHER READ AT `e`: the operand's entry number `idx[e, 0]`, the index read as a signed integer and
    clamped into `[0, N - 1]`. -/
theorem gather_vec_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecGatherDims N M wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (vecGatherDims N M wf).start (ix1 e) idx 0 + (vecGatherDims N M wf).batchCoord (ix1 e) 0
    + (vecGatherDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N M wf).startIndexMap from List.mem_singleton.mpr rfl)]
  have hsi : (vecGatherDims N M wf).siIdx (ix1 e) ⟨List.idxOf (0 : Fin 1) (vecGatherDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end GatherEntries

/-! ## The accumulating float `stablehlo.scatter` adding entries to a vector -/

section ScatterEntries

/-- The dimension numbers of "add entries": operand `[N]`, scatter indices `[M, 1]`, updates `[M]`; no window axis
    (the window is one entry), the operand's one axis is the inserted window axis and is the one the scatter index
    addresses. The conditions `wf` are decided on a program's literal shapes. -/
abbrev vecScatterDims (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

variable {N M w : Nat} (wf : ScatterDims.WF ⟨1, ![N]⟩ ⟨2, ![M, 1]⟩ ⟨1, ![M]⟩ [] [0] [0] 1)

/-- The window of update `e` starts at the scatter index `idx[e, 0]`, read as a signed integer. -/
theorem vecScatter_start0 (idx : IVec ⟨2, ![M, 1]⟩ w) (e : Fin M) :
    (vecScatterDims N M wf).start (ix1 e) idx 0 = (idx (ix2 e (0 : Fin 1))).toInt := by
  unfold ScatterDims.start
  rw [dif_pos (show (0 : Fin 1) ∈ (vecScatterDims N M wf).scatterDimsToOperandDims from List.mem_singleton.mpr rfl)]
  have hsi : (vecScatterDims N M wf).siIdx (ix1 e)
      ⟨List.idxOf (0 : Fin 1) (vecScatterDims N M wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is inserted: the window coordinate there is `0`. -/
theorem vecScatter_window0 (e : Fin M) : (vecScatterDims N M wf).window (ix1 e) 0 = 0 := by
  unfold ScatterDims.window
  rw [dif_neg]
  intro h
  have h' : (0 : Fin 1) ∈ (List.finRange 1).filter (fun a => a ∉ ([0] : List (Fin 1))) := h
  exact absurd h' (by decide)

/-- WHERE AN UPDATE LANDS: update `e` lands at operand entry `v` exactly when its scatter index `idx[e, 0]`, read
    as a signed integer (not clamped), is `v`. -/
theorem vecScatter_resultIdx_eq_some (idx : IVec ⟨2, ![M, 1]⟩ w) (e : Fin M) (v : Fin N) :
    (vecScatterDims N M wf).resultIdx? (ix1 e) idx = some (ix1 v)
      ↔ (idx (ix2 e (0 : Fin 1))).toInt = (v.val : Int) := by
  have hv : (v.val : Int) < (N : Int) := by exact_mod_cast v.isLt
  unfold ScatterDims.resultIdx?
  constructor
  · intro h
    split at h
    · rename_i hin
      have hf := Option.some.inj h
      have h0 := congrArg Fin.val (congrFun hf 0)
      have hin0 := (hin 0).1
      simp only [vecScatter_start0, vecScatter_window0] at h0 hin0
      change ((idx (ix2 e (0 : Fin 1))).toInt + ((0 : Nat) : Int)).toNat = v.val at h0
      omega
    · exact absurd h (by simp)
  · intro hi
    have hin : ∀ a, 0 ≤ (vecScatterDims N M wf).start (ix1 e) idx a + (vecScatterDims N M wf).window (ix1 e) a ∧
        (vecScatterDims N M wf).start (ix1 e) idx a + (vecScatterDims N M wf).window (ix1 e) a
          < (⟨1, ![N]⟩ : Shape).size a := by
      intro a
      obtain rfl : a = 0 := Subsingleton.elim _ _
      show 0 ≤ (vecScatterDims N M wf).start (ix1 e) idx 0 + (vecScatterDims N M wf).window (ix1 e) 0 ∧
        (vecScatterDims N M wf).start (ix1 e) idx 0 + (vecScatterDims N M wf).window (ix1 e) 0 < (N : Int)
      rw [vecScatter_start0, vecScatter_window0, hi]
      constructor <;> omega
    rw [dif_pos hin]
    congr 1
    funext a
    obtain rfl : a = 0 := Subsingleton.elim _ _
    refine Fin.ext ?_
    show ((vecScatterDims N M wf).start (ix1 e) idx 0 + (vecScatterDims N M wf).window (ix1 e) 0).toNat = v.val
    rw [vecScatter_start0, vecScatter_window0, hi]
    omega

/-- THE ENTRY SCATTER-ADD READ AT `v`, at the ideal values: the operand's entry plus the sum of the updates `e`
    whose scatter index `idx[e, 0]` (read as a signed integer, not clamped) is `v`. -/
theorem scatterAdd_vec_apply (x : (⟨1, ![N]⟩ : Shape).Idx → EReal) (idx : IVec ⟨2, ![M, 1]⟩ w)
    (upd : (⟨1, ![M]⟩ : Shape).Idx → EReal) (v : Fin N) :
    Ideal.hostScatterAdd (vecScatterDims N M wf) x idx upd (ix1 v)
      = x (ix1 v) + ∑ e ∈ Finset.univ.filter (fun e : Fin M => (idx (ix2 e (0 : Fin 1))).toInt = (v.val : Int)),
          upd (ix1 e) := by
  unfold Ideal.hostScatterAdd
  congr 1
  refine Finset.sum_nbij' (fun j => (⟨(j 0).val, (j 0).isLt⟩ : Fin M)) (fun e => ix1 e) ?_ ?_ ?_ ?_ ?_
  · intro j hj
    obtain ⟨a, rfl⟩ : ∃ (a : Fin M), j = ix1 a := ⟨_, eq_ix1 j⟩
    rw [Finset.mem_filter] at hj ⊢
    exact ⟨Finset.mem_univ _, (vecScatter_resultIdx_eq_some wf idx a v).mp hj.2⟩
  · intro e he
    rw [Finset.mem_filter] at he ⊢
    exact ⟨Finset.mem_univ _, (vecScatter_resultIdx_eq_some wf idx e v).mpr he.2⟩
  · intro j _
    obtain ⟨a, rfl⟩ : ∃ (a : Fin M), j = ix1 a := ⟨_, eq_ix1 j⟩
    rfl
  · intro e _
    rfl
  · intro j _
    obtain ⟨a, rfl⟩ : ∃ (a : Fin M), j = ix1 a := ⟨_, eq_ix1 j⟩
    rfl

/-- The same through the program's operation: `Host.scatterAdd` at the ideal values is `Ideal.hostScatterAdd`. -/
theorem host_scatterAdd_vec_apply {φ : FTy} (x : FVec Ideal ⟨1, ![N]⟩ φ) (idx : IVec ⟨2, ![M, 1]⟩ w)
    (upd : FVec Ideal ⟨1, ![M]⟩ φ) (v : Fin N) :
    Host.scatterAdd (F := Ideal) (vecScatterDims N M wf) x idx upd (ix1 v)
      = x (ix1 v) + ∑ e ∈ Finset.univ.filter (fun e : Fin M => (idx (ix2 e (0 : Fin 1))).toInt = (v.val : Int)),
          upd (ix1 e) :=
  scatterAdd_vec_apply wf x idx upd v

end ScatterEntries

end Idealize.ShloMosaic.RowOps

end
-- ==== Proof.Aggregate.lean ====
/-
  The neighbour sum of a graph layer read at an index. The rows of `x` named by the source column are gathered, one
  per edge, and added into the rows named by the destination column, starting from `z`. Entry (v, k) of the result
  is z(v, k) plus the sum, over the edges whose destination entry (read as a signed integer) is v, of entry k of
  the row the edge's source entry names (read as a signed integer and clamped into [0, N - 1]). The in-degree is the
  same scatter of a vector of ones.
-/
import Idealize.ShloMosaic.PureOps.Ideal
import Idealize.ShloMosaic.Lib.ValueIdx
import proofs.«118538_j35639638622842_2_alg».proof.Proof.LibRowGatherScatter

noncomputable section

open scoped BigOperators

namespace Cert.Sage

open Idealize.ShloMosaic Idealize.ShloMosaic.ValueIdx Idealize.ShloMosaic.RowOps

/-- The edges that land on node `v`: those whose destination entry, read as a signed integer, is `v`. -/
def edgesTo {N M w : ℕ} (dst : IVec ⟨2, ![M, 1]⟩ w) (v : Fin N) : Finset (Fin M) :=
  Finset.univ.filter (fun e : Fin M => (dst (ix2 e (0 : Fin 1))).toInt = (v.val : Int))

/-- The row edge `e` takes: its source entry read as a signed integer and clamped into `[0, N - 1]`. -/
def rowOf {N M w : ℕ} (hN : 0 < N) (src : IVec ⟨2, ![M, 1]⟩ w) (e : Fin M) : Fin N :=
  ⟨min (src (ix2 e (0 : Fin 1))).toInt.toNat (N - 1), by omega⟩

/-- The neighbour sum at (v, k). -/
theorem aggregate_apply {N M C w : ℕ} (hN : 0 < N)
    (gwf : GatherDims.WF ⟨2, ![N, C]⟩ ⟨2, ![M, 1]⟩ ⟨2, ![M, C]⟩ [1] [0] [] [0] [] 1 ![1, C])
    (swf : ScatterDims.WF ⟨2, ![N, C]⟩ ⟨2, ![M, 1]⟩ ⟨2, ![M, C]⟩ [1] [0] [0] 1)
    (z x : FVec Ideal ⟨2, ![N, C]⟩ .f32) (src dst : IVec ⟨2, ![M, 1]⟩ w) (v : Fin N) (k : Fin C) :
    Host.scatterAdd (F := Ideal) (rowScatterDims N M C swf) z dst (Host.gather (rowGatherDims N M C gwf) x src) (ix2 v k)
      = z (ix2 v k) + ∑ e ∈ edgesTo dst v, x (ix2 (rowOf hN src e) k) := by
  rw [host_scatterAdd_row_apply]
  refine congrArg _ (Finset.sum_congr rfl fun e _ => ?_)
  exact gather_row_apply hN gwf x src e k

/-- The scatter of a vector into the nodes at v: z(v) plus the sum of the entries of the edges landing on v. -/
theorem degree_apply {N M w : ℕ} (swf : ScatterDims.WF ⟨1, ![N]⟩ ⟨2, ![M, 1]⟩ ⟨1, ![M]⟩ [] [0] [0] 1)
    (z : FVec Ideal ⟨1, ![N]⟩ .f32) (dst : IVec ⟨2, ![M, 1]⟩ w) (u : FVec Ideal ⟨1, ![M]⟩ .f32) (v : Fin N) :
    Host.scatterAdd (F := Ideal) (vecScatterDims N M swf) z dst u (ix1 v)
      = z (ix1 v) + ∑ e ∈ edgesTo dst v, u (ix1 e) :=
  host_scatterAdd_vec_apply swf z dst u v

end Cert.Sage

end
-- ==== Proof.RefValue.lean ====
/-
  The reference's three layers read at an index. Each layer divides the neighbour sums of its input features by
  max(deg, 1), multiplies by the neighbour weights, adds the bias and the root term (the input features times the
  root weights) and, in the first two layers, clips below at zero: entry (v, j) is the layer function of the
  algebra module at the stages the generated reading names.
-/
import proofs.«118538_j35639638622842_2_alg».proof.Proof.Gen.ReferenceIdeal.Read
import proofs.«118538_j35639638622842_2_alg».proof.Proof.Algebra
import proofs.«118538_j35639638622842_2_alg».proof.Proof.Aggregate

noncomputable section

open scoped BigOperators

namespace Cert.ReferenceIdeal.RefValue

open Cert.ReferenceIdeal Cert.ReferenceIdeal.Read Idealize.ShloMosaic Idealize.ShloMosaic.ValueIdx Cert.Sage
  Cert.Lib.BatchStats

/-- There is at least one node. -/
theorem node_pos : 0 < 100000 := by norm_num

/-- The clipped layer function at an index given by its two coordinates. -/
theorem reluRefLayer_apply {n ci co : ℕ} (agg : Mat n ci) (D : Col n) (x : Mat n ci) (Wl Wr : Mat co ci) (b : Col co)
    (v : Fin n) (j : Fin co) :
    reluRefLayer agg D x Wl Wr b (ix2 v j)
      = max (((∑ k : Fin ci, Ideal.div (agg (ix2 v k)) (D (ix1 v)) * Wl (ix2 j k)) + b (ix1 j))
          + ∑ k : Fin ci, x (ix2 v k) * Wr (ix2 j k)) zeroW := rfl

section Layer0
variable (x0 : (⟨S100000x128, .f32⟩ : BufTy).Contents (Elt Ideal)) (x1 : (⟨S3x2x625000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal))

/-- Layer 0: the divided neighbour sums at (v, k). -/
theorem div0 (v : Fin 100000) (k : Fin 128) :
    val_main_v24 (F := Ideal) x0 x1 (ix2 v k) = Ideal.div (val_main_v15 (F := Ideal) x0 x1 (ix2 v k)) (val_main_v21 (F := Ideal) x1 (ix1 v)) := by
  have e : idx_main_v22 (idx_main_v23 (ix2 v k)) = ix1 v :=
    funext fun a => Fin.ext (by match a with | ⟨0, _⟩ => rfl)
  rw [val_main_v24_apply, val_main_v23_apply, val_main_v22_apply, e]
  rfl

/-- Layer 0: the neighbour term at (v, j). -/
theorem nbr0 (v : Fin 100000) (j : Fin 128) :
    val_main_v26 (F := Ideal) x0 x1 x2 (ix2 v j)
      = ∑ k : Fin 128, Ideal.div (val_main_v15 (F := Ideal) x0 x1 (ix2 v k)) (val_main_v21 (F := Ideal) x1 (ix1 v)) * x2 (ix2 j k) := by
  rw [val_main_v26_apply]
  refine Finset.sum_congr rfl fun k _ => ?_
  have e1 : lidx_main_v26 (ix2 v j) k = ix2 v k :=
    funext fun a => Fin.ext (by match a with | ⟨0, _⟩ => rfl | ⟨1, _⟩ => rfl)
  have e2 : idx_main_v25 (ridx_main_v26 (ix2 v j) k) = ix2 j k :=
    funext fun a => Fin.ext (by match a with | ⟨0, _⟩ => rfl | ⟨1, _⟩ => rfl)
  rw [e1, div0, val_main_v25_apply, e2]

/-- Layer 0: the bias at (v, j). -/
theorem bias0 (v : Fin 100000) (j : Fin 128) : val_main_v28 (F := Ideal) x3 (ix2 v j) = x3 (ix1 j) := by
  have e : idx_main_v27 (idx_main_v28 (ix2 v j)) = ix1 j :=
    funext fun a => Fin.ext (by match a with | ⟨0, _⟩ => rfl)
  rw [val_main_v28_apply, val_main_v27_apply, e]

/-- Layer 0: the root term at (v, j). -/
theorem root0 (v : Fin 100000) (j : Fin 128) :
    val_main_v31 (F := Ideal) x0 x4 (ix2 v j) = ∑ k : Fin 128, (x0) (ix2 v k) * x4 (ix2 j k) := by
  rw [val_main_v31_apply]
  refine Finset.sum_congr rfl fun k _ => ?_
  have e1 : lidx_main_v31 (ix2 v j) k = ix2 v k :=
    funext fun a => Fin.ext (by match a with | ⟨0, _⟩ => rfl | ⟨1, _⟩ => rfl)
  have e2 : idx_main_v30 (ridx_main_v31 (ix2 v j) k) = ix2 j k :=
    funext fun a => Fin.ext (by match a with | ⟨0, _⟩ => rfl | ⟨1, _⟩ => rfl)
  rw [e1, val_main_v30_apply, e2]

/-- Layer 0: the value it is clipped at. -/
theorem zero0 (i : S100000x128.Idx) : val_main_call0_v0 (F := Ideal) i = zeroW := by
  rw [val_main_call0_v0_apply, val_main_call0_cst_apply]
  rfl

/-- LAYER 0 of the reference is the clipped layer function of its neighbour sums, its divisor, its input
    features, the two weight matrices and the bias. -/
theorem layer0 :
    val_main_v33 (F := Ideal) x0 x1 x2 x3 x4
      = reluRefLayer (val_main_v15 (F := Ideal) x0 x1) (val_main_v21 (F := Ideal) x1) (x0) x2 x4 x3 := by
  funext i
  obtain ⟨v, j, rfl⟩ : ∃ (v : Fin 100000) (j : Fin 128), i = ix2 v j := ⟨i 0, i 1, eq_ix2 i⟩
  rw [val_main_v33_apply, val_main_v32_apply, val_main_v29_apply, nbr0, bias0, root0, zero0,
    Ideal.maximumf_def, Ideal.addf_def, Ideal.addf_def, reluRefLayer_apply]

end Layer0

section Layer1
variable (x0 : (⟨S100000x128, .f32⟩ : BufTy).Contents (Elt Ideal)) (x1 : (⟨S3x2x625000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal))

/-- Layer 1: the divided neighbour sums at (v, k). -/
theorem div1 (v : Fin 100000) (k : Fin 128) :
    val_main_v58 (F := Ideal) x0 x1 x2 x3 x4 (ix2 v k) = Ideal.div (val_main_v49 (F := Ideal) x0 x1 x2 x3 x4 (ix2 v k)) (val_main_v55 (F := Ideal) x1 (ix1 v)) := by
  have e : idx_main_v56 (idx_main_v57 (ix2 v k)) = ix1 v :=
    funext fun a => Fin.ext (by match a with | ⟨0, _⟩ => rfl)
  rw [val_main_v58_apply, val_main_v57_apply, val_main_v56_apply, e]
  rfl

/-- Layer 1: the neighbour term at (v, j). -/
theorem nbr1 (v : Fin 100000) (j : Fin 128) :
    val_main_v60 (F := Ideal) x0 x1 x2 x3 x4 x5 (ix2 v j)
      = ∑ k : Fin 128, Ideal.div (val_main_v49 (F := Ideal) x0 x1 x2 x3 x4 (ix2 v k)) (val_main_v55 (F := Ideal) x1 (ix1 v)) * x5 (ix2 j k) := by
  rw [val_main_v60_apply]
  refine Finset.sum_congr rfl fun k _ => ?_
  have e1 : lidx_main_v60 (ix2 v j) k = ix2 v k :=
    funext fun a => Fin.ext (by match a with | ⟨0, _⟩ => rfl | ⟨1, _⟩ => rfl)
  have e2 : idx_main_v59 (ridx_main_v60 (ix2 v j) k) = ix2 j k :=
    funext fun a => Fin.ext (by match a with | ⟨0, _⟩ => rfl | ⟨1, _⟩ => rfl)
  rw [e1, div1, val_main_v59_apply, e2]

/-- Layer 1: the bias at (v, j). -/
theorem bias1 (v : Fin 100000) (j : Fin 128) : val_main_v62 (F := Ideal) x6 (ix2 v j) = x6 (ix1 j) := by
  have e : idx_main_v61 (idx_main_v62 (ix2 v j)) = ix1 j :=
    funext fun a => Fin.ext (by match a with | ⟨0, _⟩ => rfl)
  rw [val_main_v62_apply, val_main_v61_apply, e]

/-- Layer 1: the root term at (v, j). -/
theorem root1 (v : Fin 100000) (j : Fin 128) :
    val_main_v65 (F := Ideal) x0 x1 x2 x3 x4 x7 (ix2 v j) = ∑ k : Fin 128, (val_main_v33 (F := Ideal) x0 x1 x2 x3 x4) (ix2 v k) * x7 (ix2 j k) := by
  rw [val_main_v65_apply]
  refine Finset.sum_congr rfl fun k _ => ?_
  have e1 : lidx_main_v65 (ix2 v j) k = ix2 v k :=
    funext fun a => Fin.ext (by match a with | ⟨0, _⟩ => rfl | ⟨1, _⟩ => rfl)
  have e2 : idx_main_v64 (ridx_main_v65 (ix2 v j) k) = ix2 j k :=
    funext fun a => Fin.ext (by match a with | ⟨0, _⟩ => rfl | ⟨1, _⟩ => rfl)
  rw [e1, val_main_v64_apply, e2]

/-- Layer 1: the value it is clipped at. -/
theorem zero1 (i : S100000x128.Idx) : val_main_call1_v0 (F := Ideal) i = zeroW := by
  rw [val_main_call1_v0_apply, val_main_call1_cst_apply]
  rfl

/-- LAYER 1 of the reference is the clipped layer function of its neighbour sums, its divisor, its input
    features, the two weight matrices and the bias. -/
theorem layer1 :
    val_main_v67 (F := Ideal) x0 x1 x2 x3 x4 x5 x6 x7
      = reluRefLayer (val_main_v49 (F := Ideal) x0 x1 x2 x3 x4) (val_main_v55 (F := Ideal) x1) (val_main_v33 (F := Ideal) x0 x1 x2 x3 x4) x5 x7 x6 := by
  funext i
  obtain ⟨v, j, rfl⟩ : ∃ (v : Fin 100000) (j : Fin 128), i = ix2 v j := ⟨i 0, i 1, eq_ix2 i⟩
  rw [val_main_v67_apply, val_main_v66_apply, val_main_v63_apply, nbr1, bias1, root1, zero1,
    Ideal.maximumf_def, Ideal.addf_def, Ideal.addf_def, reluRefLayer_apply]

end Layer1

section Layer2
variable (x0 : (⟨S100000x128, .f32⟩ : BufTy).Contents (Elt Ideal)) (x1 : (⟨S3x2x625000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S64x128, .f32⟩ : BufTy).Contents (Elt Ideal)) (x9 : (⟨S64, .f32⟩ : BufTy).Contents (Elt Ideal)) (x10 : (⟨S64x128, .f32⟩ : BufTy).Contents (Elt Ideal))

/-- Layer 2: the divided neighbour sums at (v, k). -/
theorem div2 (v : Fin 100000) (k : Fin 128) :
    val_main_v92 (F := Ideal) x0 x1 x2 x3 x4 x5 x6 x7 (ix2 v k) = Ideal.div (val_main_v83 (F := Ideal) x0 x1 x2 x3 x4 x5 x6 x7 (ix2 v k)) (val_main_v89 (F := Ideal) x1 (ix1 v)) := by
  have e : idx_main_v90 (idx_main_v91 (ix2 v k)) = ix1 v :=
    funext fun a => Fin.ext (by match a with | ⟨0, _⟩ => rfl)
  rw [val_main_v92_apply, val_main_v91_apply, val_main_v90_apply, e]
  rfl

/-- Layer 2: the neighbour term at (v, j). -/
theorem nbr2 (v : Fin 100000) (j : Fin 64) :
    val_main_v94 (F := Ideal) x0 x1 x2 x3 x4 x5 x6 x7 x8 (ix2 v j)
      = ∑ k : Fin 128, Ideal.div (val_main_v83 (F := Ideal) x0 x1 x2 x3 x4 x5 x6 x7 (ix2 v k)) (val_main_v89 (F := Ideal) x1 (ix1 v)) * x8 (ix2 j k) := by
  rw [val_main_v94_apply]
  refine Finset.sum_congr rfl fun k _ => ?_
  have e1 : lidx_main_v94 (ix2 v j) k = ix2 v k :=
    funext fun a => Fin.ext (by match a with | ⟨0, _⟩ => rfl | ⟨1, _⟩ => rfl)
  have e2 : idx_main_v93 (ridx_main_v94 (ix2 v j) k) = ix2 j k :=
    funext fun a => Fin.ext (by match a with | ⟨0, _⟩ => rfl | ⟨1, _⟩ => rfl)
  rw [e1, div2, val_main_v93_apply, e2]

/-- Layer 2: the bias at (v, j). -/
theorem bias2 (v : Fin 100000) (j : Fin 64) : val_main_v96 (F := Ideal) x9 (ix2 v j) = x9 (ix1 j) := by
  have e : idx_main_v95 (idx_main_v96 (ix2 v j)) = ix1 j :=
    funext fun a => Fin.ext (by match a with | ⟨0, _⟩ => rfl)
  rw [val_main_v96_apply, val_main_v95_apply, e]

/-- Layer 2: the root term at (v, j). -/
theorem root2 (v : Fin 100000) (j : Fin 64) :
    val_main_v99 (F := Ideal) x0 x1 x2 x3 x4 x5 x6 x7 x10 (ix2 v j) = ∑ k : Fin 128, (val_main_v67 (F := Ideal) x0 x1 x2 x3 x4 x5 x6 x7) (ix2 v k) * x10 (ix2 j k) := by
  rw [val_main_v99_apply]
  refine Finset.sum_congr rfl fun k _ => ?_
  have e1 : lidx_main_v99 (ix2 v j) k = ix2 v k :=
    funext fun a => Fin.ext (by match a with | ⟨0, _⟩ => rfl | ⟨1, _⟩ => rfl)
  have e2 : idx_main_v98 (ridx_main_v99 (ix2 v j) k) = ix2 j k :=
    funext fun a => Fin.ext (by match a with | ⟨0, _⟩ => rfl | ⟨1, _⟩ => rfl)
  rw [e1, val_main_v98_apply, e2]

/-- LAYER 2 of the reference is the layer function of its neighbour sums, its divisor, its input features, the
    two weight matrices and the bias. -/
theorem layer2 :
    val_main_v100 (F := Ideal) x0 x1 x2 x3 x4 x5 x6 x7 x8 x9 x10
      = refLayer (val_main_v83 (F := Ideal) x0 x1 x2 x3 x4 x5 x6 x7) (val_main_v89 (F := Ideal) x1) (val_main_v67 (F := Ideal) x0 x1 x2 x3 x4 x5 x6 x7) x8 x10 x9 := by
  funext i
  obtain ⟨v, j, rfl⟩ : ∃ (v : Fin 100000) (j : Fin 64), i = ix2 v j := ⟨i 0, i 1, eq_ix2 i⟩
  rw [val_main_v100_apply, val_main_v97_apply, nbr2, bias2, root2, Ideal.addf_def, Ideal.addf_def,
    refLayer_apply]

end Layer2

section Sums0
variable (x0 : (⟨S100000x128, .f32⟩ : BufTy).Contents (Elt Ideal)) (x1 : (⟨S3x2x625000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal))

/-- Layer 0: the in-degree count at node v, started at zero. -/
theorem deg0 (v : Fin 100000) :
    val_main_v19 (F := Ideal) x1 (ix1 v)
      = zeroW + ∑ _e ∈ edgesTo (N := 100000) (M := 625000) (w := 32) (val_main_v18 (F := Ideal) x1) v, oneW := by
  unfold val_main_v19
  refine (degree_apply (N := 100000) (M := 625000) (w := 32) scatter_S100000_S625000x1_S625000_n_0_0_1.wf
    (val_main_v17 (F := Ideal)) (val_main_v18 (F := Ideal) x1) (val_main_v16 (F := Ideal)) v).trans ?_
  rw [val_main_v17_apply, val_main_cst_2_apply, Ideal.ofBits_def]
  exact congrArg (fun t => zeroW + t) (Finset.sum_congr rfl fun e _ => by
    rw [val_main_v16_apply, val_main_cst_1_apply, Ideal.ofBits_def])

/-- Layer 0: the divisor max(deg, 1) is a nonzero real at every node. -/
theorem goodDiv0 (v : Fin 100000) : GoodDiv (val_main_v21 (F := Ideal) x1 (ix1 v)) := by
  have h : val_main_v21 (F := Ideal) x1 (ix1 v)
      = max (zeroW + ∑ _e ∈ edgesTo (N := 100000) (M := 625000) (w := 32) (val_main_v18 (F := Ideal) x1) v, oneW) oneW := by
    rw [val_main_v21_apply, Ideal.maximumf_def, deg0, val_main_v20_apply, val_main_cst_3_apply, Ideal.ofBits_def]
  rw [h]
  exact goodDiv_max_count _

/-- Layer 0: the neighbour sums at (v, k), started at zero. -/
theorem agg0 (v : Fin 100000) (k : Fin 128) :
    val_main_v15 (F := Ideal) x0 x1 (ix2 v k)
      = zeroW + ∑ e ∈ edgesTo (N := 100000) (M := 625000) (w := 32) (val_main_v14 (F := Ideal) x1) v,
          (x0) (ix2 (rowOf (N := 100000) (M := 625000) (w := 32) node_pos (val_main_v11 (F := Ideal) x1) e) k) := by
  unfold val_main_v15 val_main_v12
  refine (aggregate_apply (N := 100000) (M := 625000) (C := 128) (w := 32) node_pos
    gather_S100000x128_S625000x1_S625000x128_1_0_n_n_0_1_1128.wf scatter_S100000x128_S625000x1_S625000x128_1_0_0_1.wf
    (val_main_v13 (F := Ideal)) (x0) (val_main_v11 (F := Ideal) x1) (val_main_v14 (F := Ideal) x1) v k).trans ?_
  rw [val_main_v13_apply, val_main_cst_apply, Ideal.ofBits_def]

/-- Layer 0: the neighbour sums of real features are real. -/
theorem real_agg0 (hX : ∀ i, IsReal ((x0) i)) (i : S100000x128.Idx) :
    IsReal (val_main_v15 (F := Ideal) x0 x1 i) := by
  obtain ⟨v, k, rfl⟩ : ∃ (v : Fin 100000) (k : Fin 128), i = ix2 v k := ⟨i 0, i 1, eq_ix2 i⟩
  rw [agg0]
  exact IsReal.add isReal_ofBits_zero (IsReal.sum _ _ fun e _ => hX _)

end Sums0

section Sums1
variable (x0 : (⟨S100000x128, .f32⟩ : BufTy).Contents (Elt Ideal)) (x1 : (⟨S3x2x625000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal))

/-- Layer 1: the in-degree count at node v, started at zero. -/
theorem deg1 (v : Fin 100000) :
    val_main_v53 (F := Ideal) x1 (ix1 v)
      = zeroW + ∑ _e ∈ edgesTo (N := 100000) (M := 625000) (w := 32) (val_main_v52 (F := Ideal) x1) v, oneW := by
  unfold val_main_v53
  refine (degree_apply (N := 100000) (M := 625000) (w := 32) scatter_S100000_S625000x1_S625000_n_0_0_1.wf
    (val_main_v51 (F := Ideal)) (val_main_v52 (F := Ideal) x1) (val_main_v50 (F := Ideal)) v).trans ?_
  rw [val_main_v51_apply, val_main_cst_8_apply, Ideal.ofBits_def]
  exact congrArg (fun t => zeroW + t) (Finset.sum_congr rfl fun e _ => by
    rw [val_main_v50_apply, val_main_cst_7_apply, Ideal.ofBits_def])

/-- Layer 1: the divisor max(deg, 1) is a nonzero real at every node. -/
theorem goodDiv1 (v : Fin 100000) : GoodDiv (val_main_v55 (F := Ideal) x1 (ix1 v)) := by
  have h : val_main_v55 (F := Ideal) x1 (ix1 v)
      = max (zeroW + ∑ _e ∈ edgesTo (N := 100000) (M := 625000) (w := 32) (val_main_v52 (F := Ideal) x1) v, oneW) oneW := by
    rw [val_main_v55_apply, Ideal.maximumf_def, deg1, val_main_v54_apply, val_main_cst_9_apply, Ideal.ofBits_def]
  rw [h]
  exact goodDiv_max_count _

/-- Layer 1: the neighbour sums at (v, k), started at zero. -/
theorem agg1 (v : Fin 100000) (k : Fin 128) :
    val_main_v49 (F := Ideal) x0 x1 x2 x3 x4 (ix2 v k)
      = zeroW + ∑ e ∈ edgesTo (N := 100000) (M := 625000) (w := 32) (val_main_v48 (F := Ideal) x1) v,
          (val_main_v33 (F := Ideal) x0 x1 x2 x3 x4) (ix2 (rowOf (N := 100000) (M := 625000) (w := 32) node_pos (val_main_v45 (F := Ideal) x1) e) k) := by
  unfold val_main_v49 val_main_v46
  refine (aggregate_apply (N := 100000) (M := 625000) (C := 128) (w := 32) node_pos
    gather_S100000x128_S625000x1_S625000x128_1_0_n_n_0_1_1128.wf scatter_S100000x128_S625000x1_S625000x128_1_0_0_1.wf
    (val_main_v47 (F := Ideal)) (val_main_v33 (F := Ideal) x0 x1 x2 x3 x4) (val_main_v45 (F := Ideal) x1) (val_main_v48 (F := Ideal) x1) v k).trans ?_
  rw [val_main_v47_apply, val_main_cst_6_apply, Ideal.ofBits_def]

/-- Layer 1: the neighbour sums of real features are real. -/
theorem real_agg1 (hX : ∀ i, IsReal ((val_main_v33 (F := Ideal) x0 x1 x2 x3 x4) i)) (i : S100000x128.Idx) :
    IsReal (val_main_v49 (F := Ideal) x0 x1 x2 x3 x4 i) := by
  obtain ⟨v, k, rfl⟩ : ∃ (v : Fin 100000) (k : Fin 128), i = ix2 v k := ⟨i 0, i 1, eq_ix2 i⟩
  rw [agg1]
  exact IsReal.add isReal_ofBits_zero (IsReal.sum _ _ fun e _ => hX _)

end Sums1

section Sums2
variable (x0 : (⟨S100000x128, .f32⟩ : BufTy).Contents (Elt Ideal)) (x1 : (⟨S3x2x625000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S64x128, .f32⟩ : BufTy).Contents (Elt Ideal)) (x9 : (⟨S64, .f32⟩ : BufTy).Contents (Elt Ideal)) (x10 : (⟨S64x128, .f32⟩ : BufTy).Contents (Elt Ideal))

/-- Layer 2: the in-degree count at node v, started at zero. -/
theorem deg2 (v : Fin 100000) :
    val_main_v87 (F := Ideal) x1 (ix1 v)
      = zeroW + ∑ _e ∈ edgesTo (N := 100000) (M := 625000) (w := 32) (val_main_v86 (F := Ideal) x1) v, oneW := by
  unfold val_main_v87
  refine (degree_apply (N := 100000) (M := 625000) (w := 32) scatter_S100000_S625000x1_S625000_n_0_0_1.wf
    (val_main_v85 (F := Ideal)) (val_main_v86 (F := Ideal) x1) (val_main_v84 (F := Ideal)) v).trans ?_
  rw [val_main_v85_apply, val_main_cst_14_apply, Ideal.ofBits_def]
  exact congrArg (fun t => zeroW + t) (Finset.sum_congr rfl fun e _ => by
    rw [val_main_v84_apply, val_main_cst_13_apply, Ideal.ofBits_def])

/-- Layer 2: the divisor max(deg, 1) is a nonzero real at every node. -/
theorem goodDiv2 (v : Fin 100000) : GoodDiv (val_main_v89 (F := Ideal) x1 (ix1 v)) := by
  have h : val_main_v89 (F := Ideal) x1 (ix1 v)
      = max (zeroW + ∑ _e ∈ edgesTo (N := 100000) (M := 625000) (w := 32) (val_main_v86 (F := Ideal) x1) v, oneW) oneW := by
    rw [val_main_v89_apply, Ideal.maximumf_def, deg2, val_main_v88_apply, val_main_cst_15_apply, Ideal.ofBits_def]
  rw [h]
  exact goodDiv_max_count _

/-- Layer 2: the neighbour sums at (v, k), started at zero. -/
theorem agg2 (v : Fin 100000) (k : Fin 128) :
    val_main_v83 (F := Ideal) x0 x1 x2 x3 x4 x5 x6 x7 (ix2 v k)
      = zeroW + ∑ e ∈ edgesTo (N := 100000) (M := 625000) (w := 32) (val_main_v82 (F := Ideal) x1) v,
          (val_main_v67 (F := Ideal) x0 x1 x2 x3 x4 x5 x6 x7) (ix2 (rowOf (N := 100000) (M := 625000) (w := 32) node_pos (val_main_v79 (F := Ideal) x1) e) k) := by
  unfold val_main_v83 val_main_v80
  refine (aggregate_apply (N := 100000) (M := 625000) (C := 128) (w := 32) node_pos
    gather_S100000x128_S625000x1_S625000x128_1_0_n_n_0_1_1128.wf scatter_S100000x128_S625000x1_S625000x128_1_0_0_1.wf
    (val_main_v81 (F := Ideal)) (val_main_v67 (F := Ideal) x0 x1 x2 x3 x4 x5 x6 x7) (val_main_v79 (F := Ideal) x1) (val_main_v82 (F := Ideal) x1) v k).trans ?_
  rw [val_main_v81_apply, val_main_cst_12_apply, Ideal.ofBits_def]

/-- Layer 2: the neighbour sums of real features are real. -/
theorem real_agg2 (hX : ∀ i, IsReal ((val_main_v67 (F := Ideal) x0 x1 x2 x3 x4 x5 x6 x7) i)) (i : S100000x128.Idx) :
    IsReal (val_main_v83 (F := Ideal) x0 x1 x2 x3 x4 x5 x6 x7 i) := by
  obtain ⟨v, k, rfl⟩ : ∃ (v : Fin 100000) (k : Fin 128), i = ix2 v k := ⟨i 0, i 1, eq_ix2 i⟩
  rw [agg2]
  exact IsReal.add isReal_ofBits_zero (IsReal.sum _ _ fun e _ => hX _)

end Sums2

section Real
variable (x0 : (⟨S100000x128, .f32⟩ : BufTy).Contents (Elt Ideal)) (x1 : (⟨S3x2x625000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S64x128, .f32⟩ : BufTy).Contents (Elt Ideal)) (x9 : (⟨S64, .f32⟩ : BufTy).Contents (Elt Ideal)) (x10 : (⟨S64x128, .f32⟩ : BufTy).Contents (Elt Ideal))

/-- The first layer's output is real when its inputs are. -/
theorem real_layer0 (h0 : ∀ i, IsReal (x0 i)) (h2 : ∀ i, IsReal (x2 i)) (h3 : ∀ i, IsReal (x3 i))
    (h4 : ∀ i, IsReal (x4 i)) (i : S100000x128.Idx) : IsReal (val_main_v33 (F := Ideal) x0 x1 x2 x3 x4 i) := by
  rw [layer0]
  exact isReal_reluRefLayer _ _ _ _ _ _ (real_agg0 x0 x1 h0) (goodDiv0 x1) h0 h2 h4 h3 i

/-- The second layer's output is real when the inputs are. -/
theorem real_layer1 (h0 : ∀ i, IsReal (x0 i)) (h2 : ∀ i, IsReal (x2 i)) (h3 : ∀ i, IsReal (x3 i))
    (h4 : ∀ i, IsReal (x4 i)) (h5 : ∀ i, IsReal (x5 i)) (h6 : ∀ i, IsReal (x6 i)) (h7 : ∀ i, IsReal (x7 i))
    (i : S100000x128.Idx) : IsReal (val_main_v67 (F := Ideal) x0 x1 x2 x3 x4 x5 x6 x7 i) := by
  rw [layer1]
  exact isReal_reluRefLayer _ _ _ _ _ _ (real_agg1 x0 x1 x2 x3 x4 (real_layer0 x0 x1 x2 x3 x4 h0 h2 h3 h4)) (goodDiv1 x1)
    (real_layer0 x0 x1 x2 x3 x4 h0 h2 h3 h4) h5 h7 h6 i

end Real

end Cert.ReferenceIdeal.RefValue

end
-- ==== Proof.Finite.lean ====
/-
  The precondition, read back: every float argument holds real numbers.

  The precondition evaluates, for each of the ten float arguments x, the test "|x| < +∞ at every entry" (a comparison
  of max x (-x) with the value of the word 0x7F800000, which is +∞, reduced by "and" over all axes from the constant 1)
  and takes the conjunction of the ten results; it asserts that this single bit is 1. In the extended reals
  max x (-x) < ⊤ excludes x = ⊤ and x = ⊥ (there max x (-x) = ⊤), so x is the coercion of a real.
  The decoding of one such test is proved once, for an array of any shape, and applied ten times.
-/
import proofs.«118538_j35639638622842_2_alg».proof.Defs
import proofs.«118538_j35639638622842_2_alg».proof.Proof.LibBatchStats
import Idealize.ShloMosaic.Lib.ReduceAll
import Idealize.ShloMosaic.Lib.ValueIdx

noncomputable section

namespace Cert.Sage.Finite

open Idealize.ShloMosaic Idealize.SL.Sem
open Cert.Lib.BatchStats (IsReal)
open Cert.Pre_finite_inputs

/-- The rank-zero shape has exactly one index. -/
instance subsingleton_scalar_idx : Subsingleton S_.Idx := ⟨fun a b => funext fun d => d.elim0⟩

/-- The one index of the rank-zero shape. -/
def j0 : S_.Idx := fun d => d.elim0

/-- An extended real whose absolute value `max x (-x)` lies below `⊤` is a real number. -/
theorem isReal_of_abs_lt_top (x : EReal) (h : max x (-x) < ⊤) : IsReal x := by
  induction x using EReal.rec with
  | bot => exact absurd h (by simp)
  | coe r => exact ⟨r, rfl⟩
  | top => exact absurd h (by simp)

/-- The word 0x7F800000 denotes `⊤`. -/
theorem ofBits_inf : Ideal.ofBits .f32 0x7F800000#32 = ⊤ := by simp [Ideal.ofBits, Ideal.ieee]

/-- One entry: if the comparison `|x| < +∞` answers 1, then `x` is a real number. -/
theorem isReal_of_cmp (x : Ideal .f32)
    (h : FloatOps.cmpf (F := Ideal) .olt (FloatOps.hostAbsf x) (FloatOps.ofBits (F := Ideal) .f32 0x7F800000#32) = 1#1) :
    IsReal x := by
  change Ideal.cmp .olt (max (x : EReal) (-(x : EReal))) (Ideal.ofBits .f32 0x7F800000#32) = 1#1 at h
  rw [ofBits_inf] at h
  by_cases hlt : max (x : EReal) (-(x : EReal)) < ⊤
  · exact isReal_of_abs_lt_top x hlt
  · exfalso
    unfold Ideal.cmp at h
    simp [hlt] at h

/-- One array of any shape: if "all entries satisfy `|x| < +∞`" (the comparison against the broadcast word of `+∞`,
    reduced by "and" over all axes into the one-index result) answers 1, every entry of the array is a real number. -/
theorem all_finite {s : Shape} {axes : List (Fin s.rank)} (x : FVec Ideal s .f32)
    (hb : S_.BroadcastsInDim s (![] : Fin 0 → Fin s.rank)) (hr : s.ReducesTo axes S_) (h0 : 0 < S_.numel) (j : S_.Idx)
    (e : Host.reduce IntOp.andi
          (cmpf .olt (Host.absf x) (broadcastInDim s ![] hb (constant (F := Ideal) S_ .f32 0x7F800000#32)))
          (constantI S_ 1 1#1) hr h0 j = 1#1) :
    ∀ i, IsReal (x i) := fun i =>
  isReal_of_cmp (x i) (Host.reduce_andi_all _ _ hr h0 j e i)

/-- The elementwise "and" of two one-bit arrays is 1 at an index exactly when both are. -/
theorem andi_apply_eq_one {s : Shape} (a b : IVec s 1) (j : s.Idx) :
    andi a b j = 1#1 ↔ a j = 1#1 ∧ b j = 1#1 :=
  IntOp.andi_eq_one

/-- The printed predicate, on any eleven arrays: if it answers 1, every entry of every float array is a real number. -/
theorem fn_real [hP : Cert.Pre_finite_inputs.Facts]
    (a0 : FVec Ideal S100000x128 .f32)
    (a1 : IVec S3x2x625000 32)
    (a2 : FVec Ideal S128x128 .f32)
    (a3 : FVec Ideal S128 .f32)
    (a4 : FVec Ideal S128x128 .f32)
    (a5 : FVec Ideal S128x128 .f32)
    (a6 : FVec Ideal S128 .f32)
    (a7 : FVec Ideal S128x128 .f32)
    (a8 : FVec Ideal S64x128 .f32)
    (a9 : FVec Ideal S64 .f32)
    (a10 : FVec Ideal S64x128 .f32)
    (h : Cert.Pre_finite_inputs.fn (F := Ideal) a0 a1 a2 a3 a4 a5 a6 a7 a8 a9 a10 = fun _ => 1#1) :
    (∀ i, IsReal (a0 i))
      ∧ (∀ i, IsReal (a2 i))
      ∧ (∀ i, IsReal (a3 i))
      ∧ (∀ i, IsReal (a4 i))
      ∧ (∀ i, IsReal (a5 i))
      ∧ (∀ i, IsReal (a6 i))
      ∧ (∀ i, IsReal (a7 i))
      ∧ (∀ i, IsReal (a8 i))
      ∧ (∀ i, IsReal (a9 i))
      ∧ (∀ i, IsReal (a10 i)) := by
  have e := congrFun h j0
  dsimp only [Cert.Pre_finite_inputs.fn, Cert.Pre_finite_inputs.fn_part1, Cert.Pre_finite_inputs.fn_part2] at e
  simp only [andi_apply_eq_one] at e
  obtain ⟨⟨⟨⟨⟨⟨⟨⟨⟨e0, e2⟩, e3⟩, e4⟩, e5⟩, e6⟩, e7⟩, e8⟩, e9⟩, e10⟩ := e
  exact ⟨all_finite a0 _ _ _ j0 e0,
    all_finite a2 _ _ _ j0 e2,
    all_finite a3 _ _ _ j0 e3,
    all_finite a4 _ _ _ j0 e4,
    all_finite a5 _ _ _ j0 e5,
    all_finite a6 _ _ _ j0 e6,
    all_finite a7 _ _ _ j0 e7,
    all_finite a8 _ _ _ j0 e8,
    all_finite a9 _ _ _ j0 e9,
    all_finite a10 _ _ _ j0 e10⟩

/-- Under the certificate's precondition every entry of every float argument array, on every device, is a real number
    (arguments 0, 2, 3, 4, 5, 6, 7, 8, 9, 10 in this order; argument 1 is an integer array). -/
theorem args_real [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal ((m ((c.tc : Thread Cert.KernelIdeal.nD Cert.KernelIdeal.τ).loc Cert.KernelIdeal.main_arg0)) i))
      ∧ (∀ i, IsReal ((m ((c.tc : Thread Cert.KernelIdeal.nD Cert.KernelIdeal.τ).loc Cert.KernelIdeal.main_arg2)) i))
      ∧ (∀ i, IsReal ((m ((c.tc : Thread Cert.KernelIdeal.nD Cert.KernelIdeal.τ).loc Cert.KernelIdeal.main_arg3)) i))
      ∧ (∀ i, IsReal ((m ((c.tc : Thread Cert.KernelIdeal.nD Cert.KernelIdeal.τ).loc Cert.KernelIdeal.main_arg4)) i))
      ∧ (∀ i, IsReal ((m ((c.tc : Thread Cert.KernelIdeal.nD Cert.KernelIdeal.τ).loc Cert.KernelIdeal.main_arg5)) i))
      ∧ (∀ i, IsReal ((m ((c.tc : Thread Cert.KernelIdeal.nD Cert.KernelIdeal.τ).loc Cert.KernelIdeal.main_arg6)) i))
      ∧ (∀ i, IsReal ((m ((c.tc : Thread Cert.KernelIdeal.nD Cert.KernelIdeal.τ).loc Cert.KernelIdeal.main_arg7)) i))
      ∧ (∀ i, IsReal ((m ((c.tc : Thread Cert.KernelIdeal.nD Cert.KernelIdeal.τ).loc Cert.KernelIdeal.main_arg8)) i))
      ∧ (∀ i, IsReal ((m ((c.tc : Thread Cert.KernelIdeal.nD Cert.KernelIdeal.τ).loc Cert.KernelIdeal.main_arg9)) i))
      ∧ (∀ i, IsReal ((m ((c.tc : Thread Cert.KernelIdeal.nD Cert.KernelIdeal.τ).loc Cert.KernelIdeal.main_arg10)) i)) :=
  fn_real _ _ _ _ _ _ _ _ _ _ _ (h c)

end Cert.Sage.Finite

end
-- ==== Proof.KernelValue.lean ====
/-
  The idealized kernel's result, stage by stage, is the reference's.

  After each region the array it wrote is the matching stage of the reference evaluated at the kernel's own
  arguments. Layers 0 and 1: the region computes max(((agg · inv) · Wlᵀ + x · Wrᵀ) + b, 0) with inv = 1 / max(deg, 1);
  the neighbour sums and the divisor are the same terms of the same arguments on both sides, and a · (1 / D) = a / D
  for the nonzero real D. Layer 2: the kernel projects the rows through Wlᵀ first, sums the projected rows over the
  neighbours and multiplies by inv; the reference sums the rows, divides and projects; for real features and weights
  the two agree (the sum over the neighbours commutes with the sum over the feature axis).
-/
import proofs.«118538_j35639638622842_2_alg».proof.Defs
import proofs.«118538_j35639638622842_2_alg».proof.Proof.NamedRun
import proofs.«118538_j35639638622842_2_alg».proof.Proof.Host0
import proofs.«118538_j35639638622842_2_alg».proof.Proof.Host1
import proofs.«118538_j35639638622842_2_alg».proof.Proof.Host2
import proofs.«118538_j35639638622842_2_alg».proof.Proof.Host3
import proofs.«118538_j35639638622842_2_alg».proof.Proof.Leaves
import proofs.«118538_j35639638622842_2_alg».proof.Proof.Region01
import proofs.«118538_j35639638622842_2_alg».proof.Proof.Region23
import proofs.«118538_j35639638622842_2_alg».proof.Proof.LayoutRead
import proofs.«118538_j35639638622842_2_alg».proof.Proof.RefValue
import proofs.«118538_j35639638622842_2_alg».proof.Proof.Finite

set_option maxRecDepth 16384

noncomputable section

open scoped BigOperators

namespace Cert.KernelIdeal.KernelValue

open Cert.KernelIdeal Cert.KernelIdeal.Gen Idealize.ShloMosaic Idealize.ShloMosaic.TcCoe Idealize.SL.Sem
  Idealize.ShloMosaic.ValueIdx Cert.Sage Cert.KernelIdeal.HostRead Cert.KernelIdeal.RegionValue Cert.Lib.BatchStats

/-- A transposed matrix read back: entry (k, j) of the transpose is entry (j, k). Stated for the three transposes
    the layers use. -/
theorem tr_apply {a b : ℕ} (T : ((⟨2, ![a, b]⟩ : Shape).Idx → EReal) → (⟨2, ![b, a]⟩ : Shape).Idx → EReal)
    (idx : (⟨2, ![b, a]⟩ : Shape).Idx → (⟨2, ![a, b]⟩ : Shape).Idx)
    (hT : ∀ x i, T x i = x (idx i)) (hidx : ∀ (k : Fin b) (j : Fin a), idx (ix2 k j) = ix2 j k)
    (x : (⟨2, ![a, b]⟩ : Shape).Idx → EReal) (k : Fin b) (j : Fin a) : T x (ix2 k j) = x (ix2 j k) := by
  rw [hT, hidx]

variable (m : (ℓ : Loc nD τ sig) → Buf (Elt Ideal) ℓ) (ρ : Dev nD → PrngReg)

/-- After the first region: the first layer of the reference at the kernel's arguments. -/
theorem stage0 (c : Dev nD) :
    (W2 m ρ c (Proc.devRef .tc main_v28) : S100000x128.Idx → EReal)
      = Cert.ReferenceIdeal.Read.val_main_v33 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  rw [W2_out, final0]
  show reluDense (n := 100000) (ci := 128) (co := 128) (V1 m ρ c main_v15) (V1 m ρ c main_v24) (V1 m ρ c main_arg0)
    (V1 m ρ c main_v25) (V1 m ρ c main_v26) (V1 m ρ c main_v27) = _
  rw [s0_agg, s0_inv, s0_x, s0_wl, s0_wr, s0_b, Cert.ReferenceIdeal.RefValue.layer0]
  refine reluDense_eq_reluRefLayer _ _ _ _ _ _ _ _ _ _ (Cert.ReferenceIdeal.RefValue.goodDiv0 _) (fun v => Layout.inv_col_apply _ _ _ v 0)
    (fun k j => ?_) (fun k j => ?_) (fun j => Layout.reshape_row_apply _ _ 0 j)
  · exact tr_apply _ _ (Cert.ReferenceIdeal.Read.val_main_v25_apply (F := Ideal)) (fun k j => funext fun a => Fin.ext (by
      match a with | ⟨0, _⟩ => rfl | ⟨1, _⟩ => rfl)) _ k j
  · exact tr_apply _ _ (Cert.ReferenceIdeal.Read.val_main_v30_apply (F := Ideal)) (fun k j => funext fun a => Fin.ext (by
      match a with | ⟨0, _⟩ => rfl | ⟨1, _⟩ => rfl)) _ k j

/-- After the second region: the second layer of the reference at the kernel's arguments. -/
theorem stage1 (c : Dev nD) :
    (W4 m ρ c (Proc.devRef .tc main_v57) : S100000x128.Idx → EReal)
      = Cert.ReferenceIdeal.Read.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [W4_out, final1]
  show reluDense (n := 100000) (ci := 128) (co := 128) (V3 m ρ c main_v44) (V3 m ρ c main_v53) (V3 m ρ c main_v28)
    (V3 m ρ c main_v54) (V3 m ρ c main_v55) (V3 m ρ c main_v56) = _
  rw [s1_agg, s1_inv, s1_x, s1_wl, s1_wr, s1_b, W2_arg1, W2_arg5, W2_arg6, W2_arg7, stage0, Cert.ReferenceIdeal.RefValue.layer1]
  refine reluDense_eq_reluRefLayer _ _ _ _ _ _ _ _ _ _ (Cert.ReferenceIdeal.RefValue.goodDiv1 _) (fun v => Layout.inv_col_apply _ _ _ v 0)
    (fun k j => ?_) (fun k j => ?_) (fun j => Layout.reshape_row_apply _ _ 0 j)
  · exact tr_apply _ _ (Cert.ReferenceIdeal.Read.val_main_v59_apply (F := Ideal)) (fun k j => funext fun a => Fin.ext (by
      match a with | ⟨0, _⟩ => rfl | ⟨1, _⟩ => rfl)) _ k j
  · exact tr_apply _ _ (Cert.ReferenceIdeal.Read.val_main_v64_apply (F := Ideal)) (fun k j => funext fun a => Fin.ext (by
      match a with | ⟨0, _⟩ => rfl | ⟨1, _⟩ => rfl)) _ k j

/-- After the third region: the rows of the second layer's output projected through the last layer's neighbour
    weights. -/
theorem stage2 (c : Dev nD) :
    (W6 m ρ c (Proc.devRef .tc main_v62) : S100000x64.Idx → EReal)
      = proj (n := 100000) (ci := 128) (co := 64) (Cert.ReferenceIdeal.Read.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
          (Cert.ReferenceIdeal.Read.val_main_v93 (F := Ideal) (m ((c : Thread nD τ).loc main_arg8))) := by
  rw [W6_out, final2]
  show proj (n := 100000) (ci := 128) (co := 64) (V5 m ρ c main_v57) (V5 m ρ c main_v60) = _
  rw [s2_x, s2_wl, W4_arg8, stage1]

/-- The edge index array of the last layer, as the last stretch finds it. -/
theorem edges2 (c : Dev nD) :
    W6 m ρ c (Proc.devRef .tc main_v59) = Cert.ReferenceIdeal.Read.val_main_v69 (F := Ideal) (m ((c : Thread nD τ).loc main_arg1)) := by
  rw [W6_v59, s2_ei, W4_arg1]

/-- The root weights of the last layer, transposed, as the last stretch finds them. -/
theorem rootw2 (c : Dev nD) :
    W6 m ρ c (Proc.devRef .tc main_v61) = Cert.ReferenceIdeal.Read.val_main_v98 (F := Ideal) (m ((c : Thread nD τ).loc main_arg10)) := by
  rw [W6_v61, s2_wr, W4_arg10]

/-- The second layer's output, as the last stretch finds it. -/
theorem feat2 (c : Dev nD) :
    (W6 m ρ c (Proc.devRef .tc main_v57) : S100000x128.Idx → EReal)
      = Cert.ReferenceIdeal.Read.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [W6_v57]
  exact (s2_x m ρ c).trans (stage1 m ρ c)

/-- THE RESULT. After the last region the result array is the reference's last stage at the kernel's arguments,
    when every float argument is real. -/
theorem stage3 [hP : Cert.Pre_finite_inputs.Facts] (hpre : Cert.Pre_KernelIdeal m) (c : Dev nD) :
    (W8 m ρ c (Proc.devRef .tc main_v87) : S100000x64.Idx → EReal)
      = Cert.ReferenceIdeal.Read.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  obtain ⟨h0, h2, h3, h4, h5, h6, h7, h8, h9, h10⟩ := Cert.Sage.Finite.args_real m hpre c
  rw [W8_out, final3]
  show finish (n := 100000) (ci := 128) (co := 64) (V7 m ρ c main_v76) (V7 m ρ c main_v85) (V7 m ρ c main_v57)
    (V7 m ρ c main_v61) (V7 m ρ c main_v86) = _
  rw [s3_aggy m ρ c _ (edges2 m ρ c), s3_inv m ρ c _ (edges2 m ρ c), s3_x, s3_wr, s3_b, W6_arg9, rootw2, feat2, stage2,
    Cert.ReferenceIdeal.RefValue.layer2]
  refine finish_eq_refLayer (m := 625000) _ (Cert.ReferenceIdeal.RefValue.real_layer1 _ _ _ _ _ _ _ _ h0 h2 h3 h4 h5 h6 h7) _
    (proj (n := 100000) (ci := 128) (co := 64) (Cert.ReferenceIdeal.Read.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
      (Cert.ReferenceIdeal.Read.val_main_v93 (F := Ideal) (m ((c : Thread nD τ).loc main_arg8))))
    _ _ _ _ _ _ _ h8 _
    (fun v => edgesTo (N := 100000) (M := 625000) (w := 32) (Cert.ReferenceIdeal.Read.val_main_v82 (F := Ideal) (m ((c : Thread nD τ).loc main_arg1))) v)
    (rowOf (N := 100000) (M := 625000) (w := 32) Cert.ReferenceIdeal.RefValue.node_pos (Cert.ReferenceIdeal.Read.val_main_v79 (F := Ideal) (m ((c : Thread nD τ).loc main_arg1))))
    (fun v j => ?_) (fun u j => ?_) (fun v k => Cert.ReferenceIdeal.RefValue.agg2 _ _ _ _ _ _ _ _ v k) (Cert.ReferenceIdeal.RefValue.goodDiv2 _)
    (fun v => Layout.inv_col_apply _ _ _ v 0) (fun k j => ?_) (fun j => Layout.reshape_row_apply _ _ 0 j)
  · -- the neighbour sum of the projected rows at (v, j)
    refine (aggregate_apply (N := 100000) (M := 625000) (C := 64) (w := 32) Cert.ReferenceIdeal.RefValue.node_pos
      gather_S100000x64_S625000x1_S625000x64_1_0_n_n_0_1_164.wf scatter_S100000x64_S625000x1_S625000x64_1_0_0_1.wf
      _ _ _ _ v j).trans ?_
    rw [Layout.bcast_scalar_apply]
  · -- a projected row at (u, j), the weights read untransposed
    rw [proj_apply]
    refine Finset.sum_congr rfl fun k _ => ?_
    refine congrArg _ ?_
    exact tr_apply _ _ (Cert.ReferenceIdeal.Read.val_main_v93_apply (F := Ideal)) (fun k j => funext fun a => Fin.ext (by
      match a with | ⟨0, _⟩ => rfl | ⟨1, _⟩ => rfl)) _ k j
  · exact tr_apply _ _ (Cert.ReferenceIdeal.Read.val_main_v98_apply (F := Ideal)) (fun k j => funext fun a => Fin.ext (by
      match a with | ⟨0, _⟩ => rfl | ⟨1, _⟩ => rfl)) _ k j

/-- THE KERNEL'S RUN with its result at the reference's last stage of the kernel's own arguments. -/
theorem run_value [hP : Cert.Pre_finite_inputs.Facts] (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v87)
        = Cert.ReferenceIdeal.Read.val_main_v100 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).1.trans (stage3 m ρ hpre c), (h c).2⟩)
    (Cert.KernelIdeal.NamedRun.run_named (F := Ideal) m ρ)

end Cert.KernelIdeal.KernelValue

end
-- ==== Proof.lean ====
/-
  Claimed: the three programs run and leave their argument arrays unchanged, and at the ideal values the kernel and the
  reference, started from memories that agree on the arguments, end with the same [100000, 64] result array. The two
  sides are joined by two laws of the extended reals on real entries: division by the nonzero real max(deg, 1) is the
  product with its reciprocal, and the sum over a node's neighbours commutes with the projection of the last layer.
-/
import proofs.«118538_j35639638622842_2_alg».proof.Defs
import proofs.«118538_j35639638622842_2_alg».proof.Proof.Gen.Kernel
import proofs.«118538_j35639638622842_2_alg».proof.Proof.Gen.Kernel.Skeleton
import proofs.«118538_j35639638622842_2_alg».proof.Proof.Gen.Kernel.Launch
import proofs.«118538_j35639638622842_2_alg».proof.Proof.Gen.Kernel.Points
import proofs.«118538_j35639638622842_2_alg».proof.Proof.Gen.Kernel.Frame
import proofs.«118538_j35639638622842_2_alg».proof.Proof.Gen.KernelIdeal
import proofs.«118538_j35639638622842_2_alg».proof.Proof.Gen.KernelIdeal.Skeleton
import proofs.«118538_j35639638622842_2_alg».proof.Proof.Gen.KernelIdeal.Launch
import proofs.«118538_j35639638622842_2_alg».proof.Proof.Gen.KernelIdeal.Points
import proofs.«118538_j35639638622842_2_alg».proof.Proof.Gen.KernelIdeal.Frame
import proofs.«118538_j35639638622842_2_alg».proof.Proof.Gen.ReferenceIdeal
import proofs.«118538_j35639638622842_2_alg».proof.Proof.Gen.Pre_finite_inputs
import proofs.«118538_j35639638622842_2_alg».proof.Proof.Gen.ReferenceIdeal.Run
import proofs.«118538_j35639638622842_2_alg».proof.Proof.Gen.ReferenceIdeal.Read
import proofs.«118538_j35639638622842_2_alg».proof.Proof.KernelValue
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  fun m ρ m' ρ' hpre hagree =>
    ⟨fun c => Cert.ReferenceIdeal.Read.val_main_v100 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
      Cert.KernelIdeal.KernelValue.run_value m ρ hpre,
      (θ_run Cert.ReferenceIdeal.defs _ _).mono (fun _ h c => ⟨(h c).1.trans
          ((Cert.ReferenceIdeal.Read.val_main_v100_eq (F := Ideal) m' c).trans (by
            obtain ⟨h0, h1, h2, h3, h4, h5, h6, h7, h8, h9, h10⟩ := hagree c
            rw [h0, h1, h2, h3, h4, h5, h6, h7, h8, h9, h10])), (h c).2⟩)
        (Cert.ReferenceIdeal.Value.run (F := Ideal) m' ρ')⟩⟩

end Cert.Proof

end
